-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16000 : Shape := ⟨1, ![16000]⟩
abbrev S16000x16000 : Shape := ⟨2, ![16000, 16000]⟩
abbrev S300x300 : Shape := ⟨2, ![300, 300]⟩
abbrev S16000x300 : Shape := ⟨2, ![16000, 300]⟩
abbrev S300x30 : Shape := ⟨2, ![300, 30]⟩
abbrev S16000x32 : Shape := ⟨2, ![16000, 32]⟩
abbrev S20x32 : Shape := ⟨2, ![20, 32]⟩
abbrev S2200x32 : Shape := ⟨2, ![2200, 32]⟩
abbrev S6x32 : Shape := ⟨2, ![6, 32]⟩
abbrev S128x128 : Shape := ⟨2, ![128, 128]⟩
abbrev S128 : Shape := ⟨1, ![128]⟩
abbrev S256x1 : Shape := ⟨2, ![256, 1]⟩
abbrev S1 : Shape := ⟨1, ![1]⟩
abbrev S_ : Shape := ⟨0, ![]⟩

class Facts : Prop where
  bcast_S_S16000x16000 : S_.BroadcastsInDim S16000x16000 (![] : Fin 0 → Fin S16000x16000.rank)
  reducesTo_S16000x16000_S_d0_1 : S16000x16000.ReducesTo [0, 1] S_
  h_S_ : 0 < S_.numel
  bcast_S_S300x300 : S_.BroadcastsInDim S300x300 (![] : Fin 0 → Fin S300x300.rank)
  reducesTo_S300x300_S_d0_1 : S300x300.ReducesTo [0, 1] S_
  bcast_S_S16000x300 : S_.BroadcastsInDim S16000x300 (![] : Fin 0 → Fin S16000x300.rank)
  reducesTo_S16000x300_S_d0_1 : S16000x300.ReducesTo [0, 1] S_
  bcast_S_S300x30 : S_.BroadcastsInDim S300x30 (![] : Fin 0 → Fin S300x30.rank)
  reducesTo_S300x30_S_d0_1 : S300x30.ReducesTo [0, 1] S_
  bcast_S_S16000x32 : S_.BroadcastsInDim S16000x32 (![] : Fin 0 → Fin S16000x32.rank)
  reducesTo_S16000x32_S_d0_1 : S16000x32.ReducesTo [0, 1] S_
  bcast_S_S20x32 : S_.BroadcastsInDim S20x32 (![] : Fin 0 → Fin S20x32.rank)
  reducesTo_S20x32_S_d0_1 : S20x32.ReducesTo [0, 1] S_
  bcast_S_S2200x32 : S_.BroadcastsInDim S2200x32 (![] : Fin 0 → Fin S2200x32.rank)
  reducesTo_S2200x32_S_d0_1 : S2200x32.ReducesTo [0, 1] S_
  bcast_S_S6x32 : S_.BroadcastsInDim S6x32 (![] : Fin 0 → Fin S6x32.rank)
  reducesTo_S6x32_S_d0_1 : S6x32.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg22 : FVec F S128 .f32) (main_arg23 : FVec F S128 .f32) (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  let main_v89 : FVec F S128 .f32 := Host.absf main_arg22
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128 .f32 := Host.absf main_arg23
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  main_v98

def fn_part4 {F : FTy → Type} [FloatOps F] (main_arg18 : FVec F S256x1 .f32) (main_arg19 : FVec F S1 .f32) (main_arg20 : FVec F S256x1 .f32) (main_arg21 : FVec F S1 .f32) (main_arg22 : FVec F S128 .f32) (main_arg23 : FVec F S128 .f32) (main_v63 : IVec S_ 1) (main_v67 : IVec S_ 1) : IVec S_ 1 :=
  let main_v68 : IVec S_ 1 := andi main_v63 main_v67
  let main_v69 : FVec F S256x1 .f32 := Host.absf main_arg18
  let main_cst_26 : FVec F S_ .f32 := constant S_ .f32 0x7F800000#32
  let main_v70 : FVec F S256x1 .f32 := broadcastInDim S256x1 ![] bcast_S_S256x1 main_cst_26
  let main_v71 : IVec S256x1 1 := cmpf .olt main_v69 main_v70
  let main_c_27 : IVec S_ 1 := constantI S_ 1 1#1
  let main_v72 : IVec S_ 1 := (fun x v => Host.reduce IntOp.andi x v reducesTo_S256x1_S_d0_1 h_S_) main_v71 main_c_27
  let main_v73 : IVec S_ 1 := andi main_v68 main_v72
  let main_v74 : FVec F S1 .f32 := Host.absf main_arg19
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  let main_v79 : FVec F S256x1 .f32 := Host.absf main_arg20
  let main_cst_30 : FVec F S_ .f32 := constant S_ .f32 0x7F800000#32
  let main_v80 : FVec F S256x1 .f32 := broadcastInDim S256x1 ![] bcast_S_S256x1 main_cst_30
  let main_v81 : IVec S256x1 1 := cmpf .olt main_v79 main_v80
  let main_c_31 : IVec S_ 1 := constantI S_ 1 1#1
  let main_v82 : IVec S_ 1 := (fun x v => Host.reduce IntOp.andi x v reducesTo_S256x1_S_d0_1 h_S_) main_v81 main_c_31
  let main_v83 : IVec S_ 1 := andi main_v78 main_v82
  let main_v84 : FVec F S1 .f32 := Host.absf main_arg21
  let main_cst_32 : FVec F S_ .f32 := constant S_ .f32 0x7F800000#32
  fn_part5 (F := F) main_arg22 main_arg23 main_v83 main_v84 main_cst_32

def fn_part3 {F : FTy → Type} [FloatOps F] (main_arg15 : FVec F S128 .f32) (main_arg16 : FVec F S128x128 .f32) (main_arg17 : FVec F S128 .f32) (main_arg18 : FVec F S256x1 .f32) (main_arg19 : FVec F S1 .f32) (main_arg20 : FVec F S256x1 .f32) (main_arg21 : FVec F S1 .f32) (main_arg22 : FVec F S128 .f32) (main_arg23 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg15
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg16
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg17
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg18 main_arg19 main_arg20 main_arg21 main_arg22 main_arg23 main_v63 main_v67

def fn_part2 {F : FTy → Type} [FloatOps F] (main_arg11 : FVec F S6x32 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S256x1 .f32) (main_arg19 : FVec F S1 .f32) (main_arg20 : FVec F S256x1 .f32) (main_arg21 : FVec F S1 .f32) (main_arg22 : FVec F S128 .f32) (main_arg23 : FVec F S128 .f32) (main_v33 : IVec S_ 1) : IVec S_ 1 :=
  let main_v34 : FVec F S6x32 .f32 := Host.absf main_arg11
  let main_cst_12 : FVec F S_ .f32 := constant S_ .f32 0x7F800000#32
  let main_v35 : FVec F S6x32 .f32 := broadcastInDim S6x32 ![] bcast_S_S6x32 main_cst_12
  let main_v36 : IVec S6x32 1 := cmpf .olt main_v34 main_v35
  let main_c_13 : IVec S_ 1 := constantI S_ 1 1#1
  let main_v37 : IVec S_ 1 := (fun x v => Host.reduce IntOp.andi x v reducesTo_S6x32_S_d0_1 h_S_) main_v36 main_c_13
  let main_v38 : IVec S_ 1 := andi main_v33 main_v37
  let main_v39 : FVec F S128x128 .f32 := Host.absf main_arg12
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg13
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg14
  let main_cst_18 : FVec F S_ .f32 := constant S_ .f32 0x7F800000#32
  let main_v50 : FVec F S128x128 .f32 := broadcastInDim S128x128 ![] bcast_S_S128x128 main_cst_18
  fn_part3 (F := F) main_arg15 main_arg16 main_arg17 main_arg18 main_arg19 main_arg20 main_arg21 main_arg22 main_arg23 main_v48 main_v49 main_v50

def fn_part1 {F : FTy → Type} [FloatOps F] (main_arg8 : FVec F S16000x32 .f32) (main_arg9 : FVec F S20x32 .f32) (main_arg10 : FVec F S2200x32 .f32) (main_arg11 : FVec F S6x32 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S256x1 .f32) (main_arg19 : FVec F S1 .f32) (main_arg20 : FVec F S256x1 .f32) (main_arg21 : FVec F S1 .f32) (main_arg22 : FVec F S128 .f32) (main_arg23 : FVec F S128 .f32) (main_v13 : IVec S_ 1) (main_v16 : IVec S300x30 1) : IVec S_ 1 :=
  let main_c_5 : IVec S_ 1 := constantI S_ 1 1#1
  let main_v17 : IVec S_ 1 := (fun x v => Host.reduce IntOp.andi x v reducesTo_S300x30_S_d0_1 h_S_) main_v16 main_c_5
  let main_v18 : IVec S_ 1 := andi main_v13 main_v17
  let main_v19 : FVec F S16000x32 .f32 := Host.absf main_arg8
  let main_cst_6 : FVec F S_ .f32 := constant S_ .f32 0x7F800000#32
  let main_v20 : FVec F S16000x32 .f32 := broadcastInDim S16000x32 ![] bcast_S_S16000x32 main_cst_6
  let main_v21 : IVec S16000x32 1 := cmpf .olt main_v19 main_v20
  let main_c_7 : IVec S_ 1 := constantI S_ 1 1#1
  let main_v22 : IVec S_ 1 := (fun x v => Host.reduce IntOp.andi x v reducesTo_S16000x32_S_d0_1 h_S_) main_v21 main_c_7
  let main_v23 : IVec S_ 1 := andi main_v18 main_v22
  let main_v24 : FVec F S20x32 .f32 := Host.absf main_arg9
  let main_cst_8 : FVec F S_ .f32 := constant S_ .f32 0x7F800000#32
  let main_v25 : FVec F S20x32 .f32 := broadcastInDim S20x32 ![] bcast_S_S20x32 main_cst_8
  let main_v26 : IVec S20x32 1 := cmpf .olt main_v24 main_v25
  let main_c_9 : IVec S_ 1 := constantI S_ 1 1#1
  let main_v27 : IVec S_ 1 := (fun x v => Host.reduce IntOp.andi x v reducesTo_S20x32_S_d0_1 h_S_) main_v26 main_c_9
  let main_v28 : IVec S_ 1 := andi main_v23 main_v27
  let main_v29 : FVec F S2200x32 .f32 := Host.absf main_arg10
  let main_cst_10 : FVec F S_ .f32 := constant S_ .f32 0x7F800000#32
  let main_v30 : FVec F S2200x32 .f32 := broadcastInDim S2200x32 ![] bcast_S_S2200x32 main_cst_10
  let main_v31 : IVec S2200x32 1 := cmpf .olt main_v29 main_v30
  let main_c_11 : IVec S_ 1 := constantI S_ 1 1#1
  let main_v32 : IVec S_ 1 := (fun x v => Host.reduce IntOp.andi x v reducesTo_S2200x32_S_d0_1 h_S_) main_v31 main_c_11
  let main_v33 : IVec S_ 1 := andi main_v28 main_v32
  fn_part2 (F := F) main_arg11 main_arg12 main_arg13 main_arg14 main_arg15 main_arg16 main_arg17 main_arg18 main_arg19 main_arg20 main_arg21 main_arg22 main_arg23 main_v33

def fn {F : FTy → Type} [FloatOps F] (main_arg0 : IVec S16000 32) (main_arg1 : IVec S16000 32) (main_arg2 : IVec S16000 32) (main_arg3 : IVec S16000 32) (main_arg4 : FVec F S16000x16000 .f32) (main_arg5 : FVec F S300x300 .f32) (main_arg6 : FVec F S16000x300 .f32) (main_arg7 : FVec F S300x30 .f32) (main_arg8 : FVec F S16000x32 .f32) (main_arg9 : FVec F S20x32 .f32) (main_arg10 : FVec F S2200x32 .f32) (main_arg11 : FVec F S6x32 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S256x1 .f32) (main_arg19 : FVec F S1 .f32) (main_arg20 : FVec F S256x1 .f32) (main_arg21 : FVec F S1 .f32) (main_arg22 : FVec F S128 .f32) (main_arg23 : FVec F S128 .f32) : IVec S_ 1 :=
  let main_v0 : FVec F S16000x16000 .f32 := Host.absf main_arg4
  let main_cst : FVec F S_ .f32 := constant S_ .f32 0x7F800000#32
  let main_v1 : FVec F S16000x16000 .f32 := broadcastInDim S16000x16000 ![] bcast_S_S16000x16000 main_cst
  let main_v2 : IVec S16000x16000 1 := cmpf .olt main_v0 main_v1
  let main_c : IVec S_ 1 := constantI S_ 1 1#1
  let main_v3 : IVec S_ 1 := (fun x v => Host.reduce IntOp.andi x v reducesTo_S16000x16000_S_d0_1 h_S_) main_v2 main_c
  let main_v4 : FVec F S300x300 .f32 := Host.absf main_arg5
  let main_cst_0 : FVec F S_ .f32 := constant S_ .f32 0x7F800000#32
  let main_v5 : FVec F S300x300 .f32 := broadcastInDim S300x300 ![] bcast_S_S300x300 main_cst_0
  let main_v6 : IVec S300x300 1 := cmpf .olt main_v4 main_v5
  let main_c_1 : IVec S_ 1 := constantI S_ 1 1#1
  let main_v7 : IVec S_ 1 := (fun x v => Host.reduce IntOp.andi x v reducesTo_S300x300_S_d0_1 h_S_) main_v6 main_c_1
  let main_v8 : IVec S_ 1 := andi main_v3 main_v7
  let main_v9 : FVec F S16000x300 .f32 := Host.absf main_arg6
  let main_cst_2 : FVec F S_ .f32 := constant S_ .f32 0x7F800000#32
  let main_v10 : FVec F S16000x300 .f32 := broadcastInDim S16000x300 ![] bcast_S_S16000x300 main_cst_2
  let main_v11 : IVec S16000x300 1 := cmpf .olt main_v9 main_v10
  let main_c_3 : IVec S_ 1 := constantI S_ 1 1#1
  let main_v12 : IVec S_ 1 := (fun x v => Host.reduce IntOp.andi x v reducesTo_S16000x300_S_d0_1 h_S_) main_v11 main_c_3
  let main_v13 : IVec S_ 1 := andi main_v8 main_v12
  let main_v14 : FVec F S300x30 .f32 := Host.absf main_arg7
  let main_cst_4 : FVec F S_ .f32 := constant S_ .f32 0x7F800000#32
  let main_v15 : FVec F S300x30 .f32 := broadcastInDim S300x30 ![] bcast_S_S300x30 main_cst_4
  let main_v16 : IVec S300x30 1 := cmpf .olt main_v14 main_v15
  fn_part1 (F := F) main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S16000 : Shape := ⟨1, ![16000]⟩
abbrev S16000x16000 : Shape := ⟨2, ![16000, 16000]⟩
abbrev S300x300 : Shape := ⟨2, ![300, 300]⟩
abbrev S16000x300 : Shape := ⟨2, ![16000, 300]⟩
abbrev S300x30 : Shape := ⟨2, ![300, 30]⟩
abbrev S16000x32 : Shape := ⟨2, ![16000, 32]⟩
abbrev S20x32 : Shape := ⟨2, ![20, 32]⟩
abbrev S2200x32 : Shape := ⟨2, ![2200, 32]⟩
abbrev S6x32 : Shape := ⟨2, ![6, 32]⟩
abbrev S128x128 : Shape := ⟨2, ![128, 128]⟩
abbrev S128 : Shape := ⟨1, ![128]⟩
abbrev S256x1 : Shape := ⟨2, ![256, 1]⟩
abbrev S1 : Shape := ⟨1, ![1]⟩
abbrev S_ : Shape := ⟨0, ![]⟩
abbrev S16000x1 : Shape := ⟨2, ![16000, 1]⟩
abbrev S16000x128 : Shape := ⟨2, ![16000, 128]⟩
abbrev S2000x128 : Shape := ⟨2, ![2000, 128]⟩
abbrev S1x128 : Shape := ⟨2, ![1, 128]⟩
abbrev S1000x3200 : Shape := ⟨2, ![1000, 3200]⟩
abbrev S1000x128 : Shape := ⟨2, ![1000, 128]⟩
abbrev S3200x128 : Shape := ⟨2, ![3200, 128]⟩

abbrev nBuf : Space → Nat
  | .hbm => 64
  | .vmem => 12
  | .smem => 0
  | _ => 0

abbrev bufTy : (tb : Table) → Fin (tcTables nBuf tb) → BufTy
  | .hbm, ⟨0, _⟩ => ⟨S16000, .i32⟩
  | .hbm, ⟨1, _⟩ => ⟨S16000, .i32⟩
  | .hbm, ⟨2, _⟩ => ⟨S16000, .i32⟩
  | .hbm, ⟨3, _⟩ => ⟨S16000, .i32⟩
  | .hbm, ⟨4, _⟩ => ⟨S16000x16000, .f32⟩
  | .hbm, ⟨5, _⟩ => ⟨S300x300, .f32⟩
  | .hbm, ⟨6, _⟩ => ⟨S16000x300, .f32⟩
  | .hbm, ⟨7, _⟩ => ⟨S300x30, .f32⟩
  | .hbm, ⟨8, _⟩ => ⟨S16000x32, .f32⟩
  | .hbm, ⟨9, _⟩ => ⟨S20x32, .f32⟩
  | .hbm, ⟨10, _⟩ => ⟨S2200x32, .f32⟩
  | .hbm, ⟨11, _⟩ => ⟨S6x32, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S256x1, .f32⟩
  | .hbm, ⟨19, _⟩ => ⟨S1, .f32⟩
  | .hbm, ⟨20, _⟩ => ⟨S256x1, .f32⟩
  | .hbm, ⟨21, _⟩ => ⟨S1, .f32⟩
  | .hbm, ⟨22, _⟩ => ⟨S128, .f32⟩
  | .hbm, ⟨23, _⟩ => ⟨S128, .f32⟩
  | .hbm, ⟨24, _⟩ => ⟨S_, .i32⟩
  | .hbm, ⟨25, _⟩ => ⟨S16000, .i32⟩
  | .hbm, ⟨26, _⟩ => ⟨S16000, .i1⟩
  | .hbm, ⟨27, _⟩ => ⟨S_, .i32⟩
  | .hbm, ⟨28, _⟩ => ⟨S16000, .i32⟩
  | .hbm, ⟨29, _⟩ => ⟨S16000, .i32⟩
  | .hbm, ⟨30, _⟩ => ⟨S16000, .i32⟩
  | .hbm, ⟨31, _⟩ => ⟨S16000x1, .i32⟩
  | .hbm, ⟨32, _⟩ => ⟨S16000x32, .f32⟩
  | .hbm, ⟨33, _⟩ => ⟨S_, .i32⟩
  | .hbm, ⟨34, _⟩ => ⟨S16000, .i32⟩
  | .hbm, ⟨35, _⟩ => ⟨S16000, .i1⟩
  | .hbm, ⟨36, _⟩ => ⟨S_, .i32⟩
  | .hbm, ⟨37, _⟩ => ⟨S16000, .i32⟩
  | .hbm, ⟨38, _⟩ => ⟨S16000, .i32⟩
  | .hbm, ⟨39, _⟩ => ⟨S16000, .i32⟩
  | .hbm, ⟨40, _⟩ => ⟨S16000x1, .i32⟩
  | .hbm, ⟨41, _⟩ => ⟨S16000x32, .f32⟩
  | .hbm, ⟨42, _⟩ => ⟨S_, .i32⟩
  | .hbm, ⟨43, _⟩ => ⟨S16000, .i32⟩
  | .hbm, ⟨44, _⟩ => ⟨S16000, .i1⟩
  | .hbm, ⟨45, _⟩ => ⟨S_, .i32⟩
  | .hbm, ⟨46, _⟩ => ⟨S16000, .i32⟩
  | .hbm, ⟨47, _⟩ => ⟨S16000, .i32⟩
  | .hbm, ⟨48, _⟩ => ⟨S16000, .i32⟩
  | .hbm, ⟨49, _⟩ => ⟨S16000x1, .i32⟩
  | .hbm, ⟨50, _⟩ => ⟨S16000x32, .f32⟩
  | .hbm, ⟨51, _⟩ => ⟨S_, .i32⟩
  | .hbm, ⟨52, _⟩ => ⟨S16000, .i32⟩
  | .hbm, ⟨53, _⟩ => ⟨S16000, .i1⟩
  | .hbm, ⟨54, _⟩ => ⟨S_, .i32⟩
  | .hbm, ⟨55, _⟩ => ⟨S16000, .i32⟩
  | .hbm, ⟨56, _⟩ => ⟨S16000, .i32⟩
  | .hbm, ⟨57, _⟩ => ⟨S16000, .i32⟩
  | .hbm, ⟨58, _⟩ => ⟨S16000x1, .i32⟩
  | .hbm, ⟨59, _⟩ => ⟨S16000x32, .f32⟩
  | .hbm, ⟨60, _⟩ => ⟨S16000x128, .f32⟩
  | .hbm, ⟨61, _⟩ => ⟨S16000x128, .bf16⟩
  | .hbm, ⟨62, _⟩ => ⟨S1x128, .f32⟩
  | .hbm, ⟨63, _⟩ => ⟨S16000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .bf16⟩
  | .local _ .vmem, ⟨4, _⟩ => ⟨S2000x128, .bf16⟩
  | .local _ .vmem, ⟨5, _⟩ => ⟨S1000x3200, .f32⟩
  | .local _ .vmem, ⟨6, _⟩ => ⟨S1000x3200, .f32⟩
  | .local _ .vmem, ⟨7, _⟩ => ⟨S16000x128, .bf16⟩
  | .local _ .vmem, ⟨8, _⟩ => ⟨S1x128, .f32⟩
  | .local _ .vmem, ⟨9, _⟩ => ⟨S1000x128, .f32⟩
  | .local _ .vmem, ⟨10, _⟩ => ⟨S1000x128, .f32⟩
  | .local _ .vmem, ⟨11, _⟩ => ⟨S1000x128, .f32⟩
  | _, _ => ⟨S16000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_c : Ref sig .tc := ⟨.hbm, 24, rfl⟩
abbrev main_v0 : Ref sig .tc := ⟨.hbm, 25, rfl⟩
abbrev main_v1 : Ref sig .tc := ⟨.hbm, 26, rfl⟩
abbrev main_c_0 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_c_1 : Ref sig .tc := ⟨.hbm, 33, rfl⟩
abbrev main_v7 : Ref sig .tc := ⟨.hbm, 34, rfl⟩
abbrev main_v8 : Ref sig .tc := ⟨.hbm, 35, rfl⟩
abbrev main_c_2 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_c_3 : Ref sig .tc := ⟨.hbm, 42, rfl⟩
abbrev main_v14 : Ref sig .tc := ⟨.hbm, 43, rfl⟩
abbrev main_v15 : Ref sig .tc := ⟨.hbm, 44, rfl⟩
abbrev main_c_4 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_c_5 : Ref sig .tc := ⟨.hbm, 51, rfl⟩
abbrev main_v21 : Ref sig .tc := ⟨.hbm, 52, rfl⟩
abbrev main_v22 : Ref sig .tc := ⟨.hbm, 53, rfl⟩
abbrev main_c_6 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 5], ![false, false]⟩

def k1_mult1 (i : grid1.Coords) : BitVec 32 :=
  let arg1 : BitVec 32 := BitVec.ofNat 32 (i 1).val
  let c3200_i32 : BitVec 32 := 3200#32
  let v3 : BitVec 32 := Scalar.muli arg1 c3200_i32
  v3
def k1_off1 (i : grid1.Coords) : Fin 2 → Nat :=
  let arg1 : BitVec 32 := BitVec.ofNat 32 (i 1).val
  let c3200_i32 : BitVec 32 := 3200#32
  let v3 : BitVec 32 := Scalar.muli arg1 c3200_i32
  let v4 : BitVec 32 := v3
  let v5 : Index := Scalar.indexCast v4
  let c0 : Index := 0#32
  ![v5.toNat, 0]
def k1_cond2 (i : grid1.Coords) : BitVec 1 :=
  let arg1 : BitVec 32 := BitVec.ofNat 32 (i 1).val
  let c4_i32 : BitVec 32 := 4#32
  let v16 : BitVec 1 := Scalar.cmpi .eq arg1 c4_i32
  let v17 : BitVec 32 := Scalar.extui v16
  let c0_i32_7 : BitVec 32 := 0#32
  let v18 : BitVec 1 := Scalar.cmpi .ne v17 c0_i32_7
  v18

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1000x3200 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S16000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  bcast_S_S16000 : S_.BroadcastsInDim S16000 (![] : Fin 0 → Fin S16000.rank)
  bcast_S16000_S16000x1_0 : S16000.BroadcastsInDim S16000x1 (![0] : Fin 1 → Fin S16000x1.rank)
  concatenates_S16000x32_S16000x32_S16000x32_S16000x32_S16000x128_d1 : Shape.Concatenates [S16000x32, S16000x32, S16000x32, S16000x32] S16000x128 1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S2000x128_S2000x128_0_0 : (Rect.unit (s := S2000x128) ![0, 0] S2000x128.size inb_S2000x128_S2000x128_0_0).PackedRows (EltTy.packing .bf16)
  shapeCasts_S128_S1x128 : S128.ShapeCasts S1x128
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  h_S3200x128 : 0 < S3200x128.numel
  shapeCasts_S3200x128_S3200x128 : S3200x128.ShapeCasts S3200x128
  inb_S1000x3200_S1000x3200_0_0 : ∀ a, (![0, 0] : Fin 2 → Nat) a + S1000x3200.size a ≤ S1000x3200.size a
  h_S1000x3200 : 0 < S1000x3200.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  gather_S6x32_S16000x1_S16000x32_1_0_n_n_0_1_132_wf : GatherDims.WF S6x32 S16000x1 S16000x32 [1] [0] [] [0] [] 1 ![1, 32]
  gather_S20x32_S16000x1_S16000x32_1_0_n_n_0_1_132_wf : GatherDims.WF S20x32 S16000x1 S16000x32 [1] [0] [] [0] [] 1 ![1, 32]
  gather_S2200x32_S16000x1_S16000x32_1_0_n_n_0_1_132_wf : GatherDims.WF S2200x32 S16000x1 S16000x32 [1] [0] [] [0] [] 1 ![1, 32]
  gather_S16000x32_S16000x1_S16000x32_1_0_n_n_0_1_132_wf : GatherDims.WF S16000x32 S16000x1 S16000x32 [1] [0] [] [0] [] 1 ![1, 32]
  dot_S2000x128_S128x128_S2000x128_1_0_0_1_n_n_wf : DotDims.WF S2000x128 S128x128 S2000x128 [1] [0] [0] [1] [] []
  dot_S1000x3200_S3200x128_S1000x128_1_0_0_1_n_n_wf : DotDims.WF S1000x3200 S3200x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S16000x128.size a
  hwx0_0 : ∀ i : grid0.Coords, EltTy.bits .f32 = 32 ∨ (Rect.block (s := S16000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S16000x128.size a
  hwx0_2 : ∀ i : grid0.Coords, EltTy.bits .bf16 = 32 ∨ (Rect.block (s := S16000x128) S2000x128.size (cc0_transform_2 i) (hinb0_2 i)).WholeWords (EltTy.packing .bf16)
  hrank1 : 0 < grid1.rank
  k1_mult1_dvd : ∀ i : grid1.Coords, 3200 ∣ (k1_mult1 i).toNat
  k1_off1_inb : ∀ i : grid1.Coords, ∀ a, (k1_off1 i) a + S3200x128.size a ≤ S16000x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x3200.size a ≤ S16000x16000.size a
  hwx1_0 : ∀ i : grid1.Coords, EltTy.bits .f32 = 32 ∨ (Rect.block (s := S16000x16000) S1000x3200.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16000x128.size a ≤ S16000x128.size a
  hwx1_1 : ∀ i : grid1.Coords, EltTy.bits .bf16 = 32 ∨ (Rect.block (s := S16000x128) S16000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x128.size a ≤ S16000x128.size a
  hwx1_3 : ∀ i : grid1.Coords, EltTy.bits .f32 = 32 ∨ (Rect.block (s := S16000x128) S1000x128.size (cc1_transform_3 i) (hinb1_3 i)).WholeWords (EltTy.packing .f32)

variable [Facts₀]

def gather_S6x32_S16000x1_S16000x32_1_0_n_n_0_1_132 : GatherDims S6x32 S16000x1 S16000x32 where
  offsetDims := [1]
  collapsedSliceDims := [0]
  operandBatchingDims := []
  startIndicesBatchingDims := []
  startIndexMap := [0]
  indexVectorDim := 1
  sliceSizes := ![1, 32]
  wf := gather_S6x32_S16000x1_S16000x32_1_0_n_n_0_1_132_wf
def gather_S20x32_S16000x1_S16000x32_1_0_n_n_0_1_132 : GatherDims S20x32 S16000x1 S16000x32 where
  offsetDims := [1]
  collapsedSliceDims := [0]
  operandBatchingDims := []
  startIndicesBatchingDims := []
  startIndexMap := [0]
  indexVectorDim := 1
  sliceSizes := ![1, 32]
  wf := gather_S20x32_S16000x1_S16000x32_1_0_n_n_0_1_132_wf
def gather_S2200x32_S16000x1_S16000x32_1_0_n_n_0_1_132 : GatherDims S2200x32 S16000x1 S16000x32 where
  offsetDims := [1]
  collapsedSliceDims := [0]
  operandBatchingDims := []
  startIndicesBatchingDims := []
  startIndexMap := [0]
  indexVectorDim := 1
  sliceSizes := ![1, 32]
  wf := gather_S2200x32_S16000x1_S16000x32_1_0_n_n_0_1_132_wf
def gather_S16000x32_S16000x1_S16000x32_1_0_n_n_0_1_132 : GatherDims S16000x32 S16000x1 S16000x32 where
  offsetDims := [1]
  collapsedSliceDims := [0]
  operandBatchingDims := []
  startIndicesBatchingDims := []
  startIndexMap := [0]
  indexVectorDim := 1
  sliceSizes := ![1, 32]
  wf := gather_S16000x32_S16000x1_S16000x32_1_0_n_n_0_1_132_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S1000x3200_S3200x128_S1000x128_1_0_0_1_n_n : DotDims S1000x3200 S3200x128 S1000x128 where
  lhsContracting := [1]
  rhsContracting := [0]
  lhsNonContracting := [0]
  rhsNonContracting := [1]
  lhsBatch := []
  rhsBatch := []
  wf := dot_S1000x3200_S3200x128_S1000x128_1_0_0_1_n_n_wf

abbrev win0_0 : Pipeline.Window sig grid0 :=
  Pipeline.Window.ofSpec (Memref.whole main_v28) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg16) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg4) S1000x3200.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S16000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S1000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S16000 : Shape := ⟨1, ![16000]⟩
abbrev S16000x16000 : Shape := ⟨2, ![16000, 16000]⟩
abbrev S300x300 : Shape := ⟨2, ![300, 300]⟩
abbrev S16000x300 : Shape := ⟨2, ![16000, 300]⟩
abbrev S300x30 : Shape := ⟨2, ![300, 30]⟩
abbrev S16000x32 : Shape := ⟨2, ![16000, 32]⟩
abbrev S20x32 : Shape := ⟨2, ![20, 32]⟩
abbrev S2200x32 : Shape := ⟨2, ![2200, 32]⟩
abbrev S6x32 : Shape := ⟨2, ![6, 32]⟩
abbrev S128x128 : Shape := ⟨2, ![128, 128]⟩
abbrev S128 : Shape := ⟨1, ![128]⟩
abbrev S256x1 : Shape := ⟨2, ![256, 1]⟩
abbrev S1 : Shape := ⟨1, ![1]⟩
abbrev S_ : Shape := ⟨0, ![]⟩
abbrev S16000x1 : Shape := ⟨2, ![16000, 1]⟩
abbrev S16000x128 : Shape := ⟨2, ![16000, 128]⟩
abbrev S300 : Shape := ⟨1, ![300]⟩
abbrev S1x300 : Shape := ⟨2, ![1, 300]⟩
abbrev S30 : Shape := ⟨1, ![30]⟩
abbrev S1x30 : Shape := ⟨2, ![1, 30]⟩
abbrev S300x16000 : Shape := ⟨2, ![300, 16000]⟩
abbrev S300x128 : Shape := ⟨2, ![300, 128]⟩
abbrev S30x300 : Shape := ⟨2, ![30, 300]⟩
abbrev S30x128 : Shape := ⟨2, ![30, 128]⟩
abbrev S1x128 : Shape := ⟨2, ![1, 128]⟩
abbrev S128x30 : Shape := ⟨2, ![128, 30]⟩
abbrev S30x30 : Shape := ⟨2, ![30, 30]⟩
abbrev S300x1 : Shape := ⟨2, ![300, 1]⟩
abbrev S300x256 : Shape := ⟨2, ![300, 256]⟩
abbrev S1x1 : Shape := ⟨2, ![1, 1]⟩
abbrev S16000x256 : Shape := ⟨2, ![16000, 256]⟩

abbrev nBuf : Space → Nat
  | .hbm => 214
  | .vmem => 0
  | .smem => 0
  | _ => 0

abbrev hbmTy0_0 (i : Nat) : BufTy := match i % 128 with
  | 0 => ⟨S16000, .i32⟩
  | 1 => ⟨S16000, .i32⟩
  | 2 => ⟨S16000, .i32⟩
  | 3 => ⟨S16000, .i32⟩
  | 4 => ⟨S16000x16000, .f32⟩
  | 5 => ⟨S300x300, .f32⟩
  | 6 => ⟨S16000x300, .f32⟩
  | 7 => ⟨S300x30, .f32⟩
  | 8 => ⟨S16000x32, .f32⟩
  | 9 => ⟨S20x32, .f32⟩
  | 10 => ⟨S2200x32, .f32⟩
  | 11 => ⟨S6x32, .f32⟩
  | 12 => ⟨S128x128, .f32⟩
  | 13 => ⟨S128, .f32⟩
  | 14 => ⟨S128x128, .f32⟩
  | 15 => ⟨S128, .f32⟩
  | 16 => ⟨S128x128, .f32⟩
  | 17 => ⟨S128, .f32⟩
  | 18 => ⟨S256x1, .f32⟩
  | 19 => ⟨S1, .f32⟩
  | 20 => ⟨S256x1, .f32⟩
  | 21 => ⟨S1, .f32⟩
  | 22 => ⟨S128, .f32⟩
  | 23 => ⟨S128, .f32⟩
  | 24 => ⟨S_, .i32⟩
  | 25 => ⟨S16000, .i32⟩
  | 26 => ⟨S16000, .i1⟩
  | 27 => ⟨S_, .i32⟩
  | 28 => ⟨S16000, .i32⟩
  | 29 => ⟨S16000, .i32⟩
  | 30 => ⟨S16000, .i32⟩
  | 31 => ⟨S16000x1, .i32⟩
  | 32 => ⟨S16000x32, .f32⟩
  | 33 => ⟨S_, .i32⟩
  | 34 => ⟨S16000, .i32⟩
  | 35 => ⟨S16000, .i1⟩
  | 36 => ⟨S_, .i32⟩
  | 37 => ⟨S16000, .i32⟩
  | 38 => ⟨S16000, .i32⟩
  | 39 => ⟨S16000, .i32⟩
  | 40 => ⟨S16000x1, .i32⟩
  | 41 => ⟨S16000x32, .f32⟩
  | 42 => ⟨S_, .i32⟩
  | 43 => ⟨S16000, .i32⟩
  | 44 => ⟨S16000, .i1⟩
  | 45 => ⟨S_, .i32⟩
  | 46 => ⟨S16000, .i32⟩
  | 47 => ⟨S16000, .i32⟩
  | 48 => ⟨S16000, .i32⟩
  | 49 => ⟨S16000x1, .i32⟩
  | 50 => ⟨S16000x32, .f32⟩
  | 51 => ⟨S_, .i32⟩
  | 52 => ⟨S16000, .i32⟩
  | 53 => ⟨S16000, .i1⟩
  | 54 => ⟨S_, .i32⟩
  | 55 => ⟨S16000, .i32⟩
  | 56 => ⟨S16000, .i32⟩
  | 57 => ⟨S16000, .i32⟩
  | 58 => ⟨S16000x1, .i32⟩
  | 59 => ⟨S16000x32, .f32⟩
  | 60 => ⟨S16000x128, .f32⟩
  | 61 => ⟨S_, .f32⟩
  | 62 => ⟨S300, .f32⟩
  | 63 => ⟨S_, .f32⟩
  | 64 => ⟨S300, .f32⟩
  | 65 => ⟨S300, .f32⟩
  | 66 => ⟨S_, .f32⟩
  | 67 => ⟨S300, .f32⟩
  | 68 => ⟨S300, .f32⟩
  | 69 => ⟨S_, .f32⟩
  | 70 => ⟨S300, .f32⟩
  | 71 => ⟨S300, .f32⟩
  | 72 => ⟨S1x300, .f32⟩
  | 73 => ⟨S16000x300, .f32⟩
  | 74 => ⟨S16000x300, .f32⟩
  | 75 => ⟨S_, .f32⟩
  | 76 => ⟨S30, .f32⟩
  | 77 => ⟨S_, .f32⟩
  | 78 => ⟨S30, .f32⟩
  | 79 => ⟨S30, .f32⟩
  | 80 => ⟨S_, .f32⟩
  | 81 => ⟨S30, .f32⟩
  | 82 => ⟨S30, .f32⟩
  | 83 => ⟨S_, .f32⟩
  | 84 => ⟨S30, .f32⟩
  | 85 => ⟨S30, .f32⟩
  | 86 => ⟨S1x30, .f32⟩
  | 87 => ⟨S300x30, .f32⟩
  | 88 => ⟨S300x30, .f32⟩
  | 89 => ⟨S300x16000, .f32⟩
  | 90 => ⟨S300x128, .f32⟩
  | 91 => ⟨S30x300, .f32⟩
  | 92 => ⟨S30x128, .f32⟩
  | 93 => ⟨S_, .f32⟩
  | 94 => ⟨S128, .f32⟩
  | 95 => ⟨S_, .f32⟩
  | 96 => ⟨S128, .f32⟩
  | 97 => ⟨S128, .f32⟩
  | 98 => ⟨S1x128, .f32⟩
  | 99 => ⟨S30x128, .f32⟩
  | 100 => ⟨S30x128, .f32⟩
  | 101 => ⟨S30x128, .f32⟩
  | 102 => ⟨S_, .f32⟩
  | 103 => ⟨S128, .f32⟩
  | 104 => ⟨S_, .f32⟩
  | 105 => ⟨S128, .f32⟩
  | 106 => ⟨S128, .f32⟩
  | 107 => ⟨S1x128, .f32⟩
  | 108 => ⟨S30x128, .f32⟩
  | 109 => ⟨S30x128, .f32⟩
  | 110 => ⟨S_, .f32⟩
  | 111 => ⟨S128, .f32⟩
  | 112 => ⟨S128, .f32⟩
  | 113 => ⟨S128, .f32⟩
  | 114 => ⟨S1x128, .f32⟩
  | 115 => ⟨S30x128, .f32⟩
  | 116 => ⟨S30x128, .f32⟩
  | 117 => ⟨S1x128, .f32⟩
  | 118 => ⟨S30x128, .f32⟩
  | 119 => ⟨S30x128, .f32⟩
  | 120 => ⟨S1x128, .f32⟩
  | 121 => ⟨S30x128, .f32⟩
  | 122 => ⟨S30x128, .f32⟩
  | 123 => ⟨S128x30, .f32⟩
  | 124 => ⟨S30x30, .f32⟩
  | 125 => ⟨S30x30, .f32⟩
  | 126 => ⟨S30x30, .f32⟩
  | 127 => ⟨S_, .f32⟩
  | _ => ⟨S16000, .i32⟩

abbrev hbmTy0_1 (i : Nat) : BufTy := match i % 128 with
  | 0 => ⟨S30x30, .f32⟩
  | 1 => ⟨S30x30, .f32⟩
  | 2 => ⟨S_, .f32⟩
  | 3 => ⟨S30x30, .f32⟩
  | 4 => ⟨S30x30, .f32⟩
  | 5 => ⟨S30x128, .f32⟩
  | 6 => ⟨S30x128, .f32⟩
  | 7 => ⟨S1x128, .f32⟩
  | 8 => ⟨S30x128, .f32⟩
  | 9 => ⟨S30x128, .f32⟩
  | 10 => ⟨S_, .f32⟩
  | 11 => ⟨S300, .f32⟩
  | 12 => ⟨S_, .f32⟩
  | 13 => ⟨S300, .f32⟩
  | 14 => ⟨S300, .f32⟩
  | 15 => ⟨S_, .f32⟩
  | 16 => ⟨S300, .f32⟩
  | 17 => ⟨S300, .f32⟩
  | 18 => ⟨S_, .f32⟩
  | 19 => ⟨S300, .f32⟩
  | 20 => ⟨S300, .f32⟩
  | 21 => ⟨S300x1, .f32⟩
  | 22 => ⟨S_, .f32⟩
  | 23 => ⟨S300x1, .f32⟩
  | 24 => ⟨S300x1, .f32⟩
  | 25 => ⟨S300x128, .f32⟩
  | 26 => ⟨S300x128, .f32⟩
  | 27 => ⟨S300x128, .f32⟩
  | 28 => ⟨S300x256, .f32⟩
  | 29 => ⟨S300x1, .f32⟩
  | 30 => ⟨S1x1, .f32⟩
  | 31 => ⟨S300x1, .f32⟩
  | 32 => ⟨S300x1, .f32⟩
  | 33 => ⟨S300x1, .f32⟩
  | 34 => ⟨S300x1, .f32⟩
  | 35 => ⟨S_, .f32⟩
  | 36 => ⟨S300x1, .f32⟩
  | 37 => ⟨S300x1, .f32⟩
  | 38 => ⟨S_, .f32⟩
  | 39 => ⟨S300x1, .f32⟩
  | 40 => ⟨S300x1, .f32⟩
  | 41 => ⟨S_, .f32⟩
  | 42 => ⟨S300x1, .f32⟩
  | 43 => ⟨S300x1, .f32⟩
  | 44 => ⟨S300x128, .f32⟩
  | 45 => ⟨S300x128, .f32⟩
  | 46 => ⟨S300x128, .f32⟩
  | 47 => ⟨S300x300, .i32⟩
  | 48 => ⟨S300x300, .i32⟩
  | 49 => ⟨S_, .i32⟩
  | 50 => ⟨S300x300, .i32⟩
  | 51 => ⟨S300x300, .i32⟩
  | 52 => ⟨S300x300, .i1⟩
  | 53 => ⟨S300x300, .f32⟩
  | 54 => ⟨S_, .f32⟩
  | 55 => ⟨S300x300, .f32⟩
  | 56 => ⟨S300x300, .f32⟩
  | 57 => ⟨S300x300, .f32⟩
  | 58 => ⟨S_, .f32⟩
  | 59 => ⟨S300x300, .f32⟩
  | 60 => ⟨S300x300, .f32⟩
  | 61 => ⟨S300x300, .f32⟩
  | 62 => ⟨S300x128, .f32⟩
  | 63 => ⟨S300x128, .f32⟩
  | 64 => ⟨S1x128, .f32⟩
  | 65 => ⟨S300x128, .f32⟩
  | 66 => ⟨S300x128, .f32⟩
  | 67 => ⟨S16000x128, .f32⟩
  | 68 => ⟨S16000x256, .f32⟩
  | 69 => ⟨S16000x1, .f32⟩
  | 70 => ⟨S1x1, .f32⟩
  | 71 => ⟨S16000x1, .f32⟩
  | 72 => ⟨S16000x1, .f32⟩
  | 73 => ⟨S16000x1, .f32⟩
  | 74 => ⟨S16000x1, .f32⟩
  | 75 => ⟨S_, .f32⟩
  | 76 => ⟨S16000x1, .f32⟩
  | 77 => ⟨S16000x1, .f32⟩
  | 78 => ⟨S_, .f32⟩
  | 79 => ⟨S16000x1, .f32⟩
  | 80 => ⟨S16000x1, .f32⟩
  | 81 => ⟨S16000x128, .f32⟩
  | 82 => ⟨S16000x128, .f32⟩
  | 83 => ⟨S1x128, .f32⟩
  | 84 => ⟨S16000x128, .f32⟩
  | 85 => ⟨S16000x128, .f32⟩
  | _ => ⟨S16000, .i32⟩

abbrev hbmTy (i : Nat) : BufTy := match i / 128 with
  | 0 => hbmTy0_0 i
  | 1 => hbmTy0_1 i
  | _ => ⟨S16000, .i32⟩

abbrev bufTy : (tb : Table) → Fin (tcTables nBuf tb) → BufTy
  | .hbm, ⟨i, _⟩ => hbmTy i
  | _, _ => ⟨S16000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_c : Ref sig .tc := ⟨.hbm, 24, rfl⟩
abbrev main_v0 : Ref sig .tc := ⟨.hbm, 25, rfl⟩
abbrev main_v1 : Ref sig .tc := ⟨.hbm, 26, rfl⟩
abbrev main_c_0 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_c_1 : Ref sig .tc := ⟨.hbm, 33, rfl⟩
abbrev main_v7 : Ref sig .tc := ⟨.hbm, 34, rfl⟩
abbrev main_v8 : Ref sig .tc := ⟨.hbm, 35, rfl⟩
abbrev main_c_2 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_c_3 : Ref sig .tc := ⟨.hbm, 42, rfl⟩
abbrev main_v14 : Ref sig .tc := ⟨.hbm, 43, rfl⟩
abbrev main_v15 : Ref sig .tc := ⟨.hbm, 44, rfl⟩
abbrev main_c_4 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_c_5 : Ref sig .tc := ⟨.hbm, 51, rfl⟩
abbrev main_v21 : Ref sig .tc := ⟨.hbm, 52, rfl⟩
abbrev main_v22 : Ref sig .tc := ⟨.hbm, 53, rfl⟩
abbrev main_c_6 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_cst : Ref sig .tc := ⟨.hbm, 61, rfl⟩
abbrev main_v29 : Ref sig .tc := ⟨.hbm, 62, rfl⟩
abbrev main_cst_7 : Ref sig .tc := ⟨.hbm, 63, rfl⟩
abbrev main_v30 : Ref sig .tc := ⟨.hbm, 64, rfl⟩
abbrev main_v31 : Ref sig .tc := ⟨.hbm, 65, rfl⟩
abbrev main_call0_cst : Ref sig .tc := ⟨.hbm, 66, rfl⟩
abbrev main_call0_v0 : Ref sig .tc := ⟨.hbm, 67, rfl⟩
abbrev main_v32 : Ref sig .tc := ⟨.hbm, 68, rfl⟩
abbrev main_cst_8 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_cst_9 : Ref sig .tc := ⟨.hbm, 75, rfl⟩
abbrev main_v38 : Ref sig .tc := ⟨.hbm, 76, rfl⟩
abbrev main_cst_10 : Ref sig .tc := ⟨.hbm, 77, rfl⟩
abbrev main_v39 : Ref sig .tc := ⟨.hbm, 78, rfl⟩
abbrev main_v40 : Ref sig .tc := ⟨.hbm, 79, rfl⟩
abbrev main_call1_cst : Ref sig .tc := ⟨.hbm, 80, rfl⟩
abbrev main_call1_v0 : Ref sig .tc := ⟨.hbm, 81, rfl⟩
abbrev main_v41 : Ref sig .tc := ⟨.hbm, 82, rfl⟩
abbrev main_cst_11 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_cst_12 : Ref sig .tc := ⟨.hbm, 93, rfl⟩
abbrev main_v51 : Ref sig .tc := ⟨.hbm, 94, rfl⟩
abbrev main_cst_13 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_cst_14 : Ref sig .tc := ⟨.hbm, 102, rfl⟩
abbrev main_v58 : Ref sig .tc := ⟨.hbm, 103, rfl⟩
abbrev main_cst_15 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_cst_16 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_cst_17 : Ref sig .tc := ⟨.hbm, 127, rfl⟩
abbrev main_v80 : Ref sig .tc := ⟨.hbm, 128, rfl⟩
abbrev main_v81 : Ref sig .tc := ⟨.hbm, 129, rfl⟩
abbrev main_cst_18 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_cst_19 : Ref sig .tc := ⟨.hbm, 138, rfl⟩
abbrev main_v89 : Ref sig .tc := ⟨.hbm, 139, rfl⟩
abbrev main_cst_20 : Ref sig .tc := ⟨.hbm, 140, rfl⟩
abbrev main_v90 : Ref sig .tc := ⟨.hbm, 141, rfl⟩
abbrev main_v91 : Ref sig .tc := ⟨.hbm, 142, rfl⟩
abbrev main_call2_cst : Ref sig .tc := ⟨.hbm, 143, rfl⟩
abbrev main_call2_v0 : Ref sig .tc := ⟨.hbm, 144, rfl⟩
abbrev main_v92 : Ref sig .tc := ⟨.hbm, 145, rfl⟩
abbrev main_cst_21 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_cst_22 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_cst_23 : Ref sig .tc := ⟨.hbm, 163, rfl⟩
abbrev main_v108 : Ref sig .tc := ⟨.hbm, 164, rfl⟩
abbrev main_v109 : Ref sig .tc := ⟨.hbm, 165, rfl⟩
abbrev main_cst_24 : Ref sig .tc := ⟨.hbm, 166, rfl⟩
abbrev main_v110 : Ref sig .tc := ⟨.hbm, 167, rfl⟩
abbrev main_v111 : Ref sig .tc := ⟨.hbm, 168, rfl⟩
abbrev main_cst_25 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_c_26 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_cst_27 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_call3_cst : Ref sig .tc := ⟨.hbm, 186, rfl⟩
abbrev main_call3_v0 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_cst_28 : Ref sig .tc := ⟨.hbm, 203, rfl⟩
abbrev main_v141 : Ref sig .tc := ⟨.hbm, 204, rfl⟩
abbrev main_v142 : Ref sig .tc := ⟨.hbm, 205, rfl⟩
abbrev main_cst_29 : Ref sig .tc := ⟨.hbm, 206, rfl⟩
abbrev main_v143 : Ref sig .tc := ⟨.hbm, 207, rfl⟩
abbrev main_v144 : Ref sig .tc := ⟨.hbm, 208, rfl⟩
abbrev main_v145 : Ref sig .tc := ⟨.hbm, 209, rfl⟩
abbrev main_v146 : Ref sig .tc := ⟨.hbm, 210, rfl⟩
abbrev main_v147 : Ref sig .tc := ⟨.hbm, 211, rfl⟩
abbrev main_v148 : Ref sig .tc := ⟨.hbm, 212, rfl⟩
abbrev main_v149 : Ref sig .tc := ⟨.hbm, 213, rfl⟩

abbrev nD : Nat := 1
abbrev τ : Topo := Topo.v7x

variable {F : FTy → Type} [FloatOps F]

class Facts₀ : Prop where
  bcast_S_S16000 : S_.BroadcastsInDim S16000 (![] : Fin 0 → Fin S16000.rank)
  bcast_S16000_S16000x1_0 : S16000.BroadcastsInDim S16000x1 (![0] : Fin 1 → Fin S16000x1.rank)
  concatenates_S16000x32_S16000x32_S16000x32_S16000x32_S16000x128_d1 : Shape.Concatenates [S16000x32, S16000x32, S16000x32, S16000x32] S16000x128 1
  reducesTo_S16000x300_S300_d0 : S16000x300.ReducesTo [0] S300
  h_S_ : 0 < S_.numel
  bcast_S_S300 : S_.BroadcastsInDim S300 (![] : Fin 0 → Fin S300.rank)
  bcast_S300_S1x300_1 : S300.BroadcastsInDim S1x300 (![1] : Fin 1 → Fin S1x300.rank)
  bcast_S1x300_S16000x300_0_1 : S1x300.BroadcastsInDim S16000x300 (![0, 1] : Fin 2 → Fin S16000x300.rank)
  reducesTo_S300x30_S30_d0 : S300x30.ReducesTo [0] S30
  bcast_S_S30 : S_.BroadcastsInDim S30 (![] : Fin 0 → Fin S30.rank)
  bcast_S30_S1x30_1 : S30.BroadcastsInDim S1x30 (![1] : Fin 1 → Fin S1x30.rank)
  bcast_S1x30_S300x30_0_1 : S1x30.BroadcastsInDim S300x30 (![0, 1] : Fin 2 → Fin S300x30.rank)
  transposes_S16000x300_S300x16000_1_0 : S16000x300.Transposes [1, 0] S300x16000
  transposes_S300x30_S30x300_1_0 : S300x30.Transposes [1, 0] S30x300
  reducesTo_S30x128_S128_d0 : S30x128.ReducesTo [0] S128
  bcast_S_S128 : S_.BroadcastsInDim S128 (![] : Fin 0 → Fin S128.rank)
  bcast_S128_S1x128_1 : S128.BroadcastsInDim S1x128 (![1] : Fin 1 → Fin S1x128.rank)
  bcast_S1x128_S30x128_0_1 : S1x128.BroadcastsInDim S30x128 (![0, 1] : Fin 2 → Fin S30x128.rank)
  transposes_S30x128_S128x30_1_0 : S30x128.Transposes [1, 0] S128x30
  bcast_S_S30x30 : S_.BroadcastsInDim S30x30 (![] : Fin 0 → Fin S30x30.rank)
  reducesTo_S300x30_S300_d1 : S300x30.ReducesTo [1] S300
  bcast_S300_S300x1_0 : S300.BroadcastsInDim S300x1 (![0] : Fin 1 → Fin S300x1.rank)
  bcast_S_S300x1 : S_.BroadcastsInDim S300x1 (![] : Fin 0 → Fin S300x1.rank)
  bcast_S300x1_S300x128_0_1 : S300x1.BroadcastsInDim S300x128 (![0, 1] : Fin 2 → Fin S300x128.rank)
  concatenates_S300x128_S300x128_S300x256_d1 : Shape.Concatenates [S300x128, S300x128] S300x256 1
  bcast_S1_S1x1_1 : S1.BroadcastsInDim S1x1 (![1] : Fin 1 → Fin S1x1.rank)
  bcast_S1x1_S300x1_0_1 : S1x1.BroadcastsInDim S300x1 (![0, 1] : Fin 2 → Fin S300x1.rank)
  bcast_S_S300x300 : S_.BroadcastsInDim S300x300 (![] : Fin 0 → Fin S300x300.rank)
  bcast_S1x128_S300x128_0_1 : S1x128.BroadcastsInDim S300x128 (![0, 1] : Fin 2 → Fin S300x128.rank)
  concatenates_S16000x128_S16000x128_S16000x256_d1 : Shape.Concatenates [S16000x128, S16000x128] S16000x256 1
  bcast_S1x1_S16000x1_0_1 : S1x1.BroadcastsInDim S16000x1 (![0, 1] : Fin 2 → Fin S16000x1.rank)
  bcast_S_S16000x1 : S_.BroadcastsInDim S16000x1 (![] : Fin 0 → Fin S16000x1.rank)
  bcast_S1x128_S16000x128_0_1 : S1x128.BroadcastsInDim S16000x128 (![0, 1] : Fin 2 → Fin S16000x128.rank)
  gather_S6x32_S16000x1_S16000x32_1_0_n_n_0_1_132_wf : GatherDims.WF S6x32 S16000x1 S16000x32 [1] [0] [] [0] [] 1 ![1, 32]
  gather_S20x32_S16000x1_S16000x32_1_0_n_n_0_1_132_wf : GatherDims.WF S20x32 S16000x1 S16000x32 [1] [0] [] [0] [] 1 ![1, 32]
  gather_S2200x32_S16000x1_S16000x32_1_0_n_n_0_1_132_wf : GatherDims.WF S2200x32 S16000x1 S16000x32 [1] [0] [] [0] [] 1 ![1, 32]
  gather_S16000x32_S16000x1_S16000x32_1_0_n_n_0_1_132_wf : GatherDims.WF S16000x32 S16000x1 S16000x32 [1] [0] [] [0] [] 1 ![1, 32]
  dot_S300x16000_S16000x128_S300x128_1_0_0_1_n_n_wf : DotDims.WF S300x16000 S16000x128 S300x128 [1] [0] [0] [1] [] []
  dot_S30x300_S300x128_S30x128_1_0_0_1_n_n_wf : DotDims.WF S30x300 S300x128 S30x128 [1] [0] [0] [1] [] []
  dot_S30x128_S128x30_S30x30_1_0_0_1_n_n_wf : DotDims.WF S30x128 S128x30 S30x30 [1] [0] [0] [1] [] []
  dot_S30x128_S128x128_S30x128_1_0_0_1_n_n_wf : DotDims.WF S30x128 S128x128 S30x128 [1] [0] [0] [1] [] []
  dot_S30x30_S30x128_S30x128_1_0_0_1_n_n_wf : DotDims.WF S30x30 S30x128 S30x128 [1] [0] [0] [1] [] []
  dot_S300x30_S30x128_S300x128_1_0_0_1_n_n_wf : DotDims.WF S300x30 S30x128 S300x128 [1] [0] [0] [1] [] []
  dot_S300x256_S256x1_S300x1_1_0_0_1_n_n_wf : DotDims.WF S300x256 S256x1 S300x1 [1] [0] [0] [1] [] []
  dot_S300x128_S128x128_S300x128_1_0_0_1_n_n_wf : DotDims.WF S300x128 S128x128 S300x128 [1] [0] [0] [1] [] []
  dot_S300x300_S300x128_S300x128_1_0_0_1_n_n_wf : DotDims.WF S300x300 S300x128 S300x128 [1] [0] [0] [1] [] []
  dot_S16000x300_S300x128_S16000x128_1_0_0_1_n_n_wf : DotDims.WF S16000x300 S300x128 S16000x128 [1] [0] [0] [1] [] []
  dot_S16000x256_S256x1_S16000x1_1_0_0_1_n_n_wf : DotDims.WF S16000x256 S256x1 S16000x1 [1] [0] [0] [1] [] []
  dot_S16000x128_S128x128_S16000x128_1_0_0_1_n_n_wf : DotDims.WF S16000x128 S128x128 S16000x128 [1] [0] [0] [1] [] []
  dot_S16000x16000_S16000x128_S16000x128_1_0_0_1_n_n_wf : DotDims.WF S16000x16000 S16000x128 S16000x128 [1] [0] [0] [1] [] []

variable [Facts₀]

def gather_S6x32_S16000x1_S16000x32_1_0_n_n_0_1_132 : GatherDims S6x32 S16000x1 S16000x32 where
  offsetDims := [1]
  collapsedSliceDims := [0]
  operandBatchingDims := []
  startIndicesBatchingDims := []
  startIndexMap := [0]
  indexVectorDim := 1
  sliceSizes := ![1, 32]
  wf := gather_S6x32_S16000x1_S16000x32_1_0_n_n_0_1_132_wf
def gather_S20x32_S16000x1_S16000x32_1_0_n_n_0_1_132 : GatherDims S20x32 S16000x1 S16000x32 where
  offsetDims := [1]
  collapsedSliceDims := [0]
  operandBatchingDims := []
  startIndicesBatchingDims := []
  startIndexMap := [0]
  indexVectorDim := 1
  sliceSizes := ![1, 32]
  wf := gather_S20x32_S16000x1_S16000x32_1_0_n_n_0_1_132_wf
def gather_S2200x32_S16000x1_S16000x32_1_0_n_n_0_1_132 : GatherDims S2200x32 S16000x1 S16000x32 where
  offsetDims := [1]
  collapsedSliceDims := [0]
  operandBatchingDims := []
  startIndicesBatchingDims := []
  startIndexMap := [0]
  indexVectorDim := 1
  sliceSizes := ![1, 32]
  wf := gather_S2200x32_S16000x1_S16000x32_1_0_n_n_0_1_132_wf
def gather_S16000x32_S16000x1_S16000x32_1_0_n_n_0_1_132 : GatherDims S16000x32 S16000x1 S16000x32 where
  offsetDims := [1]
  collapsedSliceDims := [0]
  operandBatchingDims := []
  startIndicesBatchingDims := []
  startIndexMap := [0]
  indexVectorDim := 1
  sliceSizes := ![1, 32]
  wf := gather_S16000x32_S16000x1_S16000x32_1_0_n_n_0_1_132_wf
def dot_S300x16000_S16000x128_S300x128_1_0_0_1_n_n : DotDims S300x16000 S16000x128 S300x128 where
  lhsContracting := [1]
  rhsContracting := [0]
  lhsNonContracting := [0]
  rhsNonContracting := [1]
  lhsBatch := []
  rhsBatch := []
  wf := dot_S300x16000_S16000x128_S300x128_1_0_0_1_n_n_wf
def dot_S30x300_S300x128_S30x128_1_0_0_1_n_n : DotDims S30x300 S300x128 S30x128 where
  lhsContracting := [1]
  rhsContracting := [0]
  lhsNonContracting := [0]
  rhsNonContracting := [1]
  lhsBatch := []
  rhsBatch := []
  wf := dot_S30x300_S300x128_S30x128_1_0_0_1_n_n_wf
def dot_S30x128_S128x30_S30x30_1_0_0_1_n_n : DotDims S30x128 S128x30 S30x30 where
  lhsContracting := [1]
  rhsContracting := [0]
  lhsNonContracting := [0]
  rhsNonContracting := [1]
  lhsBatch := []
  rhsBatch := []
  wf := dot_S30x128_S128x30_S30x30_1_0_0_1_n_n_wf
def dot_S30x128_S128x128_S30x128_1_0_0_1_n_n : DotDims S30x128 S128x128 S30x128 where
  lhsContracting := [1]
  rhsContracting := [0]
  lhsNonContracting := [0]
  rhsNonContracting := [1]
  lhsBatch := []
  rhsBatch := []
  wf := dot_S30x128_S128x128_S30x128_1_0_0_1_n_n_wf
def dot_S30x30_S30x128_S30x128_1_0_0_1_n_n : DotDims S30x30 S30x128 S30x128 where
  lhsContracting := [1]
  rhsContracting := [0]
  lhsNonContracting := [0]
  rhsNonContracting := [1]
  lhsBatch := []
  rhsBatch := []
  wf := dot_S30x30_S30x128_S30x128_1_0_0_1_n_n_wf
def dot_S300x30_S30x128_S300x128_1_0_0_1_n_n : DotDims S300x30 S30x128 S300x128 where
  lhsContracting := [1]
  rhsContracting := [0]
  lhsNonContracting := [0]
  rhsNonContracting := [1]
  lhsBatch := []
  rhsBatch := []
  wf := dot_S300x30_S30x128_S300x128_1_0_0_1_n_n_wf
def dot_S300x256_S256x1_S300x1_1_0_0_1_n_n : DotDims S300x256 S256x1 S300x1 where
  lhsContracting := [1]
  rhsContracting := [0]
  lhsNonContracting := [0]
  rhsNonContracting := [1]
  lhsBatch := []
  rhsBatch := []
  wf := dot_S300x256_S256x1_S300x1_1_0_0_1_n_n_wf
def dot_S300x128_S128x128_S300x128_1_0_0_1_n_n : DotDims S300x128 S128x128 S300x128 where
  lhsContracting := [1]
  rhsContracting := [0]
  lhsNonContracting := [0]
  rhsNonContracting := [1]
  lhsBatch := []
  rhsBatch := []
  wf := dot_S300x128_S128x128_S300x128_1_0_0_1_n_n_wf
def dot_S300x300_S300x128_S300x128_1_0_0_1_n_n : DotDims S300x300 S300x128 S300x128 where
  lhsContracting := [1]
  rhsContracting := [0]
  lhsNonContracting := [0]
  rhsNonContracting := [1]
  lhsBatch := []
  rhsBatch := []
  wf := dot_S300x300_S300x128_S300x128_1_0_0_1_n_n_wf
def dot_S16000x300_S300x128_S16000x128_1_0_0_1_n_n : DotDims S16000x300 S300x128 S16000x128 where
  lhsContracting := [1]
  rhsContracting := [0]
  lhsNonContracting := [0]
  rhsNonContracting := [1]
  lhsBatch := []
  rhsBatch := []
  wf := dot_S16000x300_S300x128_S16000x128_1_0_0_1_n_n_wf
def dot_S16000x256_S256x1_S16000x1_1_0_0_1_n_n : DotDims S16000x256 S256x1 S16000x1 where
  lhsContracting := [1]
  rhsContracting := [0]
  lhsNonContracting := [0]
  rhsNonContracting := [1]
  lhsBatch := []
  rhsBatch := []
  wf := dot_S16000x256_S256x1_S16000x1_1_0_0_1_n_n_wf
def dot_S16000x128_S128x128_S16000x128_1_0_0_1_n_n : DotDims S16000x128 S128x128 S16000x128 where
  lhsContracting := [1]
  rhsContracting := [0]
  lhsNonContracting := [0]
  rhsNonContracting := [1]
  lhsBatch := []
  rhsBatch := []
  wf := dot_S16000x128_S128x128_S16000x128_1_0_0_1_n_n_wf
def dot_S16000x16000_S16000x128_S16000x128_1_0_0_1_n_n : DotDims S16000x16000 S16000x128 S16000x128 where
  lhsContracting := [1]
  rhsContracting := [0]
  lhsNonContracting := [0]
  rhsNonContracting := [1]
  lhsBatch := []
  rhsBatch := []
  wf := dot_S16000x16000_S16000x128_S16000x128_1_0_0_1_n_n_wf

class Facts : Prop extends Facts₀ where

variable [Facts]
-- ==== Proof.WordProjectRegion.lean ====
import proofs.«120712_j87625922773142_2_alg».proof.Proof.Gen.Kernel.Launch
import proofs.«120712_j87625922773142_2_alg».proof.Proof.Gen.Kernel.Skeleton
import proofs.«120712_j87625922773142_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The first region: the dense projection

The first grid region multiplies the concatenated feature array (16000 × 128) by a 128 × 128 weight
array, eight row blocks of 2000 rows each, and leaves the product rounded to the narrow float type.
This module gives, for any buffer contents `V` at the region's entry and for any float instance, what
each window's staging buffer holds around the body at a grid point, and proves that the body run on
those buffers leaves them as stated.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter everything is stated at
variable (V : (c : Dev nD) → (b : Ref sig .tc) → Buf (Elt F) ((c : Thread nD τ).loc b))

/-! ## The windows' blocks -/

/-- The block of window `w` at grid point `t`: the rectangle of the window's array, as the region finds
    the array, that the window's index map selects there. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-block input's staging buffer holds its block at every point: it is fetched at every point,
    and the body does not change it. Stated for any proof data over the entry contents whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight input's staging buffer holds the whole weight array at every point: it is fetched at
    the first point only, its block index never moves afterwards, and the body does not change it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 2000 × 128 block (the row-block input is read through it). -/
abbrev r0_0 : Rect S2000x128 := Rect.unit (s := S2000x128) ![0, 0] S2000x128.size inb_S2000x128_S2000x128_0_0
/-- The whole 128 × 128 weight block. -/
abbrev r0_1 : Rect S128x128 := Rect.unit (s := S128x128) ![0, 0] S128x128.size inb_S128x128_S128x128_0_0
/-- The whole 2000 × 128 block again (the output is written through it). -/
abbrev r0_2 : Rect S2000x128 := Rect.unit (s := S2000x128) ![0, 0] S2000x128.size inb_S2000x128_S2000x128_0_0

/-! ## What the body leaves in the output window's buffer -/

/-- The output buffer after the body, from the two input blocks: the body's single store, of the
    rounded product of the two blocks it loaded, read back as a whole buffer. -/
def out0_2 (x0 : Vec F S2000x128 .f32) (x1 : Vec F S128x128 .f32) : Vec F S2000x128 .bf16 :=
  View.canon [⟨r0_2, k0_pay1 (View.ld x0 r0_0) (View.ld x1 r0_1)⟩]

/-- The single store spans the whole buffer, so every index of the buffer lies in it. -/
theorem cover0_2 (p0 : Vec F S2000x128 .bf16) (y : S2000x128.Idx) :
    ∃ pc ∈ ([⟨r0_2, p0⟩] : List (View.Piece (Elt F) S2000x128 .bf16)), y ∈ pc.1.set :=
  View.cover_of_tiled [⟨r0_2, p0⟩] S2000x128.size (by rfl) y

/-! ## The body's triple -/

set_option maxHeartbeats 1000000 in
/-- The body, run on whole staging buffers with the two inputs at contents `x0`, `x1` and the output at
    anything, reaches its continuation with the inputs unchanged and the output at `out0_2 x0 x1`: it
    loads the two inputs, loads the output (a value it never uses), and stores the rounded product
    over the whole output buffer. -/
theorem sound_kernel0 (c : Dev nD) (E : Set ℕ) (i : grid0.Coords) (arg1 : Memref sig .tc .vmem S2000x128 .f32) (harg1 : arg1.IsWhole)
    (arg2 : Memref sig .tc .vmem S128x128 .f32) (harg2 : arg2.IsWhole) (arg3 : Memref sig .tc .vmem S2000x128 .bf16) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__small_kernel i arg1 harg1 arg2 harg2 arg3 harg3) K := by
  simp only [cc0__small_kernel_eq_skeleton]; unfold cc0__small_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The region's proof data -/

/-- The proof data of the region on core `c`: every array as the region finds it; after the body at
    point `t` each input's buffer still at its block and the output's buffer at `out0_2` of the two
    input blocks; the invariant is the one of a body that touches nothing but its windows; full
    shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's staging buffer holds its block when the body is entered, at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is entered with at point `t`: the invariant, what the core owes, and each window's
    staging buffer at its contents before the body. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it returns: the same, each buffer at its contents after the body. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the
    invariant and what the core owes pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region, at every point. -/
theorem body_obligation0 (c : Dev nD) : BodyObligation (dat0 (F := F) V c) (defs₀ (F := F)) Variants.none () Set.univ := fun t => by
  rw [bigSep_W0, bigSep_W0]
  exact sound_body0 V c t

/-- The invariant is the same at every boundary of the run. -/
theorem Phi_eq0 (c : Dev nD) (t : Fin (cfg0.N + 1)) : (dat0 V c).Φ t = Pipeline.ΦA spec0 c := rfl

end Cert.Kernel.Hand

end
-- ==== Proof.WordAggregateRuns.lean ====
import proofs.«120712_j87625922773142_2_alg».proof.Proof.Gen.Kernel.Launch
import proofs.«120712_j87625922773142_2_alg».proof.Proof.Gen.Kernel.Skeleton
import proofs.«120712_j87625922773142_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: the aggregation kernel on the grid (16, 5), entered at the buffer contents V -/

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is V's and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The first conditional's condition (the reduction index is 0), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 5). -/
theorem hcond1_0 : ∀ t : Fin cfg1.N, cond1_0 (grid1.coords t) ↔ t.val % 5 = 0 :=
  (by decide +kernel : ∀ t : Fin grid1.N, cond1_0 (grid1.coords t) ↔ t.val % 5 = 0)

/-- The second conditional's condition (the reduction index is 4, the last), from the grid coordinates. -/
abbrev cond1_1 (i : grid1.Coords) : Prop := k1_cond2 i = 1#1
/-- It holds at the points ≡ 4 (mod 5). -/
theorem hcond1_1 : ∀ t : Fin cfg1.N, cond1_1 (grid1.coords t) ↔ t.val % 5 = 4 :=
  (by decide +kernel : ∀ t : Fin grid1.N, cond1_1 (grid1.coords t) ↔ t.val % 5 = 4)

/-! ## Where the windows are idle -/

/-- The inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where the reduction index is 0 the output is idle: nothing is stored into it, -/
theorem idleAt1_3_A : ∀ t : Fin cfg1.N, cond1_0 (grid1.coords t) → ¬cond1_1 (grid1.coords t) → cfg1.idle 3 (grid1.coords t) = true := by decide +kernel
/-- and its block is not written back. -/
theorem noFlush1_3_A : ∀ t : Fin cfg1.N, cond1_0 (grid1.coords t) → ¬cond1_1 (grid1.coords t) → (cfg1.win 3).flush t = false := by decide +kernel
/-- The same where the reduction index is 1, 2 or 3. -/
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- Where the reduction index is 4 the output is live: the body stores its whole block. -/
theorem liveAt1_3_C : ∀ t : Fin cfg1.N, ¬cond1_0 (grid1.coords t) → cond1_1 (grid1.coords t) → cfg1.idle 3 (grid1.coords t) = false := by decide +kernel

/-! ## The memrefs the body is called with -/

/-- One staging buffer of the output window, through which its contents are stated (the choice does not matter). -/
abbrev VO1_3 : View sig .tc .vmem S1000x128 .f32 := (Memref.whole cc1_stg3_0 : Memref sig .tc .vmem S1000x128 .f32).view
/-- Each window's current staging memref at point t, as the pipeline passes it, and its wholeness. -/
abbrev ms1_0 (t : Fin cfg1.N) : Memref sig .tc .vmem S1000x3200 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16000x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1000x128 .f32 := win1_3.stage (cfg1.slots t 3)
abbrev hs1_3 (t : Fin cfg1.N) : (ms1_3 t).IsWhole := hstage1_3 ((cfg1.slots t 3).cast nbuf1_3)
/-- The accumulator: a whole scoped buffer of the kernel's own, passed beside the windows and carried between points. -/
abbrev scM1_0 : Memref sig .tc .vmem S1000x128 .f32 := Memref.whole cc1_scratch0
/-- The accumulator as a view: what it holds is stated through it. -/
abbrev VS1_0 : View sig .tc .vmem S1000x128 .f32 := scM1_0.view

/-- A scoped buffer of the core held whole at some contents. -/
abbrev heldAny (c : Dev nD) (b : Ref sig .tc) : sProp 𝕄 :=
  iprop(∃ f : Buf (Elt F) ((c : Thread nD τ).loc b), ((c : Thread nD τ).loc b) ↦{fullShare} f)

/-- The region's invariant before its first point: the first kernel's five staging buffers at some contents, the
    accumulator owned as a memref at some contents, and the generator register. -/
theorem PhiA1_eq (c : Dev nD) :
    (Pipeline.ΦA spec1 c : sProp 𝕄)
      = iprop(iprop(heldAny (F := F) c cc0_stg0_0 ∗ heldAny (F := F) c cc0_stg0_1 ∗ heldAny (F := F) c cc0_stg1_0 ∗ heldAny (F := F) c cc0_stg2_0 ∗ heldAny (F := F) c cc0_stg2_1
          ∗ (∃ d, owns (c : Thread nD τ) scM1_0 fullShare d)) ∗ (∃ r, prngReg c r)) := by
  unfold Pipeline.ΦA; rw [scopedRest1_eq]; simp only [scM1_0, owns_whole]; try rfl

end Cert.Kernel.Hand

end
-- ==== Proof.WordAggregateRunA.lean ====
import proofs.«120712_j87625922773142_2_alg».proof.Proof.WordAggregateRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body where the reduction index is 0 (the first conditional taken, the second not): on whole memrefs — the
    three inputs at their contents, the output's buffer at contents handed back untouched, the accumulator at
    anything — it runs to the continuation holding the inputs and the output's buffer as they were and the
    accumulator with its pieces written, last first: the block product added to the zero fill, over the zero fill. -/
noncomputable def kernelRun1_A (c : Dev nD) (i : grid1.Coords) (arg2 : Memref sig .tc .vmem S1000x3200 .f32) (harg2 : arg2.IsWhole) (arg3 : Memref sig .tc .vmem S16000x128 .bf16) (harg3 : arg3.IsWhole) (arg4 : Memref sig .tc .vmem S1x128 .f32) (harg4 : arg4.IsWhole) (arg5 : Memref sig .tc .vmem S1000x128 .f32) (harg5 : arg5.IsWhole) (arg6 : Memref sig .tc .vmem S1000x128 .f32) (harg6 : arg6.IsWhole) (hc0 : cond1_0 i) (hc1 : ¬cond1_1 i)
    (x0 : Vec F S1000x3200 .f32) (x1 : Vec F S16000x128 .bf16) (x2 : Vec F S1x128 .f32) :
    Σ' (L3 : List (View.Piece (Elt F) S1000x128 .f32)), { LS0 : List (View.Piece (Elt F) S1000x128 .f32) //
      ∀ (xi3 : Vec F S1000x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__kernel i arg2 harg2 arg3 harg3 arg4 harg4 arg5 harg5 arg6 harg6) K } := by
  refine ⟨[], ?_, fun xi3 E K => ?run⟩
  case run =>
    simp only [cc1__kernel_eq_skeleton]; unfold cc1__kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.WordAggregateRunB.lean ====
import proofs.«120712_j87625922773142_2_alg».proof.Proof.WordAggregateRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body where the reduction index is 1, 2 or 3 (neither conditional taken): on whole memrefs — the three
    inputs at their contents, the output's buffer at contents handed back untouched, the accumulator at what the
    point before left — it runs to the continuation holding the inputs and the output's buffer as they were and the
    accumulator with one piece written: the block product added to what it held. -/
noncomputable def kernelRun1_B (c : Dev nD) (i : grid1.Coords) (arg2 : Memref sig .tc .vmem S1000x3200 .f32) (harg2 : arg2.IsWhole) (arg3 : Memref sig .tc .vmem S16000x128 .bf16) (harg3 : arg3.IsWhole) (arg4 : Memref sig .tc .vmem S1x128 .f32) (harg4 : arg4.IsWhole) (arg5 : Memref sig .tc .vmem S1000x128 .f32) (harg5 : arg5.IsWhole) (arg6 : Memref sig .tc .vmem S1000x128 .f32) (harg6 : arg6.IsWhole) (hc0 : ¬cond1_0 i) (hc1 : ¬cond1_1 i)
    (x0 : Vec F S1000x3200 .f32) (x1 : Vec F S16000x128 .bf16) (x2 : Vec F S1x128 .f32) (xs0 : Vec F S1000x128 .f32) :
    Σ' (L3 : List (View.Piece (Elt F) S1000x128 .f32)), { LS0 : List (View.Piece (Elt F) S1000x128 .f32) //
      ∀ (xi3 : Vec F S1000x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__kernel i arg2 harg2 arg3 harg3 arg4 harg4 arg5 harg5 arg6 harg6) K } := by
  refine ⟨[], ?_, fun xi3 E K => ?run⟩
  case run =>
    simp only [cc1__kernel_eq_skeleton]; unfold cc1__kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.WordAggregateRunC.lean ====
import proofs.«120712_j87625922773142_2_alg».proof.Proof.WordAggregateRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body where the reduction index is 4 (the second conditional taken): on whole memrefs — the three inputs at
    their contents, the output's buffer at anything, the accumulator at what the point before left — it runs to the
    continuation holding the inputs as they were, the accumulator with one piece written (the block product added
    to what it held) and the output's buffer with one piece written: the accumulator plus the bias row. -/
noncomputable def kernelRun1_C (c : Dev nD) (i : grid1.Coords) (arg2 : Memref sig .tc .vmem S1000x3200 .f32) (harg2 : arg2.IsWhole) (arg3 : Memref sig .tc .vmem S16000x128 .bf16) (harg3 : arg3.IsWhole) (arg4 : Memref sig .tc .vmem S1x128 .f32) (harg4 : arg4.IsWhole) (arg5 : Memref sig .tc .vmem S1000x128 .f32) (harg5 : arg5.IsWhole) (arg6 : Memref sig .tc .vmem S1000x128 .f32) (harg6 : arg6.IsWhole) (hc0 : ¬cond1_0 i) (hc1 : cond1_1 i)
    (x0 : Vec F S1000x3200 .f32) (x1 : Vec F S16000x128 .bf16) (x2 : Vec F S1x128 .f32) (xs0 : Vec F S1000x128 .f32) :
    Σ' (L3 : List (View.Piece (Elt F) S1000x128 .f32)), { LS0 : List (View.Piece (Elt F) S1000x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__kernel i arg2 harg2 arg3 harg3 arg4 harg4 arg5 harg5 arg6 harg6) K } := by
  refine ⟨?_, ?_, fun E K => ?run⟩
  case run =>
    simp only [cc1__kernel_eq_skeleton]; unfold cc1__kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.WordAggregateRegion.lean ====
import proofs.«120712_j87625922773142_2_alg».proof.Proof.WordAggregateRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves in the output's buffer and in the accumulator -/

/-- What the output's buffer reads after the body there: its pieces read back over junk (no piece: a placeholder nothing consults, the window being idle and not written back at these points). -/
def out1_A_3 (c : Dev nD) (i : grid1.Coords) (arg2 : Memref sig .tc .vmem S1000x3200 .f32) (harg2 : arg2.IsWhole) (arg3 : Memref sig .tc .vmem S16000x128 .bf16) (harg3 : arg3.IsWhole) (arg4 : Memref sig .tc .vmem S1x128 .f32) (harg4 : arg4.IsWhole) (arg5 : Memref sig .tc .vmem S1000x128 .f32) (harg5 : arg5.IsWhole) (arg6 : Memref sig .tc .vmem S1000x128 .f32) (harg6 : arg6.IsWhole) (hc0 : cond1_0 i) (hc1 : ¬cond1_1 i)
    (x0 : Vec F S1000x3200 .f32) (x1 : Vec F S16000x128 .bf16) (x2 : Vec F S1x128 .f32) : Vec F S1000x128 .f32 :=
  VO1_3.read (Elt F) (VO1_3.writes (Elt F) VO1_3.junk (kernelRun1_A c i arg2 harg2 arg3 harg3 arg4 harg4 arg5 harg5 arg6 harg6 hc0 hc1 x0 x1 x2).1)

/-- The accumulator's pieces cover it: whole-block stores. -/
theorem scover1_A_0 (c : Dev nD) (i : grid1.Coords) (arg2 : Memref sig .tc .vmem S1000x3200 .f32) (harg2 : arg2.IsWhole) (arg3 : Memref sig .tc .vmem S16000x128 .bf16) (harg3 : arg3.IsWhole) (arg4 : Memref sig .tc .vmem S1x128 .f32) (harg4 : arg4.IsWhole) (arg5 : Memref sig .tc .vmem S1000x128 .f32) (harg5 : arg5.IsWhole) (arg6 : Memref sig .tc .vmem S1000x128 .f32) (harg6 : arg6.IsWhole) (hc0 : cond1_0 i) (hc1 : ¬cond1_1 i)
    (x0 : Vec F S1000x3200 .f32) (x1 : Vec F S16000x128 .bf16) (x2 : Vec F S1x128 .f32) (y : S1000x128.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S1000x128.size (by sl_kernel_rfl) y

/-- What the accumulator holds after the body there: its pieces read back over junk. -/
def sout1_A_0 (c : Dev nD) (i : grid1.Coords) (arg2 : Memref sig .tc .vmem S1000x3200 .f32) (harg2 : arg2.IsWhole) (arg3 : Memref sig .tc .vmem S16000x128 .bf16) (harg3 : arg3.IsWhole) (arg4 : Memref sig .tc .vmem S1x128 .f32) (harg4 : arg4.IsWhole) (arg5 : Memref sig .tc .vmem S1000x128 .f32) (harg5 : arg5.IsWhole) (arg6 : Memref sig .tc .vmem S1000x128 .f32) (harg6 : arg6.IsWhole) (hc0 : cond1_0 i) (hc1 : ¬cond1_1 i)
    (x0 : Vec F S1000x3200 .f32) (x1 : Vec F S16000x128 .bf16) (x2 : Vec F S1x128 .f32) : Vec F S1000x128 .f32 :=
  VS1_0.read (Elt F) (VS1_0.writes (Elt F) VS1_0.junk (kernelRun1_A c i arg2 harg2 arg3 harg3 arg4 harg4 arg5 harg5 arg6 harg6 hc0 hc1 x0 x1 x2).2.1)

/-- What the output's buffer reads after the body there: its pieces read back over junk (no piece: a placeholder nothing consults, the window being idle and not written back at these points). -/
def out1_B_3 (c : Dev nD) (i : grid1.Coords) (arg2 : Memref sig .tc .vmem S1000x3200 .f32) (harg2 : arg2.IsWhole) (arg3 : Memref sig .tc .vmem S16000x128 .bf16) (harg3 : arg3.IsWhole) (arg4 : Memref sig .tc .vmem S1x128 .f32) (harg4 : arg4.IsWhole) (arg5 : Memref sig .tc .vmem S1000x128 .f32) (harg5 : arg5.IsWhole) (arg6 : Memref sig .tc .vmem S1000x128 .f32) (harg6 : arg6.IsWhole) (hc0 : ¬cond1_0 i) (hc1 : ¬cond1_1 i)
    (x0 : Vec F S1000x3200 .f32) (x1 : Vec F S16000x128 .bf16) (x2 : Vec F S1x128 .f32) (xs0 : Vec F S1000x128 .f32) : Vec F S1000x128 .f32 :=
  VO1_3.read (Elt F) (VO1_3.writes (Elt F) VO1_3.junk (kernelRun1_B c i arg2 harg2 arg3 harg3 arg4 harg4 arg5 harg5 arg6 harg6 hc0 hc1 x0 x1 x2 xs0).1)

/-- The accumulator's pieces cover it: whole-block stores. -/
theorem scover1_B_0 (c : Dev nD) (i : grid1.Coords) (arg2 : Memref sig .tc .vmem S1000x3200 .f32) (harg2 : arg2.IsWhole) (arg3 : Memref sig .tc .vmem S16000x128 .bf16) (harg3 : arg3.IsWhole) (arg4 : Memref sig .tc .vmem S1x128 .f32) (harg4 : arg4.IsWhole) (arg5 : Memref sig .tc .vmem S1000x128 .f32) (harg5 : arg5.IsWhole) (arg6 : Memref sig .tc .vmem S1000x128 .f32) (harg6 : arg6.IsWhole) (hc0 : ¬cond1_0 i) (hc1 : ¬cond1_1 i)
    (x0 : Vec F S1000x3200 .f32) (x1 : Vec F S16000x128 .bf16) (x2 : Vec F S1x128 .f32) (xs0 : Vec F S1000x128 .f32) (y : S1000x128.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S1000x128.size (by sl_kernel_rfl) y

/-- What the accumulator holds after the body there: its pieces read back over junk. -/
def sout1_B_0 (c : Dev nD) (i : grid1.Coords) (arg2 : Memref sig .tc .vmem S1000x3200 .f32) (harg2 : arg2.IsWhole) (arg3 : Memref sig .tc .vmem S16000x128 .bf16) (harg3 : arg3.IsWhole) (arg4 : Memref sig .tc .vmem S1x128 .f32) (harg4 : arg4.IsWhole) (arg5 : Memref sig .tc .vmem S1000x128 .f32) (harg5 : arg5.IsWhole) (arg6 : Memref sig .tc .vmem S1000x128 .f32) (harg6 : arg6.IsWhole) (hc0 : ¬cond1_0 i) (hc1 : ¬cond1_1 i)
    (x0 : Vec F S1000x3200 .f32) (x1 : Vec F S16000x128 .bf16) (x2 : Vec F S1x128 .f32) (xs0 : Vec F S1000x128 .f32) : Vec F S1000x128 .f32 :=
  VS1_0.read (Elt F) (VS1_0.writes (Elt F) VS1_0.junk (kernelRun1_B c i arg2 harg2 arg3 harg3 arg4 harg4 arg5 harg5 arg6 harg6 hc0 hc1 x0 x1 x2 xs0).2.1)

/-- The pieces the last reduction step leaves in the output's buffer cover it: one store of the whole block. -/
theorem cover1_C_3 (c : Dev nD) (i : grid1.Coords) (arg2 : Memref sig .tc .vmem S1000x3200 .f32) (harg2 : arg2.IsWhole) (arg3 : Memref sig .tc .vmem S16000x128 .bf16) (harg3 : arg3.IsWhole) (arg4 : Memref sig .tc .vmem S1x128 .f32) (harg4 : arg4.IsWhole) (arg5 : Memref sig .tc .vmem S1000x128 .f32) (harg5 : arg5.IsWhole) (arg6 : Memref sig .tc .vmem S1000x128 .f32) (harg6 : arg6.IsWhole) (hc0 : ¬cond1_0 i) (hc1 : cond1_1 i)
    (x0 : Vec F S1000x3200 .f32) (x1 : Vec F S16000x128 .bf16) (x2 : Vec F S1x128 .f32) (xs0 : Vec F S1000x128 .f32) (y : S1000x128.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S1000x128.size (by sl_kernel_rfl) y

/-- What the output's buffer reads after the body there: its pieces read back over junk. -/
def out1_C_3 (c : Dev nD) (i : grid1.Coords) (arg2 : Memref sig .tc .vmem S1000x3200 .f32) (harg2 : arg2.IsWhole) (arg3 : Memref sig .tc .vmem S16000x128 .bf16) (harg3 : arg3.IsWhole) (arg4 : Memref sig .tc .vmem S1x128 .f32) (harg4 : arg4.IsWhole) (arg5 : Memref sig .tc .vmem S1000x128 .f32) (harg5 : arg5.IsWhole) (arg6 : Memref sig .tc .vmem S1000x128 .f32) (harg6 : arg6.IsWhole) (hc0 : ¬cond1_0 i) (hc1 : cond1_1 i)
    (x0 : Vec F S1000x3200 .f32) (x1 : Vec F S16000x128 .bf16) (x2 : Vec F S1x128 .f32) (xs0 : Vec F S1000x128 .f32) : Vec F S1000x128 .f32 :=
  VO1_3.read (Elt F) (VO1_3.writes (Elt F) VO1_3.junk (kernelRun1_C c i arg2 harg2 arg3 harg3 arg4 harg4 arg5 harg5 arg6 harg6 hc0 hc1 x0 x1 x2 xs0).1)

/-- The accumulator's pieces cover it: whole-block stores. -/
theorem scover1_C_0 (c : Dev nD) (i : grid1.Coords) (arg2 : Memref sig .tc .vmem S1000x3200 .f32) (harg2 : arg2.IsWhole) (arg3 : Memref sig .tc .vmem S16000x128 .bf16) (harg3 : arg3.IsWhole) (arg4 : Memref sig .tc .vmem S1x128 .f32) (harg4 : arg4.IsWhole) (arg5 : Memref sig .tc .vmem S1000x128 .f32) (harg5 : arg5.IsWhole) (arg6 : Memref sig .tc .vmem S1000x128 .f32) (harg6 : arg6.IsWhole) (hc0 : ¬cond1_0 i) (hc1 : cond1_1 i)
    (x0 : Vec F S1000x3200 .f32) (x1 : Vec F S16000x128 .bf16) (x2 : Vec F S1x128 .f32) (xs0 : Vec F S1000x128 .f32) (y : S1000x128.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S1000x128.size (by sl_kernel_rfl) y

/-- What the accumulator holds after the body there: its pieces read back over junk. -/
def sout1_C_0 (c : Dev nD) (i : grid1.Coords) (arg2 : Memref sig .tc .vmem S1000x3200 .f32) (harg2 : arg2.IsWhole) (arg3 : Memref sig .tc .vmem S16000x128 .bf16) (harg3 : arg3.IsWhole) (arg4 : Memref sig .tc .vmem S1x128 .f32) (harg4 : arg4.IsWhole) (arg5 : Memref sig .tc .vmem S1000x128 .f32) (harg5 : arg5.IsWhole) (arg6 : Memref sig .tc .vmem S1000x128 .f32) (harg6 : arg6.IsWhole) (hc0 : ¬cond1_0 i) (hc1 : cond1_1 i)
    (x0 : Vec F S1000x3200 .f32) (x1 : Vec F S16000x128 .bf16) (x2 : Vec F S1x128 .f32) (xs0 : Vec F S1000x128 .f32) : Vec F S1000x128 .f32 :=
  VS1_0.read (Elt F) (VS1_0.writes (Elt F) VS1_0.junk (kernelRun1_C c i arg2 harg2 arg3 harg3 arg4 harg4 arg5 harg5 arg6 harg6 hc0 hc1 x0 x1 x2 xs0).2.1)

/-! ## What the output's buffer and the accumulator hold after each point -/

/-- The accumulation: what the output's staging buffer and the accumulator hold after the body at position n — the
    case the reduction index selects, run at the point's memrefs and input blocks, the accumulator coming in at what
    position n - 1 left (at the first reduction step it is refilled, so nothing is read). -/
def outsAt1 (c : Dev nD) : (n : ℕ) → n < cfg1.N → Vec F S1000x128 .f32 × Vec F S1000x128 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 5 = 0 then
      if h1 : (n + 1) % 5 = 4 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 5 = 4 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- At a point whose reduction index is 0. -/
theorem outsAt1_A (c : Dev nD) (t : Fin cfg1.N) (h0 : t.val % 5 = 0) (h1 : ¬t.val % 5 = 4) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- At a point whose reduction index is 1, 2 or 3: over what the point before left. -/
theorem outsAt1_B (c : Dev nD) (t : Fin cfg1.N) (h0 : ¬t.val % 5 = 0) (h1 : ¬t.val % 5 = 4) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point whose reduction index is 4: over what the point before left. -/
theorem outsAt1_C (c : Dev nD) (t : Fin cfg1.N) (h0 : ¬t.val % 5 = 0) (h1 : t.val % 5 = 4) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant, position by position -/

/-- Before the first point: what the launch hands over (every scoped buffer that is no staging buffer of this
    kernel at some contents, and the generator register). Afterwards the same with the accumulator at what the
    point before left in it. -/
def PhiS (c : Dev nD) : (n : ℕ) → n ≤ cfg1.N → sProp 𝕄
  | 0, _ => Pipeline.ΦA spec1 c
  | n + 1, hn => iprop(iprop(heldAny (F := F) c cc0_stg0_0 ∗ heldAny (F := F) c cc0_stg0_1 ∗ heldAny (F := F) c cc0_stg1_0 ∗ heldAny (F := F) c cc0_stg2_0 ∗ heldAny (F := F) c cc0_stg2_1 ∗ owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(heldAny (F := F) c cc0_stg0_0 ∗ heldAny (F := F) c cc0_stg0_1 ∗ heldAny (F := F) c cc0_stg1_0 ∗ heldAny (F := F) c cc0_stg2_0 ∗ heldAny (F := F) c cc0_stg2_1 ∗ owns (c : Thread nD τ) scM1_0 fullShare ((outsAt1 V c n hn).2)) ∗ (∃ r, prngReg c r)) := rfl

theorem PhiS_pos (c : Dev nD) (n : ℕ) (h : n ≤ cfg1.N) (hz : n ≠ 0) :
    PhiS V c n h = iprop(iprop(heldAny (F := F) c cc0_stg0_0 ∗ heldAny (F := F) c cc0_stg0_1 ∗ heldAny (F := F) c cc0_stg1_0 ∗ heldAny (F := F) c cc0_stg2_0 ∗ heldAny (F := F) c cc0_stg2_1 ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of the aggregation pipeline on core c: the arrays as the region finds them; after the body at
    point t each input's buffer at its block and the output's at the accumulation's first component; the invariant
    above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the reduction index says which case the point is
    in; the invariant hands the body the accumulator at what the point before left (at anything at the first point)
    and takes it back at this point's contents, the other scoped buffers and the generator register riding along;
    where the output is idle its buffer goes back as found; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 80 := lt_of_lt_of_eq t.isLt (show cfg1.N = 80 from N_1)
  by_cases h0 : t.val % 5 = 0
  · by_cases h1 : t.val % 5 = 4
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      by_cases hz : t.val = 0
      ·
        rw [PhiS_castSucc V c t, PhiS_zero V c _ _ hz, PhiA1_eq]
        iintro ⟨⟨⟨R0, R1, R2, R3, R4, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [R0 R1 R2 R3 R4 HS0 Hg]
        · isplitl [R0 R1 R2 R3 R4 HS0]
          · isplitl [R0]; · iexact R0
            isplitl [R1]; · iexact R1
            isplitl [R2]; · iexact R2
            isplitl [R3]; · iexact R3
            isplitl [R4]; · iexact R4
            unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      ·
        rw [PhiS_castSucc V c t, PhiS_pos V c _ _ hz]
        iintro ⟨⟨⟨R0, R1, R2, R3, R4, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [R0 R1 R2 R3 R4 HS0 Hg]
        · isplitl [R0 R1 R2 R3 R4 HS0]
          · isplitl [R0]; · iexact R0
            isplitl [R1]; · iexact R1
            isplitl [R2]; · iexact R2
            isplitl [R3]; · iexact R3
            isplitl [R4]; · iexact R4
            unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 5 = 4
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      by_cases hz : t.val = 0
      · exfalso; omega
      ·
        rw [PhiS_castSucc V c t, PhiS_pos V c _ _ hz]
        iintro ⟨⟨⟨R0, R1, R2, R3, R4, HS0⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [R0 R1 R2 R3 R4 HS0 Hg]
        · isplitl [R0 R1 R2 R3 R4 HS0]
          · isplitl [R0]; · iexact R0
            isplitl [R1]; · iexact R1
            isplitl [R2]; · iexact R2
            isplitl [R3]; · iexact R3
            isplitl [R4]; · iexact R4
            unfold owns; iexists _; isplitr
            swap; · iexact HS0
            ipureintro; exact View.read_writes_of_cover _ _ _ _ _ (scover1_C_0 c _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      by_cases hz : t.val = 0
      · exfalso; omega
      ·
        rw [PhiS_castSucc V c t, PhiS_pos V c _ _ hz]
        iintro ⟨⟨⟨R0, R1, R2, R3, R4, HS0⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [R0 R1 R2 R3 R4 HS0 Hg]
        · isplitl [R0 R1 R2 R3 R4 HS0]
          · isplitl [R0]; · iexact R0
            isplitl [R1]; · iexact R1
            isplitl [R2]; · iexact R2
            isplitl [R3]; · iexact R3
            isplitl [R4]; · iexact R4
            unfold owns; iexists _; isplitr
            swap; · iexact HS0
            ipureintro; exact View.read_writes_of_cover _ _ _ _ _ (scover1_B_0 c _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point the invariant gives the launch's back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨R0, R1, R2, R3, R4, HS0⟩, Hg⟩
  isplitl [R0 R1 R2 R3 R4 HS0]
  · isplitl [R0]; · iexact R0
    isplitl [R1]; · iexact R1
    isplitl [R2]; · iexact R2
    isplitl [R3]; · iexact R3
    isplitl [R4]; · iexact R4
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 80 := N_1; omega)

end Cert.Kernel.Hand

end
-- ==== Proof.WordKernelRun.lean ====
/-
  The whole program as four items, and its run.

  The host operations gather the four embedding tables and join the gathered rows into the node features; the projection
  region multiplies the features by the weight matrix, block of rows by block of rows; one host reshape turns the bias
  vector into a row; the aggregation region multiplies the adjacency matrix by the projected features, accumulating over
  the column blocks of a row of blocks, and adds the bias row.  Between two items the TensorCore's unscoped buffers are
  held whole at contents that are named here as a fold from the launch memory: a host stretch changes the buffers its
  operations write, a region the result array of its pipeline.  From these contents each argument array is read back as
  launched, and the result array as what the aggregation region's write-backs leave.
-/
import proofs.«120712_j87625922773142_2_alg».proof.Proof.Gen.Kernel.Launch
import proofs.«120712_j87625922773142_2_alg».proof.Proof.Gen.Kernel.Skeleton
import proofs.«120712_j87625922773142_2_alg».proof.Proof.Gen.Kernel.Points
import proofs.«120712_j87625922773142_2_alg».proof.Proof.Gen.Kernel.Regions
import proofs.«120712_j87625922773142_2_alg».proof.Proof.WordProjectRegion
import proofs.«120712_j87625922773142_2_alg».proof.Proof.WordAggregateRegion
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary between two items of the program

The program is: the host operations that gather and join the node features; the projection region; the host reshape of
the bias vector; the aggregation region. -/

/-- Core `c`'s buffers at launch. -/
abbrev W0 : Dev nD → Valuation τ sig (Elt F) := fun c b => m (c, b)
/-- After the gathers and the concatenation (the projection region's entry). -/
abbrev W1 : Dev nD → Valuation τ sig (Elt F) := fun c => StableHlo.after hostOps0 (W0 m c)
/-- The same read at the TensorCore's references. -/
abbrev B1 : (c : Dev nD) → (b : Ref sig .tc) → Buf (Elt F) ((c : Thread nD τ).loc b) := fun c b => W1 m c b
/-- At the projection region's exit: its arrays at what the pipeline leaves, every other buffer as entered. -/
def W2 (c : Dev nD) : Valuation τ sig (Elt F) :=
  Pipeline.withArrays spec0 c (W1 m c) fun w => (dat0 (B1 m) c).arrAt w cfg0.N
theorem W2_arr (c : Dev nD) (w : Fin cfg0.W) :
    W2 m c (Proc.devRef .tc (Pipeline.arrRef spec0 w)) = (dat0 (B1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev B2 : (c : Dev nD) → (b : Ref sig .tc) → Buf (Elt F) ((c : Thread nD τ).loc b) := fun c b => W2 m c b
theorem hF0 (c : Dev nD) (w : Fin cfg0.W) : (dat0 (B1 m) c).arrAt w cfg0.N = B2 m c (Pipeline.arrRef spec0 w) :=
  (W2_arr m c w).symm
theorem hrest0 (c : Dev nD) : ∀ b, b ∉ Finset.univ.image (Pipeline.arrRef spec0) → B2 m c b = B1 m c b :=
  fun b hb => W2_of_ne m c b fun w e => hb (Finset.mem_image.mpr ⟨w, Finset.mem_univ _, e⟩)

/-- After the reshape of the bias (the aggregation region's entry). -/
abbrev W3 : Dev nD → Valuation τ sig (Elt F) := fun c => StableHlo.after hostOps1 (W2 m c)
abbrev B3 : (c : Dev nD) → (b : Ref sig .tc) → Buf (Elt F) ((c : Thread nD τ).loc b) := fun c b => W3 m c b
/-- At the aggregation region's exit. -/
def W4 (c : Dev nD) : Valuation τ sig (Elt F) :=
  Pipeline.withArrays spec1 c (W3 m c) fun w => (dat1 (B3 m) c).arrAt w cfg1.N
theorem W4_arr (c : Dev nD) (w : Fin cfg1.W) :
    W4 m c (Proc.devRef .tc (Pipeline.arrRef spec1 w)) = (dat1 (B3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev B4 : (c : Dev nD) → (b : Ref sig .tc) → Buf (Elt F) ((c : Thread nD τ).loc b) := fun c b => W4 m c b
theorem hF1 (c : Dev nD) (w : Fin cfg1.W) : (dat1 (B3 m) c).arrAt w cfg1.N = B4 m c (Pipeline.arrRef spec1 w) :=
  (W4_arr m c w).symm
theorem hrest1 (c : Dev nD) : ∀ b, b ∉ Finset.univ.image (Pipeline.arrRef spec1) → B4 m c b = B3 m c b :=
  fun b hb => W4_of_ne m c b fun w e => hb (Finset.mem_image.mpr ⟨w, Finset.mem_univ _, e⟩)

/-! ### What each item leaves unchanged

A host stretch changes only the buffers its operations write; a region changes only its result array: an input window's
array ends as it was found, and a buffer no window stages is not touched. -/

theorem W1_keep (c : Dev nD) (b : Ref sig .tc) (h : b ∉ hostOps0_W) : W1 m c (Proc.devRef .tc b) = W0 m c (Proc.devRef .tc b) :=
  StableHlo.after_of_writes_sub hostOps0 _ hostOps0_writes h
theorem W3_keep (c : Dev nD) (b : Ref sig .tc) (h : b ∉ hostOps1_W) : W3 m c (Proc.devRef .tc b) = W2 m c (Proc.devRef .tc b) :=
  StableHlo.after_of_writes_sub hostOps1 _ hostOps1_writes h
theorem W2_keep (c : Dev nD) (b : Ref sig .tc) (hb : b ≠ main_v29) : W2 m c (Proc.devRef .tc b) = W1 m c (Proc.devRef .tc b) := by
  by_cases h : ∃ w, Pipeline.arrRef spec0 w = b
  · obtain ⟨w, rfl⟩ := h
    rw [W2_arr]
    fin_cases w
    · exact ((dat0 (B1 m) c).arrAt_in 0 rfl _).trans (A_eq0 (B1 m) c 0)
    · exact ((dat0 (B1 m) c).arrAt_in 1 rfl _).trans (A_eq0 (B1 m) c 1)
    · exact absurd rfl hb
  · exact W2_of_ne m c b fun w e => h ⟨w, e⟩
theorem W4_keep (c : Dev nD) (b : Ref sig .tc) (hb : b ≠ main_v31) : W4 m c (Proc.devRef .tc b) = W3 m c (Proc.devRef .tc b) := by
  by_cases h : ∃ w, Pipeline.arrRef spec1 w = b
  · obtain ⟨w, rfl⟩ := h
    rw [W4_arr]
    fin_cases w
    · exact ((dat1 (B3 m) c).arrAt_in 0 rfl _).trans (A_eq1 (B3 m) c 0)
    · exact ((dat1 (B3 m) c).arrAt_in 1 rfl _).trans (A_eq1 (B3 m) c 1)
    · exact ((dat1 (B3 m) c).arrAt_in 2 rfl _).trans (A_eq1 (B3 m) c 2)
    · exact absurd rfl hb
  · exact W4_of_ne m c b fun w e => h ⟨w, e⟩
/-- A buffer that no host operation writes and that is no region's result ends as launched: every argument array. -/
theorem W4_launch (c : Dev nD) (b : Ref sig .tc) (h0 : b ∉ hostOps0_W) (h1 : b ∉ hostOps1_W) (h2 : b ≠ main_v29) (h4 : b ≠ main_v31) :
    W4 m c (Proc.devRef .tc b) = m ((c : Thread nD τ).loc b) :=
  (W4_keep m c b h4).trans <| (W3_keep m c b h1).trans <| (W2_keep m c b h2).trans <| (W1_keep m c b h0).trans rfl

/-! ## The proof data family and the thread state -/

/-- The prefetched tables' admissible contents: no pipeline has a table. -/
abbrev tabAdm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) tabAdm p) c
  | ⟨0, _⟩ => fun c => dat0 (B1 m) c
  | ⟨1, _⟩ => fun c => dat1 (B3 m) c
abbrev 𝒱₀ : Variants := Variants.none
/-- No core owes another anything: no level is assigned. -/
abbrev Lv : GSem nD τ sig → Finset Unit := fun _ => ∅
abbrev lvl : GSem nD τ sig → Unit → ℕ := fun _ _ => 0
/-- What rides beside the buffers through every item: the core's generator register at some state, and the core owing
    nothing. -/
abbrev Rr (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lv lvl :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tend (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The projection region over the thread state: entered from every unscoped buffer at `W1`, left at `W2`. -/
def reg0 : Pipeline.RegionSeg (pcfgs (F := F)) tabAdm (pdats m) () defs₀ 𝒱₀ Lv lvl 0 where
  win := launch0.win.to₀
  block_pos := launch0.block_pos
  stage_whole := launch0.stage_whole
  K := PEmpty
  osem k := k.elim
  ho := Pipeline.OwnSemFacts.none _
  hbody c := (body_obligation0 (B1 m) c).loose
  hwaits := Pipeline.hwaits_of_owed_zero _ _ _ _ Lv lvl 0 fun _ _ => rfl
  pre c := iprop(StableHlo.held (c : Thread nD τ) (Pipeline.ucRefs τ sig) (W1 m c) ∗ Rr c)
  post c := iprop(StableHlo.held (c : Thread nD τ) (Pipeline.ucRefs τ sig) (W2 m c) ∗ Rr c)
  X c := iprop(∃ r, prngReg c r)
  Y c := iprop(∃ r, prngReg c r)
  Z c := Pipeline.unscopedRest (Ix := Unit) (Name := ℕ) (U := UR sig nD τ) (Lvl := ℕ) spec0 c (B1 m c)
  hentry c := by
    rw [Pipeline.ownSems0_none]
    have hsplit := Pipeline.arrays_of_unscopedBufs (p := 0) (pcfgs (F := F)) tabAdm (pdats m) launch0.win launch0.arr_whole c
      ((pdats m 0 c).share_full fun _ => rfl) (B1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) tabAdm (Ix := Unit) (Name := ℕ) (U := UR sig nD τ) (Lvl := ℕ)
      launch0.win launch0.arr_whole c (pdats m) ((pdats m 0 c).share_full fun _ => rfl)
      (B1 m c) (B2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The aggregation region over the thread state: entered from every unscoped buffer at `W3`, left at `W4`. Its
    invariant starts as the scoped rest and the generator register and ends giving them back, the accumulator's named
    contents forgotten. -/
def reg1 : Pipeline.RegionSeg (pcfgs (F := F)) tabAdm (pdats m) () defs₀ 𝒱₀ Lv lvl 1 where
  win := launch1.win.to₀
  block_pos := launch1.block_pos
  stage_whole := launch1.stage_whole
  K := PEmpty
  osem k := k.elim
  ho := Pipeline.OwnSemFacts.none _
  hbody c := (body_obligation1 (B3 m) c).loose
  hwaits := Pipeline.hwaits_of_owed_zero _ _ _ _ Lv lvl 1 fun _ _ => rfl
  pre c := iprop(StableHlo.held (c : Thread nD τ) (Pipeline.ucRefs τ sig) (W3 m c) ∗ Rr c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (B3 m c)
  hentry c := by
    rw [Pipeline.ownSems0_none]
    have hsplit := Pipeline.arrays_of_unscopedBufs (p := 1) (pcfgs (F := F)) tabAdm (pdats m) launch1.win launch1.arr_whole c
      ((pdats m 1 c).share_full fun _ => rfl) (B3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec1 c ⊢ (pdats m 1 c).Φ 0 := hin1 (B3 m) c
    iintro ⟨Hp, -, Hr⟩
    iapply h
    unfold Pipeline.ΦA
    isplitl [Hr]; · iexact Hr
    iexact Hp
  hout c := by
    rw [Pipeline.ownSems0_none]
    have h : (pdats m 1 c).Φ (Fin.last _) ⊢ Pipeline.ΦA spec1 c := hout1 (B3 m) c
    refine h.trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) tabAdm (Ix := Unit) (Name := ℕ) (U := UR sig nD τ) (Lvl := ℕ)
      launch1.win launch1.arr_whole c (pdats m) ((pdats m 1 c).share_full fun _ => rfl)
      (B3 m c) (B4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The four items in order. -/
abbrev runSegs : List (Pipeline.Seg (pcfgs (F := F)) tabAdm (pdats m) () defs₀ 𝒱₀ Lv lvl) :=
  [ .host (hseg hostOps0 hostOps0_sub hostOps0_fresh (W0 m)),
    .region (reg0 m),
    .host (hseg hostOps1 hostOps1_sub hostOps1_fresh (W2 m)),
    .region (reg1 m) ]
/-- The program is the run of these segments. -/
theorem main_run (c : Dev nD) : main (F := F) c = Pipeline.Seg.run (runSegs m) := (main_chain c).trans (by chain_rfl)

set_option backward.isDefEq.respectTransparency.types false in
/-- THE RUN. From any memory with zero counters every weakly fair execution of the program terminates, nothing faulting,
    and in every final state each unscoped buffer of the TensorCore holds the last boundary's contents `W4`: the result
    array what the aggregation region's write-backs leave, each argument array its launch contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) tabAdm (pdats m) () cellOf_inj emb₁ defs₀ 𝒱₀ Lv lvl m ρ main (runSegs m)
    (fun c Q => by rw [main_run m c])
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rr c)) (Tₙ := Tend m)
    (hch := ⟨fun _ => .rfl, fun _ => .rfl, fun _ => .rfl, fun _ => .rfl, fun _ => .rfl⟩)
    (hinit := by
      refine Pipeline.initEach Lv lvl fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The frame: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun r h c => ⟨
    (h c _ (mem_uc main_arg0 (by decide))).trans (W4_launch m c main_arg0 (by decide) (by decide) (by decide) (by decide)),
    (h c _ (mem_uc main_arg1 (by decide))).trans (W4_launch m c main_arg1 (by decide) (by decide) (by decide) (by decide)),
    (h c _ (mem_uc main_arg2 (by decide))).trans (W4_launch m c main_arg2 (by decide) (by decide) (by decide) (by decide)),
    (h c _ (mem_uc main_arg3 (by decide))).trans (W4_launch m c main_arg3 (by decide) (by decide) (by decide) (by decide)),
    (h c _ (mem_uc main_arg4 (by decide))).trans (W4_launch m c main_arg4 (by decide) (by decide) (by decide) (by decide)),
    (h c _ (mem_uc main_arg5 (by decide))).trans (W4_launch m c main_arg5 (by decide) (by decide) (by decide) (by decide)),
    (h c _ (mem_uc main_arg6 (by decide))).trans (W4_launch m c main_arg6 (by decide) (by decide) (by decide) (by decide)),
    (h c _ (mem_uc main_arg7 (by decide))).trans (W4_launch m c main_arg7 (by decide) (by decide) (by decide) (by decide)),
    (h c _ (mem_uc main_arg8 (by decide))).trans (W4_launch m c main_arg8 (by decide) (by decide) (by decide) (by decide)),
    (h c _ (mem_uc main_arg9 (by decide))).trans (W4_launch m c main_arg9 (by decide) (by decide) (by decide) (by decide)),
    (h c _ (mem_uc main_arg10 (by decide))).trans (W4_launch m c main_arg10 (by decide) (by decide) (by decide) (by decide)),
    (h c _ (mem_uc main_arg11 (by decide))).trans (W4_launch m c main_arg11 (by decide) (by decide) (by decide) (by decide)),
    (h c _ (mem_uc main_arg12 (by decide))).trans (W4_launch m c main_arg12 (by decide) (by decide) (by decide) (by decide)),
    (h c _ (mem_uc main_arg13 (by decide))).trans (W4_launch m c main_arg13 (by decide) (by decide) (by decide) (by decide)),
    (h c _ (mem_uc main_arg14 (by decide))).trans (W4_launch m c main_arg14 (by decide) (by decide) (by decide) (by decide)),
    (h c _ (mem_uc main_arg15 (by decide))).trans (W4_launch m c main_arg15 (by decide) (by decide) (by decide) (by decide)),
    (h c _ (mem_uc main_arg16 (by decide))).trans (W4_launch m c main_arg16 (by decide) (by decide) (by decide) (by decide)),
    (h c _ (mem_uc main_arg17 (by decide))).trans (W4_launch m c main_arg17 (by decide) (by decide) (by decide) (by decide)),
    (h c _ (mem_uc main_arg18 (by decide))).trans (W4_launch m c main_arg18 (by decide) (by decide) (by decide) (by decide)),
    (h c _ (mem_uc main_arg19 (by decide))).trans (W4_launch m c main_arg19 (by decide) (by decide) (by decide) (by decide)),
    (h c _ (mem_uc main_arg20 (by decide))).trans (W4_launch m c main_arg20 (by decide) (by decide) (by decide) (by decide)),
    (h c _ (mem_uc main_arg21 (by decide))).trans (W4_launch m c main_arg21 (by decide) (by decide) (by decide) (by decide)),
    (h c _ (mem_uc main_arg22 (by decide))).trans (W4_launch m c main_arg22 (by decide) (by decide) (by decide) (by decide)),
    (h c _ (mem_uc main_arg23 (by decide))).trans (W4_launch m c main_arg23 (by decide) (by decide) (by decide) (by decide))⟩)
    (run_all m ρ)

/-- The run with the result array named: it ends at what the aggregation region's write-backs leave, and every argument
    array ends holding its launch contents. -/
theorem run_result : θ_run defs (onTc (τ := τ) (main (F := F))) ⟨m, fun _ => 0, ρ⟩ (fun r => ∀ c : Dev nD,
      r.2.mem ((c.tc : Thread nD τ).loc main_v31) = (dat1 (B3 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun r h c => ⟨
    (h c _ (mem_uc main_v31 (by decide))).trans (W4_arr m c 3),
    (h c _ (mem_uc main_arg0 (by decide))).trans (W4_launch m c main_arg0 (by decide) (by decide) (by decide) (by decide)),
    (h c _ (mem_uc main_arg1 (by decide))).trans (W4_launch m c main_arg1 (by decide) (by decide) (by decide) (by decide)),
    (h c _ (mem_uc main_arg2 (by decide))).trans (W4_launch m c main_arg2 (by decide) (by decide) (by decide) (by decide)),
    (h c _ (mem_uc main_arg3 (by decide))).trans (W4_launch m c main_arg3 (by decide) (by decide) (by decide) (by decide)),
    (h c _ (mem_uc main_arg4 (by decide))).trans (W4_launch m c main_arg4 (by decide) (by decide) (by decide) (by decide)),
    (h c _ (mem_uc main_arg5 (by decide))).trans (W4_launch m c main_arg5 (by decide) (by decide) (by decide) (by decide)),
    (h c _ (mem_uc main_arg6 (by decide))).trans (W4_launch m c main_arg6 (by decide) (by decide) (by decide) (by decide)),
    (h c _ (mem_uc main_arg7 (by decide))).trans (W4_launch m c main_arg7 (by decide) (by decide) (by decide) (by decide)),
    (h c _ (mem_uc main_arg8 (by decide))).trans (W4_launch m c main_arg8 (by decide) (by decide) (by decide) (by decide)),
    (h c _ (mem_uc main_arg9 (by decide))).trans (W4_launch m c main_arg9 (by decide) (by decide) (by decide) (by decide)),
    (h c _ (mem_uc main_arg10 (by decide))).trans (W4_launch m c main_arg10 (by decide) (by decide) (by decide) (by decide)),
    (h c _ (mem_uc main_arg11 (by decide))).trans (W4_launch m c main_arg11 (by decide) (by decide) (by decide) (by decide)),
    (h c _ (mem_uc main_arg12 (by decide))).trans (W4_launch m c main_arg12 (by decide) (by decide) (by decide) (by decide)),
    (h c _ (mem_uc main_arg13 (by decide))).trans (W4_launch m c main_arg13 (by decide) (by decide) (by decide) (by decide)),
    (h c _ (mem_uc main_arg14 (by decide))).trans (W4_launch m c main_arg14 (by decide) (by decide) (by decide) (by decide)),
    (h c _ (mem_uc main_arg15 (by decide))).trans (W4_launch m c main_arg15 (by decide) (by decide) (by decide) (by decide)),
    (h c _ (mem_uc main_arg16 (by decide))).trans (W4_launch m c main_arg16 (by decide) (by decide) (by decide) (by decide)),
    (h c _ (mem_uc main_arg17 (by decide))).trans (W4_launch m c main_arg17 (by decide) (by decide) (by decide) (by decide)),
    (h c _ (mem_uc main_arg18 (by decide))).trans (W4_launch m c main_arg18 (by decide) (by decide) (by decide) (by decide)),
    (h c _ (mem_uc main_arg19 (by decide))).trans (W4_launch m c main_arg19 (by decide) (by decide) (by decide) (by decide)),
    (h c _ (mem_uc main_arg20 (by decide))).trans (W4_launch m c main_arg20 (by decide) (by decide) (by decide) (by decide)),
    (h c _ (mem_uc main_arg21 (by decide))).trans (W4_launch m c main_arg21 (by decide) (by decide) (by decide) (by decide)),
    (h c _ (mem_uc main_arg22 (by decide))).trans (W4_launch m c main_arg22 (by decide) (by decide) (by decide) (by decide)),
    (h c _ (mem_uc main_arg23 (by decide))).trans (W4_launch m c main_arg23 (by decide) (by decide) (by decide) (by decide))⟩)
    (run_all m ρ)

end Cert.Kernel.Hand

end
-- ==== Proof.ProjectRegion.lean ====
import proofs.«120712_j87625922773142_2_alg».proof.Proof.Gen.KernelIdeal.Launch
import proofs.«120712_j87625922773142_2_alg».proof.Proof.Gen.KernelIdeal.Skeleton
import proofs.«120712_j87625922773142_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The first region: the dense projection

The first grid region multiplies the concatenated feature array (16000 × 128) by a 128 × 128 weight
array, eight row blocks of 2000 rows each, and leaves the product rounded to the narrow float type.
This module gives, for any buffer contents `V` at the region's entry and for any float instance, what
each window's staging buffer holds around the body at a grid point, and proves that the body run on
those buffers leaves them as stated.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter everything is stated at
variable (V : (c : Dev nD) → (b : Ref sig .tc) → Buf (Elt F) ((c : Thread nD τ).loc b))

/-! ## The windows' blocks -/

/-- The block of window `w` at grid point `t`: the rectangle of the window's array, as the region finds
    the array, that the window's index map selects there. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-block input's staging buffer holds its block at every point: it is fetched at every point,
    and the body does not change it. Stated for any proof data over the entry contents whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight input's staging buffer holds the whole weight array at every point: it is fetched at
    the first point only, its block index never moves afterwards, and the body does not change it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 2000 × 128 block (the row-block input is read through it). -/
abbrev r0_0 : Rect S2000x128 := Rect.unit (s := S2000x128) ![0, 0] S2000x128.size inb_S2000x128_S2000x128_0_0
/-- The whole 128 × 128 weight block. -/
abbrev r0_1 : Rect S128x128 := Rect.unit (s := S128x128) ![0, 0] S128x128.size inb_S128x128_S128x128_0_0
/-- The whole 2000 × 128 block again (the output is written through it). -/
abbrev r0_2 : Rect S2000x128 := Rect.unit (s := S2000x128) ![0, 0] S2000x128.size inb_S2000x128_S2000x128_0_0

/-! ## What the body leaves in the output window's buffer -/

/-- The output buffer after the body, from the two input blocks: the body's single store, of the
    rounded product of the two blocks it loaded, read back as a whole buffer. -/
def out0_2 (x0 : Vec F S2000x128 .f32) (x1 : Vec F S128x128 .f32) : Vec F S2000x128 .bf16 :=
  View.canon [⟨r0_2, k0_pay1 (View.ld x0 r0_0) (View.ld x1 r0_1)⟩]

/-- The single store spans the whole buffer, so every index of the buffer lies in it. -/
theorem cover0_2 (p0 : Vec F S2000x128 .bf16) (y : S2000x128.Idx) :
    ∃ pc ∈ ([⟨r0_2, p0⟩] : List (View.Piece (Elt F) S2000x128 .bf16)), y ∈ pc.1.set :=
  View.cover_of_tiled [⟨r0_2, p0⟩] S2000x128.size (by rfl) y

/-! ## The body's triple -/

set_option maxHeartbeats 1000000 in
/-- The body, run on whole staging buffers with the two inputs at contents `x0`, `x1` and the output at
    anything, reaches its continuation with the inputs unchanged and the output at `out0_2 x0 x1`: it
    loads the two inputs, loads the output (a value it never uses), and stores the rounded product
    over the whole output buffer. -/
theorem sound_kernel0 (c : Dev nD) (E : Set ℕ) (i : grid0.Coords) (arg1 : Memref sig .tc .vmem S2000x128 .f32) (harg1 : arg1.IsWhole)
    (arg2 : Memref sig .tc .vmem S128x128 .f32) (harg2 : arg2.IsWhole) (arg3 : Memref sig .tc .vmem S2000x128 .bf16) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__small_kernel i arg1 harg1 arg2 harg2 arg3 harg3) K := by
  simp only [cc0__small_kernel_eq_skeleton]; unfold cc0__small_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The region's proof data -/

/-- The proof data of the region on core `c`: every array as the region finds it; after the body at
    point `t` each input's buffer still at its block and the output's buffer at `out0_2` of the two
    input blocks; the invariant is the one of a body that touches nothing but its windows; full
    shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's staging buffer holds its block when the body is entered, at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is entered with at point `t`: the invariant, what the core owes, and each window's
    staging buffer at its contents before the body. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it returns: the same, each buffer at its contents after the body. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the
    invariant and what the core owes pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region, at every point. -/
theorem body_obligation0 (c : Dev nD) : BodyObligation (dat0 (F := F) V c) (defs₀ (F := F)) Variants.none () Set.univ := fun t => by
  rw [bigSep_W0, bigSep_W0]
  exact sound_body0 V c t

/-- The invariant is the same at every boundary of the run. -/
theorem Phi_eq0 (c : Dev nD) (t : Fin (cfg0.N + 1)) : (dat0 V c).Φ t = Pipeline.ΦA spec0 c := rfl

end Cert.KernelIdeal.Hand

end
-- ==== Proof.AggregateRuns.lean ====
import proofs.«120712_j87625922773142_2_alg».proof.Proof.Gen.KernelIdeal.Launch
import proofs.«120712_j87625922773142_2_alg».proof.Proof.Gen.KernelIdeal.Skeleton
import proofs.«120712_j87625922773142_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: the aggregation kernel on the grid (16, 5), entered at the buffer contents V -/

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is V's and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The first conditional's condition (the reduction index is 0), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 5). -/
theorem hcond1_0 : ∀ t : Fin cfg1.N, cond1_0 (grid1.coords t) ↔ t.val % 5 = 0 :=
  (by decide +kernel : ∀ t : Fin grid1.N, cond1_0 (grid1.coords t) ↔ t.val % 5 = 0)

/-- The second conditional's condition (the reduction index is 4, the last), from the grid coordinates. -/
abbrev cond1_1 (i : grid1.Coords) : Prop := k1_cond2 i = 1#1
/-- It holds at the points ≡ 4 (mod 5). -/
theorem hcond1_1 : ∀ t : Fin cfg1.N, cond1_1 (grid1.coords t) ↔ t.val % 5 = 4 :=
  (by decide +kernel : ∀ t : Fin grid1.N, cond1_1 (grid1.coords t) ↔ t.val % 5 = 4)

/-! ## Where the windows are idle -/

/-- The inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where the reduction index is 0 the output is idle: nothing is stored into it, -/
theorem idleAt1_3_A : ∀ t : Fin cfg1.N, cond1_0 (grid1.coords t) → ¬cond1_1 (grid1.coords t) → cfg1.idle 3 (grid1.coords t) = true := by decide +kernel
/-- and its block is not written back. -/
theorem noFlush1_3_A : ∀ t : Fin cfg1.N, cond1_0 (grid1.coords t) → ¬cond1_1 (grid1.coords t) → (cfg1.win 3).flush t = false := by decide +kernel
/-- The same where the reduction index is 1, 2 or 3. -/
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- Where the reduction index is 4 the output is live: the body stores its whole block. -/
theorem liveAt1_3_C : ∀ t : Fin cfg1.N, ¬cond1_0 (grid1.coords t) → cond1_1 (grid1.coords t) → cfg1.idle 3 (grid1.coords t) = false := by decide +kernel

/-! ## The memrefs the body is called with -/

/-- One staging buffer of the output window, through which its contents are stated (the choice does not matter). -/
abbrev VO1_3 : View sig .tc .vmem S1000x128 .f32 := (Memref.whole cc1_stg3_0 : Memref sig .tc .vmem S1000x128 .f32).view
/-- Each window's current staging memref at point t, as the pipeline passes it, and its wholeness. -/
abbrev ms1_0 (t : Fin cfg1.N) : Memref sig .tc .vmem S1000x3200 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16000x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1000x128 .f32 := win1_3.stage (cfg1.slots t 3)
abbrev hs1_3 (t : Fin cfg1.N) : (ms1_3 t).IsWhole := hstage1_3 ((cfg1.slots t 3).cast nbuf1_3)
/-- The accumulator: a whole scoped buffer of the kernel's own, passed beside the windows and carried between points. -/
abbrev scM1_0 : Memref sig .tc .vmem S1000x128 .f32 := Memref.whole cc1_scratch0
/-- The accumulator as a view: what it holds is stated through it. -/
abbrev VS1_0 : View sig .tc .vmem S1000x128 .f32 := scM1_0.view

/-- A scoped buffer of the core held whole at some contents. -/
abbrev heldAny (c : Dev nD) (b : Ref sig .tc) : sProp 𝕄 :=
  iprop(∃ f : Buf (Elt F) ((c : Thread nD τ).loc b), ((c : Thread nD τ).loc b) ↦{fullShare} f)

/-- The region's invariant before its first point: the first kernel's five staging buffers at some contents, the
    accumulator owned as a memref at some contents, and the generator register. -/
theorem PhiA1_eq (c : Dev nD) :
    (Pipeline.ΦA spec1 c : sProp 𝕄)
      = iprop(iprop(heldAny (F := F) c cc0_stg0_0 ∗ heldAny (F := F) c cc0_stg0_1 ∗ heldAny (F := F) c cc0_stg1_0 ∗ heldAny (F := F) c cc0_stg2_0 ∗ heldAny (F := F) c cc0_stg2_1
          ∗ (∃ d, owns (c : Thread nD τ) scM1_0 fullShare d)) ∗ (∃ r, prngReg c r)) := by
  unfold Pipeline.ΦA; rw [scopedRest1_eq]; simp only [scM1_0, owns_whole]; try rfl

end Cert.KernelIdeal.Hand

end
-- ==== Proof.AggregateRunA.lean ====
import proofs.«120712_j87625922773142_2_alg».proof.Proof.AggregateRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body where the reduction index is 0 (the first conditional taken, the second not): on whole memrefs — the
    three inputs at their contents, the output's buffer at contents handed back untouched, the accumulator at
    anything — it runs to the continuation holding the inputs and the output's buffer as they were and the
    accumulator with its pieces written, last first: the block product added to the zero fill, over the zero fill. -/
noncomputable def kernelRun1_A (c : Dev nD) (i : grid1.Coords) (arg2 : Memref sig .tc .vmem S1000x3200 .f32) (harg2 : arg2.IsWhole) (arg3 : Memref sig .tc .vmem S16000x128 .bf16) (harg3 : arg3.IsWhole) (arg4 : Memref sig .tc .vmem S1x128 .f32) (harg4 : arg4.IsWhole) (arg5 : Memref sig .tc .vmem S1000x128 .f32) (harg5 : arg5.IsWhole) (arg6 : Memref sig .tc .vmem S1000x128 .f32) (harg6 : arg6.IsWhole) (hc0 : cond1_0 i) (hc1 : ¬cond1_1 i)
    (x0 : Vec F S1000x3200 .f32) (x1 : Vec F S16000x128 .bf16) (x2 : Vec F S1x128 .f32) :
    Σ' (L3 : List (View.Piece (Elt F) S1000x128 .f32)), { LS0 : List (View.Piece (Elt F) S1000x128 .f32) //
      ∀ (xi3 : Vec F S1000x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__kernel i arg2 harg2 arg3 harg3 arg4 harg4 arg5 harg5 arg6 harg6) K } := by
  refine ⟨[], ?_, fun xi3 E K => ?run⟩
  case run =>
    simp only [cc1__kernel_eq_skeleton]; unfold cc1__kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.AggregateRunB.lean ====
import proofs.«120712_j87625922773142_2_alg».proof.Proof.AggregateRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body where the reduction index is 1, 2 or 3 (neither conditional taken): on whole memrefs — the three
    inputs at their contents, the output's buffer at contents handed back untouched, the accumulator at what the
    point before left — it runs to the continuation holding the inputs and the output's buffer as they were and the
    accumulator with one piece written: the block product added to what it held. -/
noncomputable def kernelRun1_B (c : Dev nD) (i : grid1.Coords) (arg2 : Memref sig .tc .vmem S1000x3200 .f32) (harg2 : arg2.IsWhole) (arg3 : Memref sig .tc .vmem S16000x128 .bf16) (harg3 : arg3.IsWhole) (arg4 : Memref sig .tc .vmem S1x128 .f32) (harg4 : arg4.IsWhole) (arg5 : Memref sig .tc .vmem S1000x128 .f32) (harg5 : arg5.IsWhole) (arg6 : Memref sig .tc .vmem S1000x128 .f32) (harg6 : arg6.IsWhole) (hc0 : ¬cond1_0 i) (hc1 : ¬cond1_1 i)
    (x0 : Vec F S1000x3200 .f32) (x1 : Vec F S16000x128 .bf16) (x2 : Vec F S1x128 .f32) (xs0 : Vec F S1000x128 .f32) :
    Σ' (L3 : List (View.Piece (Elt F) S1000x128 .f32)), { LS0 : List (View.Piece (Elt F) S1000x128 .f32) //
      ∀ (xi3 : Vec F S1000x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__kernel i arg2 harg2 arg3 harg3 arg4 harg4 arg5 harg5 arg6 harg6) K } := by
  refine ⟨[], ?_, fun xi3 E K => ?run⟩
  case run =>
    simp only [cc1__kernel_eq_skeleton]; unfold cc1__kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.AggregateRunC.lean ====
import proofs.«120712_j87625922773142_2_alg».proof.Proof.AggregateRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body where the reduction index is 4 (the second conditional taken): on whole memrefs — the three inputs at
    their contents, the output's buffer at anything, the accumulator at what the point before left — it runs to the
    continuation holding the inputs as they were, the accumulator with one piece written (the block product added
    to what it held) and the output's buffer with one piece written: the accumulator plus the bias row. -/
noncomputable def kernelRun1_C (c : Dev nD) (i : grid1.Coords) (arg2 : Memref sig .tc .vmem S1000x3200 .f32) (harg2 : arg2.IsWhole) (arg3 : Memref sig .tc .vmem S16000x128 .bf16) (harg3 : arg3.IsWhole) (arg4 : Memref sig .tc .vmem S1x128 .f32) (harg4 : arg4.IsWhole) (arg5 : Memref sig .tc .vmem S1000x128 .f32) (harg5 : arg5.IsWhole) (arg6 : Memref sig .tc .vmem S1000x128 .f32) (harg6 : arg6.IsWhole) (hc0 : ¬cond1_0 i) (hc1 : cond1_1 i)
    (x0 : Vec F S1000x3200 .f32) (x1 : Vec F S16000x128 .bf16) (x2 : Vec F S1x128 .f32) (xs0 : Vec F S1000x128 .f32) :
    Σ' (L3 : List (View.Piece (Elt F) S1000x128 .f32)), { LS0 : List (View.Piece (Elt F) S1000x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__kernel i arg2 harg2 arg3 harg3 arg4 harg4 arg5 harg5 arg6 harg6) K } := by
  refine ⟨?_, ?_, fun E K => ?run⟩
  case run =>
    simp only [cc1__kernel_eq_skeleton]; unfold cc1__kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.AggregateRegion.lean ====
import proofs.«120712_j87625922773142_2_alg».proof.Proof.AggregateRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves in the output's buffer and in the accumulator -/

/-- What the output's buffer reads after the body there: its pieces read back over junk (no piece: a placeholder nothing consults, the window being idle and not written back at these points). -/
def out1_A_3 (c : Dev nD) (i : grid1.Coords) (arg2 : Memref sig .tc .vmem S1000x3200 .f32) (harg2 : arg2.IsWhole) (arg3 : Memref sig .tc .vmem S16000x128 .bf16) (harg3 : arg3.IsWhole) (arg4 : Memref sig .tc .vmem S1x128 .f32) (harg4 : arg4.IsWhole) (arg5 : Memref sig .tc .vmem S1000x128 .f32) (harg5 : arg5.IsWhole) (arg6 : Memref sig .tc .vmem S1000x128 .f32) (harg6 : arg6.IsWhole) (hc0 : cond1_0 i) (hc1 : ¬cond1_1 i)
    (x0 : Vec F S1000x3200 .f32) (x1 : Vec F S16000x128 .bf16) (x2 : Vec F S1x128 .f32) : Vec F S1000x128 .f32 :=
  VO1_3.read (Elt F) (VO1_3.writes (Elt F) VO1_3.junk (kernelRun1_A c i arg2 harg2 arg3 harg3 arg4 harg4 arg5 harg5 arg6 harg6 hc0 hc1 x0 x1 x2).1)

/-- The accumulator's pieces cover it: whole-block stores. -/
theorem scover1_A_0 (c : Dev nD) (i : grid1.Coords) (arg2 : Memref sig .tc .vmem S1000x3200 .f32) (harg2 : arg2.IsWhole) (arg3 : Memref sig .tc .vmem S16000x128 .bf16) (harg3 : arg3.IsWhole) (arg4 : Memref sig .tc .vmem S1x128 .f32) (harg4 : arg4.IsWhole) (arg5 : Memref sig .tc .vmem S1000x128 .f32) (harg5 : arg5.IsWhole) (arg6 : Memref sig .tc .vmem S1000x128 .f32) (harg6 : arg6.IsWhole) (hc0 : cond1_0 i) (hc1 : ¬cond1_1 i)
    (x0 : Vec F S1000x3200 .f32) (x1 : Vec F S16000x128 .bf16) (x2 : Vec F S1x128 .f32) (y : S1000x128.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S1000x128.size (by sl_kernel_rfl) y

/-- What the accumulator holds after the body there: its pieces read back over junk. -/
def sout1_A_0 (c : Dev nD) (i : grid1.Coords) (arg2 : Memref sig .tc .vmem S1000x3200 .f32) (harg2 : arg2.IsWhole) (arg3 : Memref sig .tc .vmem S16000x128 .bf16) (harg3 : arg3.IsWhole) (arg4 : Memref sig .tc .vmem S1x128 .f32) (harg4 : arg4.IsWhole) (arg5 : Memref sig .tc .vmem S1000x128 .f32) (harg5 : arg5.IsWhole) (arg6 : Memref sig .tc .vmem S1000x128 .f32) (harg6 : arg6.IsWhole) (hc0 : cond1_0 i) (hc1 : ¬cond1_1 i)
    (x0 : Vec F S1000x3200 .f32) (x1 : Vec F S16000x128 .bf16) (x2 : Vec F S1x128 .f32) : Vec F S1000x128 .f32 :=
  VS1_0.read (Elt F) (VS1_0.writes (Elt F) VS1_0.junk (kernelRun1_A c i arg2 harg2 arg3 harg3 arg4 harg4 arg5 harg5 arg6 harg6 hc0 hc1 x0 x1 x2).2.1)

/-- What the output's buffer reads after the body there: its pieces read back over junk (no piece: a placeholder nothing consults, the window being idle and not written back at these points). -/
def out1_B_3 (c : Dev nD) (i : grid1.Coords) (arg2 : Memref sig .tc .vmem S1000x3200 .f32) (harg2 : arg2.IsWhole) (arg3 : Memref sig .tc .vmem S16000x128 .bf16) (harg3 : arg3.IsWhole) (arg4 : Memref sig .tc .vmem S1x128 .f32) (harg4 : arg4.IsWhole) (arg5 : Memref sig .tc .vmem S1000x128 .f32) (harg5 : arg5.IsWhole) (arg6 : Memref sig .tc .vmem S1000x128 .f32) (harg6 : arg6.IsWhole) (hc0 : ¬cond1_0 i) (hc1 : ¬cond1_1 i)
    (x0 : Vec F S1000x3200 .f32) (x1 : Vec F S16000x128 .bf16) (x2 : Vec F S1x128 .f32) (xs0 : Vec F S1000x128 .f32) : Vec F S1000x128 .f32 :=
  VO1_3.read (Elt F) (VO1_3.writes (Elt F) VO1_3.junk (kernelRun1_B c i arg2 harg2 arg3 harg3 arg4 harg4 arg5 harg5 arg6 harg6 hc0 hc1 x0 x1 x2 xs0).1)

/-- The accumulator's pieces cover it: whole-block stores. -/
theorem scover1_B_0 (c : Dev nD) (i : grid1.Coords) (arg2 : Memref sig .tc .vmem S1000x3200 .f32) (harg2 : arg2.IsWhole) (arg3 : Memref sig .tc .vmem S16000x128 .bf16) (harg3 : arg3.IsWhole) (arg4 : Memref sig .tc .vmem S1x128 .f32) (harg4 : arg4.IsWhole) (arg5 : Memref sig .tc .vmem S1000x128 .f32) (harg5 : arg5.IsWhole) (arg6 : Memref sig .tc .vmem S1000x128 .f32) (harg6 : arg6.IsWhole) (hc0 : ¬cond1_0 i) (hc1 : ¬cond1_1 i)
    (x0 : Vec F S1000x3200 .f32) (x1 : Vec F S16000x128 .bf16) (x2 : Vec F S1x128 .f32) (xs0 : Vec F S1000x128 .f32) (y : S1000x128.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S1000x128.size (by sl_kernel_rfl) y

/-- What the accumulator holds after the body there: its pieces read back over junk. -/
def sout1_B_0 (c : Dev nD) (i : grid1.Coords) (arg2 : Memref sig .tc .vmem S1000x3200 .f32) (harg2 : arg2.IsWhole) (arg3 : Memref sig .tc .vmem S16000x128 .bf16) (harg3 : arg3.IsWhole) (arg4 : Memref sig .tc .vmem S1x128 .f32) (harg4 : arg4.IsWhole) (arg5 : Memref sig .tc .vmem S1000x128 .f32) (harg5 : arg5.IsWhole) (arg6 : Memref sig .tc .vmem S1000x128 .f32) (harg6 : arg6.IsWhole) (hc0 : ¬cond1_0 i) (hc1 : ¬cond1_1 i)
    (x0 : Vec F S1000x3200 .f32) (x1 : Vec F S16000x128 .bf16) (x2 : Vec F S1x128 .f32) (xs0 : Vec F S1000x128 .f32) : Vec F S1000x128 .f32 :=
  VS1_0.read (Elt F) (VS1_0.writes (Elt F) VS1_0.junk (kernelRun1_B c i arg2 harg2 arg3 harg3 arg4 harg4 arg5 harg5 arg6 harg6 hc0 hc1 x0 x1 x2 xs0).2.1)

/-- The pieces the last reduction step leaves in the output's buffer cover it: one store of the whole block. -/
theorem cover1_C_3 (c : Dev nD) (i : grid1.Coords) (arg2 : Memref sig .tc .vmem S1000x3200 .f32) (harg2 : arg2.IsWhole) (arg3 : Memref sig .tc .vmem S16000x128 .bf16) (harg3 : arg3.IsWhole) (arg4 : Memref sig .tc .vmem S1x128 .f32) (harg4 : arg4.IsWhole) (arg5 : Memref sig .tc .vmem S1000x128 .f32) (harg5 : arg5.IsWhole) (arg6 : Memref sig .tc .vmem S1000x128 .f32) (harg6 : arg6.IsWhole) (hc0 : ¬cond1_0 i) (hc1 : cond1_1 i)
    (x0 : Vec F S1000x3200 .f32) (x1 : Vec F S16000x128 .bf16) (x2 : Vec F S1x128 .f32) (xs0 : Vec F S1000x128 .f32) (y : S1000x128.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S1000x128.size (by sl_kernel_rfl) y

/-- What the output's buffer reads after the body there: its pieces read back over junk. -/
def out1_C_3 (c : Dev nD) (i : grid1.Coords) (arg2 : Memref sig .tc .vmem S1000x3200 .f32) (harg2 : arg2.IsWhole) (arg3 : Memref sig .tc .vmem S16000x128 .bf16) (harg3 : arg3.IsWhole) (arg4 : Memref sig .tc .vmem S1x128 .f32) (harg4 : arg4.IsWhole) (arg5 : Memref sig .tc .vmem S1000x128 .f32) (harg5 : arg5.IsWhole) (arg6 : Memref sig .tc .vmem S1000x128 .f32) (harg6 : arg6.IsWhole) (hc0 : ¬cond1_0 i) (hc1 : cond1_1 i)
    (x0 : Vec F S1000x3200 .f32) (x1 : Vec F S16000x128 .bf16) (x2 : Vec F S1x128 .f32) (xs0 : Vec F S1000x128 .f32) : Vec F S1000x128 .f32 :=
  VO1_3.read (Elt F) (VO1_3.writes (Elt F) VO1_3.junk (kernelRun1_C c i arg2 harg2 arg3 harg3 arg4 harg4 arg5 harg5 arg6 harg6 hc0 hc1 x0 x1 x2 xs0).1)

/-- The accumulator's pieces cover it: whole-block stores. -/
theorem scover1_C_0 (c : Dev nD) (i : grid1.Coords) (arg2 : Memref sig .tc .vmem S1000x3200 .f32) (harg2 : arg2.IsWhole) (arg3 : Memref sig .tc .vmem S16000x128 .bf16) (harg3 : arg3.IsWhole) (arg4 : Memref sig .tc .vmem S1x128 .f32) (harg4 : arg4.IsWhole) (arg5 : Memref sig .tc .vmem S1000x128 .f32) (harg5 : arg5.IsWhole) (arg6 : Memref sig .tc .vmem S1000x128 .f32) (harg6 : arg6.IsWhole) (hc0 : ¬cond1_0 i) (hc1 : cond1_1 i)
    (x0 : Vec F S1000x3200 .f32) (x1 : Vec F S16000x128 .bf16) (x2 : Vec F S1x128 .f32) (xs0 : Vec F S1000x128 .f32) (y : S1000x128.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S1000x128.size (by sl_kernel_rfl) y

/-- What the accumulator holds after the body there: its pieces read back over junk. -/
def sout1_C_0 (c : Dev nD) (i : grid1.Coords) (arg2 : Memref sig .tc .vmem S1000x3200 .f32) (harg2 : arg2.IsWhole) (arg3 : Memref sig .tc .vmem S16000x128 .bf16) (harg3 : arg3.IsWhole) (arg4 : Memref sig .tc .vmem S1x128 .f32) (harg4 : arg4.IsWhole) (arg5 : Memref sig .tc .vmem S1000x128 .f32) (harg5 : arg5.IsWhole) (arg6 : Memref sig .tc .vmem S1000x128 .f32) (harg6 : arg6.IsWhole) (hc0 : ¬cond1_0 i) (hc1 : cond1_1 i)
    (x0 : Vec F S1000x3200 .f32) (x1 : Vec F S16000x128 .bf16) (x2 : Vec F S1x128 .f32) (xs0 : Vec F S1000x128 .f32) : Vec F S1000x128 .f32 :=
  VS1_0.read (Elt F) (VS1_0.writes (Elt F) VS1_0.junk (kernelRun1_C c i arg2 harg2 arg3 harg3 arg4 harg4 arg5 harg5 arg6 harg6 hc0 hc1 x0 x1 x2 xs0).2.1)

/-! ## What the output's buffer and the accumulator hold after each point -/

/-- The accumulation: what the output's staging buffer and the accumulator hold after the body at position n — the
    case the reduction index selects, run at the point's memrefs and input blocks, the accumulator coming in at what
    position n - 1 left (at the first reduction step it is refilled, so nothing is read). -/
def outsAt1 (c : Dev nD) : (n : ℕ) → n < cfg1.N → Vec F S1000x128 .f32 × Vec F S1000x128 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 5 = 0 then
      if h1 : (n + 1) % 5 = 4 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 5 = 4 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- At a point whose reduction index is 0. -/
theorem outsAt1_A (c : Dev nD) (t : Fin cfg1.N) (h0 : t.val % 5 = 0) (h1 : ¬t.val % 5 = 4) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- At a point whose reduction index is 1, 2 or 3: over what the point before left. -/
theorem outsAt1_B (c : Dev nD) (t : Fin cfg1.N) (h0 : ¬t.val % 5 = 0) (h1 : ¬t.val % 5 = 4) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point whose reduction index is 4: over what the point before left. -/
theorem outsAt1_C (c : Dev nD) (t : Fin cfg1.N) (h0 : ¬t.val % 5 = 0) (h1 : t.val % 5 = 4) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant, position by position -/

/-- Before the first point: what the launch hands over (every scoped buffer that is no staging buffer of this
    kernel at some contents, and the generator register). Afterwards the same with the accumulator at what the
    point before left in it. -/
def PhiS (c : Dev nD) : (n : ℕ) → n ≤ cfg1.N → sProp 𝕄
  | 0, _ => Pipeline.ΦA spec1 c
  | n + 1, hn => iprop(iprop(heldAny (F := F) c cc0_stg0_0 ∗ heldAny (F := F) c cc0_stg0_1 ∗ heldAny (F := F) c cc0_stg1_0 ∗ heldAny (F := F) c cc0_stg2_0 ∗ heldAny (F := F) c cc0_stg2_1 ∗ owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(heldAny (F := F) c cc0_stg0_0 ∗ heldAny (F := F) c cc0_stg0_1 ∗ heldAny (F := F) c cc0_stg1_0 ∗ heldAny (F := F) c cc0_stg2_0 ∗ heldAny (F := F) c cc0_stg2_1 ∗ owns (c : Thread nD τ) scM1_0 fullShare ((outsAt1 V c n hn).2)) ∗ (∃ r, prngReg c r)) := rfl

theorem PhiS_pos (c : Dev nD) (n : ℕ) (h : n ≤ cfg1.N) (hz : n ≠ 0) :
    PhiS V c n h = iprop(iprop(heldAny (F := F) c cc0_stg0_0 ∗ heldAny (F := F) c cc0_stg0_1 ∗ heldAny (F := F) c cc0_stg1_0 ∗ heldAny (F := F) c cc0_stg2_0 ∗ heldAny (F := F) c cc0_stg2_1 ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of the aggregation pipeline on core c: the arrays as the region finds them; after the body at
    point t each input's buffer at its block and the output's at the accumulation's first component; the invariant
    above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the reduction index says which case the point is
    in; the invariant hands the body the accumulator at what the point before left (at anything at the first point)
    and takes it back at this point's contents, the other scoped buffers and the generator register riding along;
    where the output is idle its buffer goes back as found; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 80 := lt_of_lt_of_eq t.isLt (show cfg1.N = 80 from N_1)
  by_cases h0 : t.val % 5 = 0
  · by_cases h1 : t.val % 5 = 4
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      by_cases hz : t.val = 0
      ·
        rw [PhiS_castSucc V c t, PhiS_zero V c _ _ hz, PhiA1_eq]
        iintro ⟨⟨⟨R0, R1, R2, R3, R4, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [R0 R1 R2 R3 R4 HS0 Hg]
        · isplitl [R0 R1 R2 R3 R4 HS0]
          · isplitl [R0]; · iexact R0
            isplitl [R1]; · iexact R1
            isplitl [R2]; · iexact R2
            isplitl [R3]; · iexact R3
            isplitl [R4]; · iexact R4
            unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      ·
        rw [PhiS_castSucc V c t, PhiS_pos V c _ _ hz]
        iintro ⟨⟨⟨R0, R1, R2, R3, R4, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [R0 R1 R2 R3 R4 HS0 Hg]
        · isplitl [R0 R1 R2 R3 R4 HS0]
          · isplitl [R0]; · iexact R0
            isplitl [R1]; · iexact R1
            isplitl [R2]; · iexact R2
            isplitl [R3]; · iexact R3
            isplitl [R4]; · iexact R4
            unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 5 = 4
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      by_cases hz : t.val = 0
      · exfalso; omega
      ·
        rw [PhiS_castSucc V c t, PhiS_pos V c _ _ hz]
        iintro ⟨⟨⟨R0, R1, R2, R3, R4, HS0⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [R0 R1 R2 R3 R4 HS0 Hg]
        · isplitl [R0 R1 R2 R3 R4 HS0]
          · isplitl [R0]; · iexact R0
            isplitl [R1]; · iexact R1
            isplitl [R2]; · iexact R2
            isplitl [R3]; · iexact R3
            isplitl [R4]; · iexact R4
            unfold owns; iexists _; isplitr
            swap; · iexact HS0
            ipureintro; exact View.read_writes_of_cover _ _ _ _ _ (scover1_C_0 c _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      by_cases hz : t.val = 0
      · exfalso; omega
      ·
        rw [PhiS_castSucc V c t, PhiS_pos V c _ _ hz]
        iintro ⟨⟨⟨R0, R1, R2, R3, R4, HS0⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [R0 R1 R2 R3 R4 HS0 Hg]
        · isplitl [R0 R1 R2 R3 R4 HS0]
          · isplitl [R0]; · iexact R0
            isplitl [R1]; · iexact R1
            isplitl [R2]; · iexact R2
            isplitl [R3]; · iexact R3
            isplitl [R4]; · iexact R4
            unfold owns; iexists _; isplitr
            swap; · iexact HS0
            ipureintro; exact View.read_writes_of_cover _ _ _ _ _ (scover1_B_0 c _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point the invariant gives the launch's back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨R0, R1, R2, R3, R4, HS0⟩, Hg⟩
  isplitl [R0 R1 R2 R3 R4 HS0]
  · isplitl [R0]; · iexact R0
    isplitl [R1]; · iexact R1
    isplitl [R2]; · iexact R2
    isplitl [R3]; · iexact R3
    isplitl [R4]; · iexact R4
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 80 := N_1; omega)

end Cert.KernelIdeal.Hand

end
-- ==== Proof.KernelRun.lean ====
/-
  The whole program as four items, and its run.

  The host operations gather the four embedding tables and join the gathered rows into the node features; the projection
  region multiplies the features by the weight matrix, block of rows by block of rows; one host reshape turns the bias
  vector into a row; the aggregation region multiplies the adjacency matrix by the projected features, accumulating over
  the column blocks of a row of blocks, and adds the bias row.  Between two items the TensorCore's unscoped buffers are
  held whole at contents that are named here as a fold from the launch memory: a host stretch changes the buffers its
  operations write, a region the result array of its pipeline.  From these contents each argument array is read back as
  launched, and the result array as what the aggregation region's write-backs leave.
-/
import proofs.«120712_j87625922773142_2_alg».proof.Proof.Gen.KernelIdeal.Launch
import proofs.«120712_j87625922773142_2_alg».proof.Proof.Gen.KernelIdeal.Skeleton
import proofs.«120712_j87625922773142_2_alg».proof.Proof.Gen.KernelIdeal.Points
import proofs.«120712_j87625922773142_2_alg».proof.Proof.Gen.KernelIdeal.Regions
import proofs.«120712_j87625922773142_2_alg».proof.Proof.ProjectRegion
import proofs.«120712_j87625922773142_2_alg».proof.Proof.AggregateRegion
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary between two items of the program

The program is: the host operations that gather and join the node features; the projection region; the host reshape of
the bias vector; the aggregation region. -/

/-- Core `c`'s buffers at launch. -/
abbrev W0 : Dev nD → Valuation τ sig (Elt F) := fun c b => m (c, b)
/-- After the gathers and the concatenation (the projection region's entry). -/
abbrev W1 : Dev nD → Valuation τ sig (Elt F) := fun c => StableHlo.after hostOps0 (W0 m c)
/-- The same read at the TensorCore's references. -/
abbrev B1 : (c : Dev nD) → (b : Ref sig .tc) → Buf (Elt F) ((c : Thread nD τ).loc b) := fun c b => W1 m c b
/-- At the projection region's exit: its arrays at what the pipeline leaves, every other buffer as entered. -/
def W2 (c : Dev nD) : Valuation τ sig (Elt F) :=
  Pipeline.withArrays spec0 c (W1 m c) fun w => (dat0 (B1 m) c).arrAt w cfg0.N
theorem W2_arr (c : Dev nD) (w : Fin cfg0.W) :
    W2 m c (Proc.devRef .tc (Pipeline.arrRef spec0 w)) = (dat0 (B1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev B2 : (c : Dev nD) → (b : Ref sig .tc) → Buf (Elt F) ((c : Thread nD τ).loc b) := fun c b => W2 m c b
theorem hF0 (c : Dev nD) (w : Fin cfg0.W) : (dat0 (B1 m) c).arrAt w cfg0.N = B2 m c (Pipeline.arrRef spec0 w) :=
  (W2_arr m c w).symm
theorem hrest0 (c : Dev nD) : ∀ b, b ∉ Finset.univ.image (Pipeline.arrRef spec0) → B2 m c b = B1 m c b :=
  fun b hb => W2_of_ne m c b fun w e => hb (Finset.mem_image.mpr ⟨w, Finset.mem_univ _, e⟩)

/-- After the reshape of the bias (the aggregation region's entry). -/
abbrev W3 : Dev nD → Valuation τ sig (Elt F) := fun c => StableHlo.after hostOps1 (W2 m c)
abbrev B3 : (c : Dev nD) → (b : Ref sig .tc) → Buf (Elt F) ((c : Thread nD τ).loc b) := fun c b => W3 m c b
/-- At the aggregation region's exit. -/
def W4 (c : Dev nD) : Valuation τ sig (Elt F) :=
  Pipeline.withArrays spec1 c (W3 m c) fun w => (dat1 (B3 m) c).arrAt w cfg1.N
theorem W4_arr (c : Dev nD) (w : Fin cfg1.W) :
    W4 m c (Proc.devRef .tc (Pipeline.arrRef spec1 w)) = (dat1 (B3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev B4 : (c : Dev nD) → (b : Ref sig .tc) → Buf (Elt F) ((c : Thread nD τ).loc b) := fun c b => W4 m c b
theorem hF1 (c : Dev nD) (w : Fin cfg1.W) : (dat1 (B3 m) c).arrAt w cfg1.N = B4 m c (Pipeline.arrRef spec1 w) :=
  (W4_arr m c w).symm
theorem hrest1 (c : Dev nD) : ∀ b, b ∉ Finset.univ.image (Pipeline.arrRef spec1) → B4 m c b = B3 m c b :=
  fun b hb => W4_of_ne m c b fun w e => hb (Finset.mem_image.mpr ⟨w, Finset.mem_univ _, e⟩)

/-! ### What each item leaves unchanged

A host stretch changes only the buffers its operations write; a region changes only its result array: an input window's
array ends as it was found, and a buffer no window stages is not touched. -/

theorem W1_keep (c : Dev nD) (b : Ref sig .tc) (h : b ∉ hostOps0_W) : W1 m c (Proc.devRef .tc b) = W0 m c (Proc.devRef .tc b) :=
  StableHlo.after_of_writes_sub hostOps0 _ hostOps0_writes h
theorem W3_keep (c : Dev nD) (b : Ref sig .tc) (h : b ∉ hostOps1_W) : W3 m c (Proc.devRef .tc b) = W2 m c (Proc.devRef .tc b) :=
  StableHlo.after_of_writes_sub hostOps1 _ hostOps1_writes h
theorem W2_keep (c : Dev nD) (b : Ref sig .tc) (hb : b ≠ main_v29) : W2 m c (Proc.devRef .tc b) = W1 m c (Proc.devRef .tc b) := by
  by_cases h : ∃ w, Pipeline.arrRef spec0 w = b
  · obtain ⟨w, rfl⟩ := h
    rw [W2_arr]
    fin_cases w
    · exact ((dat0 (B1 m) c).arrAt_in 0 rfl _).trans (A_eq0 (B1 m) c 0)
    · exact ((dat0 (B1 m) c).arrAt_in 1 rfl _).trans (A_eq0 (B1 m) c 1)
    · exact absurd rfl hb
  · exact W2_of_ne m c b fun w e => h ⟨w, e⟩
theorem W4_keep (c : Dev nD) (b : Ref sig .tc) (hb : b ≠ main_v31) : W4 m c (Proc.devRef .tc b) = W3 m c (Proc.devRef .tc b) := by
  by_cases h : ∃ w, Pipeline.arrRef spec1 w = b
  · obtain ⟨w, rfl⟩ := h
    rw [W4_arr]
    fin_cases w
    · exact ((dat1 (B3 m) c).arrAt_in 0 rfl _).trans (A_eq1 (B3 m) c 0)
    · exact ((dat1 (B3 m) c).arrAt_in 1 rfl _).trans (A_eq1 (B3 m) c 1)
    · exact ((dat1 (B3 m) c).arrAt_in 2 rfl _).trans (A_eq1 (B3 m) c 2)
    · exact absurd rfl hb
  · exact W4_of_ne m c b fun w e => h ⟨w, e⟩
/-- A buffer that no host operation writes and that is no region's result ends as launched: every argument array. -/
theorem W4_launch (c : Dev nD) (b : Ref sig .tc) (h0 : b ∉ hostOps0_W) (h1 : b ∉ hostOps1_W) (h2 : b ≠ main_v29) (h4 : b ≠ main_v31) :
    W4 m c (Proc.devRef .tc b) = m ((c : Thread nD τ).loc b) :=
  (W4_keep m c b h4).trans <| (W3_keep m c b h1).trans <| (W2_keep m c b h2).trans <| (W1_keep m c b h0).trans rfl

/-! ## The proof data family and the thread state -/

/-- The prefetched tables' admissible contents: no pipeline has a table. -/
abbrev tabAdm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) tabAdm p) c
  | ⟨0, _⟩ => fun c => dat0 (B1 m) c
  | ⟨1, _⟩ => fun c => dat1 (B3 m) c
abbrev 𝒱₀ : Variants := Variants.none
/-- No core owes another anything: no level is assigned. -/
abbrev Lv : GSem nD τ sig → Finset Unit := fun _ => ∅
abbrev lvl : GSem nD τ sig → Unit → ℕ := fun _ _ => 0
/-- What rides beside the buffers through every item: the core's generator register at some state, and the core owing
    nothing. -/
abbrev Rr (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lv lvl :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tend (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The projection region over the thread state: entered from every unscoped buffer at `W1`, left at `W2`. -/
def reg0 : Pipeline.RegionSeg (pcfgs (F := F)) tabAdm (pdats m) () defs₀ 𝒱₀ Lv lvl 0 where
  win := launch0.win.to₀
  block_pos := launch0.block_pos
  stage_whole := launch0.stage_whole
  K := PEmpty
  osem k := k.elim
  ho := Pipeline.OwnSemFacts.none _
  hbody c := (body_obligation0 (B1 m) c).loose
  hwaits := Pipeline.hwaits_of_owed_zero _ _ _ _ Lv lvl 0 fun _ _ => rfl
  pre c := iprop(StableHlo.held (c : Thread nD τ) (Pipeline.ucRefs τ sig) (W1 m c) ∗ Rr c)
  post c := iprop(StableHlo.held (c : Thread nD τ) (Pipeline.ucRefs τ sig) (W2 m c) ∗ Rr c)
  X c := iprop(∃ r, prngReg c r)
  Y c := iprop(∃ r, prngReg c r)
  Z c := Pipeline.unscopedRest (Ix := Unit) (Name := ℕ) (U := UR sig nD τ) (Lvl := ℕ) spec0 c (B1 m c)
  hentry c := by
    rw [Pipeline.ownSems0_none]
    have hsplit := Pipeline.arrays_of_unscopedBufs (p := 0) (pcfgs (F := F)) tabAdm (pdats m) launch0.win launch0.arr_whole c
      ((pdats m 0 c).share_full fun _ => rfl) (B1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) tabAdm (Ix := Unit) (Name := ℕ) (U := UR sig nD τ) (Lvl := ℕ)
      launch0.win launch0.arr_whole c (pdats m) ((pdats m 0 c).share_full fun _ => rfl)
      (B1 m c) (B2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The aggregation region over the thread state: entered from every unscoped buffer at `W3`, left at `W4`. Its
    invariant starts as the scoped rest and the generator register and ends giving them back, the accumulator's named
    contents forgotten. -/
def reg1 : Pipeline.RegionSeg (pcfgs (F := F)) tabAdm (pdats m) () defs₀ 𝒱₀ Lv lvl 1 where
  win := launch1.win.to₀
  block_pos := launch1.block_pos
  stage_whole := launch1.stage_whole
  K := PEmpty
  osem k := k.elim
  ho := Pipeline.OwnSemFacts.none _
  hbody c := (body_obligation1 (B3 m) c).loose
  hwaits := Pipeline.hwaits_of_owed_zero _ _ _ _ Lv lvl 1 fun _ _ => rfl
  pre c := iprop(StableHlo.held (c : Thread nD τ) (Pipeline.ucRefs τ sig) (W3 m c) ∗ Rr c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (B3 m c)
  hentry c := by
    rw [Pipeline.ownSems0_none]
    have hsplit := Pipeline.arrays_of_unscopedBufs (p := 1) (pcfgs (F := F)) tabAdm (pdats m) launch1.win launch1.arr_whole c
      ((pdats m 1 c).share_full fun _ => rfl) (B3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec1 c ⊢ (pdats m 1 c).Φ 0 := hin1 (B3 m) c
    iintro ⟨Hp, -, Hr⟩
    iapply h
    unfold Pipeline.ΦA
    isplitl [Hr]; · iexact Hr
    iexact Hp
  hout c := by
    rw [Pipeline.ownSems0_none]
    have h : (pdats m 1 c).Φ (Fin.last _) ⊢ Pipeline.ΦA spec1 c := hout1 (B3 m) c
    refine h.trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) tabAdm (Ix := Unit) (Name := ℕ) (U := UR sig nD τ) (Lvl := ℕ)
      launch1.win launch1.arr_whole c (pdats m) ((pdats m 1 c).share_full fun _ => rfl)
      (B3 m c) (B4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The four items in order. -/
abbrev runSegs : List (Pipeline.Seg (pcfgs (F := F)) tabAdm (pdats m) () defs₀ 𝒱₀ Lv lvl) :=
  [ .host (hseg hostOps0 hostOps0_sub hostOps0_fresh (W0 m)),
    .region (reg0 m),
    .host (hseg hostOps1 hostOps1_sub hostOps1_fresh (W2 m)),
    .region (reg1 m) ]
/-- The program is the run of these segments. -/
theorem main_run (c : Dev nD) : main (F := F) c = Pipeline.Seg.run (runSegs m) := (main_chain c).trans (by chain_rfl)

set_option backward.isDefEq.respectTransparency.types false in
/-- THE RUN. From any memory with zero counters every weakly fair execution of the program terminates, nothing faulting,
    and in every final state each unscoped buffer of the TensorCore holds the last boundary's contents `W4`: the result
    array what the aggregation region's write-backs leave, each argument array its launch contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) tabAdm (pdats m) () cellOf_inj emb₁ defs₀ 𝒱₀ Lv lvl m ρ main (runSegs m)
    (fun c Q => by rw [main_run m c])
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rr c)) (Tₙ := Tend m)
    (hch := ⟨fun _ => .rfl, fun _ => .rfl, fun _ => .rfl, fun _ => .rfl, fun _ => .rfl⟩)
    (hinit := by
      refine Pipeline.initEach Lv lvl fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The frame: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun r h c => ⟨
    (h c _ (mem_uc main_arg0 (by decide))).trans (W4_launch m c main_arg0 (by decide) (by decide) (by decide) (by decide)),
    (h c _ (mem_uc main_arg1 (by decide))).trans (W4_launch m c main_arg1 (by decide) (by decide) (by decide) (by decide)),
    (h c _ (mem_uc main_arg2 (by decide))).trans (W4_launch m c main_arg2 (by decide) (by decide) (by decide) (by decide)),
    (h c _ (mem_uc main_arg3 (by decide))).trans (W4_launch m c main_arg3 (by decide) (by decide) (by decide) (by decide)),
    (h c _ (mem_uc main_arg4 (by decide))).trans (W4_launch m c main_arg4 (by decide) (by decide) (by decide) (by decide)),
    (h c _ (mem_uc main_arg5 (by decide))).trans (W4_launch m c main_arg5 (by decide) (by decide) (by decide) (by decide)),
    (h c _ (mem_uc main_arg6 (by decide))).trans (W4_launch m c main_arg6 (by decide) (by decide) (by decide) (by decide)),
    (h c _ (mem_uc main_arg7 (by decide))).trans (W4_launch m c main_arg7 (by decide) (by decide) (by decide) (by decide)),
    (h c _ (mem_uc main_arg8 (by decide))).trans (W4_launch m c main_arg8 (by decide) (by decide) (by decide) (by decide)),
    (h c _ (mem_uc main_arg9 (by decide))).trans (W4_launch m c main_arg9 (by decide) (by decide) (by decide) (by decide)),
    (h c _ (mem_uc main_arg10 (by decide))).trans (W4_launch m c main_arg10 (by decide) (by decide) (by decide) (by decide)),
    (h c _ (mem_uc main_arg11 (by decide))).trans (W4_launch m c main_arg11 (by decide) (by decide) (by decide) (by decide)),
    (h c _ (mem_uc main_arg12 (by decide))).trans (W4_launch m c main_arg12 (by decide) (by decide) (by decide) (by decide)),
    (h c _ (mem_uc main_arg13 (by decide))).trans (W4_launch m c main_arg13 (by decide) (by decide) (by decide) (by decide)),
    (h c _ (mem_uc main_arg14 (by decide))).trans (W4_launch m c main_arg14 (by decide) (by decide) (by decide) (by decide)),
    (h c _ (mem_uc main_arg15 (by decide))).trans (W4_launch m c main_arg15 (by decide) (by decide) (by decide) (by decide)),
    (h c _ (mem_uc main_arg16 (by decide))).trans (W4_launch m c main_arg16 (by decide) (by decide) (by decide) (by decide)),
    (h c _ (mem_uc main_arg17 (by decide))).trans (W4_launch m c main_arg17 (by decide) (by decide) (by decide) (by decide)),
    (h c _ (mem_uc main_arg18 (by decide))).trans (W4_launch m c main_arg18 (by decide) (by decide) (by decide) (by decide)),
    (h c _ (mem_uc main_arg19 (by decide))).trans (W4_launch m c main_arg19 (by decide) (by decide) (by decide) (by decide)),
    (h c _ (mem_uc main_arg20 (by decide))).trans (W4_launch m c main_arg20 (by decide) (by decide) (by decide) (by decide)),
    (h c _ (mem_uc main_arg21 (by decide))).trans (W4_launch m c main_arg21 (by decide) (by decide) (by decide) (by decide)),
    (h c _ (mem_uc main_arg22 (by decide))).trans (W4_launch m c main_arg22 (by decide) (by decide) (by decide) (by decide)),
    (h c _ (mem_uc main_arg23 (by decide))).trans (W4_launch m c main_arg23 (by decide) (by decide) (by decide) (by decide))⟩)
    (run_all m ρ)

/-- The run with the result array named: it ends at what the aggregation region's write-backs leave, and every argument
    array ends holding its launch contents. -/
theorem run_result : θ_run defs (onTc (τ := τ) (main (F := F))) ⟨m, fun _ => 0, ρ⟩ (fun r => ∀ c : Dev nD,
      r.2.mem ((c.tc : Thread nD τ).loc main_v31) = (dat1 (B3 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun r h c => ⟨
    (h c _ (mem_uc main_v31 (by decide))).trans (W4_arr m c 3),
    (h c _ (mem_uc main_arg0 (by decide))).trans (W4_launch m c main_arg0 (by decide) (by decide) (by decide) (by decide)),
    (h c _ (mem_uc main_arg1 (by decide))).trans (W4_launch m c main_arg1 (by decide) (by decide) (by decide) (by decide)),
    (h c _ (mem_uc main_arg2 (by decide))).trans (W4_launch m c main_arg2 (by decide) (by decide) (by decide) (by decide)),
    (h c _ (mem_uc main_arg3 (by decide))).trans (W4_launch m c main_arg3 (by decide) (by decide) (by decide) (by decide)),
    (h c _ (mem_uc main_arg4 (by decide))).trans (W4_launch m c main_arg4 (by decide) (by decide) (by decide) (by decide)),
    (h c _ (mem_uc main_arg5 (by decide))).trans (W4_launch m c main_arg5 (by decide) (by decide) (by decide) (by decide)),
    (h c _ (mem_uc main_arg6 (by decide))).trans (W4_launch m c main_arg6 (by decide) (by decide) (by decide) (by decide)),
    (h c _ (mem_uc main_arg7 (by decide))).trans (W4_launch m c main_arg7 (by decide) (by decide) (by decide) (by decide)),
    (h c _ (mem_uc main_arg8 (by decide))).trans (W4_launch m c main_arg8 (by decide) (by decide) (by decide) (by decide)),
    (h c _ (mem_uc main_arg9 (by decide))).trans (W4_launch m c main_arg9 (by decide) (by decide) (by decide) (by decide)),
    (h c _ (mem_uc main_arg10 (by decide))).trans (W4_launch m c main_arg10 (by decide) (by decide) (by decide) (by decide)),
    (h c _ (mem_uc main_arg11 (by decide))).trans (W4_launch m c main_arg11 (by decide) (by decide) (by decide) (by decide)),
    (h c _ (mem_uc main_arg12 (by decide))).trans (W4_launch m c main_arg12 (by decide) (by decide) (by decide) (by decide)),
    (h c _ (mem_uc main_arg13 (by decide))).trans (W4_launch m c main_arg13 (by decide) (by decide) (by decide) (by decide)),
    (h c _ (mem_uc main_arg14 (by decide))).trans (W4_launch m c main_arg14 (by decide) (by decide) (by decide) (by decide)),
    (h c _ (mem_uc main_arg15 (by decide))).trans (W4_launch m c main_arg15 (by decide) (by decide) (by decide) (by decide)),
    (h c _ (mem_uc main_arg16 (by decide))).trans (W4_launch m c main_arg16 (by decide) (by decide) (by decide) (by decide)),
    (h c _ (mem_uc main_arg17 (by decide))).trans (W4_launch m c main_arg17 (by decide) (by decide) (by decide) (by decide)),
    (h c _ (mem_uc main_arg18 (by decide))).trans (W4_launch m c main_arg18 (by decide) (by decide) (by decide) (by decide)),
    (h c _ (mem_uc main_arg19 (by decide))).trans (W4_launch m c main_arg19 (by decide) (by decide) (by decide) (by decide)),
    (h c _ (mem_uc main_arg20 (by decide))).trans (W4_launch m c main_arg20 (by decide) (by decide) (by decide) (by decide)),
    (h c _ (mem_uc main_arg21 (by decide))).trans (W4_launch m c main_arg21 (by decide) (by decide) (by decide) (by decide)),
    (h c _ (mem_uc main_arg22 (by decide))).trans (W4_launch m c main_arg22 (by decide) (by decide) (by decide) (by decide)),
    (h c _ (mem_uc main_arg23 (by decide))).trans (W4_launch m c main_arg23 (by decide) (by decide) (by decide) (by decide))⟩)
    (run_all m ρ)

end Cert.KernelIdeal.Hand

end
-- ==== Proof.LibDenseBlock.lean ====
/-
  A weight matrix times a block, read at an index.

  A `tpu.matmul` of a `[K, N]` left operand with an `[N, Q]` right operand, contracting the left's second axis with the
  right's first, into a zero accumulator: over the extended reals entry `(k, q)` of the result is the plain sum
  `Σ n, l (k, n) * r (n, q)`.
-/
import Idealize.ShloMosaic.Lib.ValueIdx
import Idealize.ShloMosaic.PureOps.Ideal.Laws

noncomputable section

namespace Idealize.ShloMosaic.DenseBlock

open Idealize.ShloMosaic Idealize.ShloMosaic.ValueIdx

/-- The dimension numbers of `[K, N] · [N, Q] → [K, Q]`. -/
abbrev mmDims (K N Q : Nat)
    (wf : DotDims.WF ⟨2, ![K, N]⟩ ⟨2, ![N, Q]⟩ ⟨2, ![K, Q]⟩ [1] [0] [0] [1] [] []) :
    DotDims ⟨2, ![K, N]⟩ ⟨2, ![N, Q]⟩ ⟨2, ![K, Q]⟩ where
  lhsContracting := [1]
  rhsContracting := [0]
  lhsNonContracting := [0]
  rhsNonContracting := [1]
  lhsBatch := []
  rhsBatch := []
  wf := wf

section
variable {K N Q : Nat} (wf : DotDims.WF ⟨2, ![K, N]⟩ ⟨2, ![N, Q]⟩ ⟨2, ![K, Q]⟩ [1] [0] [0] [1] [] [])

/-- The left operand's row is the result's row. -/
theorem lhs_row (j : (⟨2, ![K, Q]⟩ : Shape).Idx) (c : (mmDims K N Q wf).contr.Idx) :
    ((mmDims K N Q wf).lhsIdx j c (0 : Fin 2)).val = (j 0).val := by
  unfold DotDims.lhsIdx
  rw [dif_neg (show ¬ (0 : Fin 2) ∈ (mmDims K N Q wf).lhsBatch from List.not_mem_nil),
    dif_pos (show (0 : Fin 2) ∈ (mmDims K N Q wf).lhsNonContracting from List.mem_singleton.mpr rfl)]
  rfl

/-- The left operand's column is the contraction position. -/
theorem lhs_col (j : (⟨2, ![K, Q]⟩ : Shape).Idx) (c : (mmDims K N Q wf).contr.Idx) :
    ((mmDims K N Q wf).lhsIdx j c (1 : Fin 2)).val = (c ⟨0, Nat.one_pos⟩).val :=
  (mmDims K N Q wf).lhsIdx_val_of_single rfl j c

/-- The right operand's row is the contraction position. -/
theorem rhs_row (j : (⟨2, ![K, Q]⟩ : Shape).Idx) (c : (mmDims K N Q wf).contr.Idx) :
    ((mmDims K N Q wf).rhsIdx j c (0 : Fin 2)).val = (c ⟨0, Nat.one_pos⟩).val :=
  (mmDims K N Q wf).rhsIdx_val_of_single rfl j c

/-- The right operand's column is the result's column. -/
theorem rhs_col (j : (⟨2, ![K, Q]⟩ : Shape).Idx) (c : (mmDims K N Q wf).contr.Idx) :
    ((mmDims K N Q wf).rhsIdx j c (1 : Fin 2)).val = (j 1).val := by
  unfold DotDims.rhsIdx
  rw [dif_neg (show ¬ (1 : Fin 2) ∈ (mmDims K N Q wf).rhsBatch from List.not_mem_nil),
    dif_pos (show (1 : Fin 2) ∈ (mmDims K N Q wf).rhsNonContracting from List.mem_singleton.mpr rfl)]
  rfl

/-- Entry `(k, q)` of the product into a zero accumulator is `Σ n, l (k, n) * r (n, q)`. -/
theorem matmul_zero_apply {φ₁ φ₂ : FTy} (l : FVec Ideal ⟨2, ![K, N]⟩ φ₁) (r : FVec Ideal ⟨2, ![N, Q]⟩ φ₂)
    (k : Fin K) (q : Fin Q) :
    FloatOps.matmul (mmDims K N Q wf) none l r (constant ⟨2, ![K, Q]⟩ .f32 0x00000000#32) (ix2 k q)
      = ∑ n : Fin N, l (ix2 k n) * r (ix2 n q) := by
  rw [Ideal.matmul_constant_zero_apply, ← Equiv.sum_comp (contrEquiv1 (mmDims K N Q wf) N rfl rfl).symm]
  refine Finset.sum_congr rfl fun n _ => ?_
  have hn := contrEquiv1_symm_val (mmDims K N Q wf) N rfl rfl n
  have el : (mmDims K N Q wf).lhsIdx (ix2 k q) ((contrEquiv1 (mmDims K N Q wf) N rfl rfl).symm n) = ix2 k n :=
    funext fun a => Fin.ext (by
      match a with
      | ⟨0, _⟩ => exact lhs_row wf _ _
      | ⟨1, _⟩ => exact (lhs_col wf _ _).trans hn)
  have er : (mmDims K N Q wf).rhsIdx (ix2 k q) ((contrEquiv1 (mmDims K N Q wf) N rfl rfl).symm n) = ix2 n q :=
    funext fun a => Fin.ext (by
      match a with
      | ⟨0, _⟩ => exact (rhs_row wf _ _).trans hn
      | ⟨1, _⟩ => exact rhs_col wf _ _)
  rw [el, er]

end

end Idealize.ShloMosaic.DenseBlock

end
-- ==== Proof.ProjectValue.lean ====
import proofs.«120712_j87625922773142_2_alg».proof.Proof.ProjectRegion
import proofs.«120712_j87625922773142_2_alg».proof.Proof.LibDenseBlock
import Idealize.ShloMosaic.Lib.ValueIdx
import Idealize.ShloMosaic.Lib.Pipeline.Value
import Idealize.ShloMosaic.PureOps.Ideal.Laws

/-!
# The first region's result, as one function of its two arrays

Over the extended reals the narrowing of a float to a shorter format is the identity, so the body's
payload at entry `(p, q)` of a block is the plain sum `Σ d, x (p, d) * w (d, q)`. The eight row blocks
the region writes back tile the 16000 × 128 result, block `t` holding rows `2000 t … 2000 t + 1999`,
and the row-block input moves with the output while the weight block never moves. Hence the result
array ends holding `Σ d, a (i₀, d) * w (d, i₁)` at every index `i`.
-/

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The payload at an index -/

/-- Entry `(p, q)` of the body's payload: the two narrowings and the final one are the identity over
    the extended reals, the reshape to the same shape is the identity, and the product into the
    zero accumulator is the plain sum over the contracted axis. -/
theorem project_pay_apply (x0 : Vec Ideal S2000x128 .f32) (x1 : Vec Ideal S128x128 .f32) (p : Fin 2000) (q : Fin 128) :
    k0_pay1 x0 x1 (ix2 p q) = ∑ d : Fin 128, x0 (ix2 p d) * x1 (ix2 d q) := by
  unfold k0_pay1
  show FloatOps.matmul (F := Ideal) (φ₁ := .bf16) (φ₂ := .bf16) dot_S2000x128_S128x128_S2000x128_1_0_0_1_n_n none
      (shapeCast S2000x128 (x0 : FVec Ideal S2000x128 .bf16) shapeCasts_S2000x128_S2000x128) (x1 : FVec Ideal S128x128 .bf16)
      (constant S2000x128 .f32 0x00000000#32) (ix2 p q) = _
  rw [shapeCast_self]
  exact DenseBlock.matmul_zero_apply (K := 2000) (N := 128) (Q := 128) dot_S2000x128_S128x128_S2000x128_1_0_0_1_n_n_wf x0 x1 p q

/-! ## From the blocks to the array -/

/-- The offsets of the whole-block rectangles are zero on each axis. -/
theorem project_hz : (![0, 0] : Fin 2 → Nat) = fun _ => 0 := funext fun a => by fin_cases a <;> rfl

/-- What the result array ends holding: the product of the two arrays, index by index. -/
abbrev projectG (a : S16000x128.Idx → Ideal .f32) (w : S128x128.Idx → Ideal .f32) : S16000x128.Idx → Ideal .bf16 :=
  fun i => ∑ d : Fin 128, a (ix2 (⟨(i 0).val, (i 0).isLt⟩ : Fin 16000) d) * w (ix2 d (⟨(i 1).val, (i 1).isLt⟩ : Fin 128))

/-- A block's sum is the array's sum at index `i` once row `p` of the row block is row `i₀` of the
    array and column `q` of the weight block is column `i₁` of the weights. -/
theorem project_block_sum (a : S16000x128.Idx → Ideal .f32) (w : S128x128.Idx → Ideal .f32)
    (x0 : Vec Ideal S2000x128 .f32) (x1 : Vec Ideal S128x128 .f32) (p : Fin 2000) (q : Fin 128) (i : S16000x128.Idx)
    (h0 : ∀ d : Fin 128, x0 (ix2 p d) = a (ix2 (⟨(i 0).val, (i 0).isLt⟩ : Fin 16000) d))
    (h1 : ∀ d : Fin 128, x1 (ix2 d q) = w (ix2 d (⟨(i 1).val, (i 1).isLt⟩ : Fin 128))) :
    ∑ d : Fin 128, x0 (ix2 p d) * x1 (ix2 d q) = projectG a w i :=
  Finset.sum_congr rfl fun d _ => by rw [h0 d, h1 d]

/-- The three index maps over the grid: the row-block input moves with the output along the rows;
    the weight block and every column block stay at zero; there are eight row blocks. -/
theorem project_idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 7 :=
  (by decide +kernel : ∀ t : Fin grid0.N, _)

/-- Every one of the eight row blocks is some point's. -/
theorem project_idx_onto : ∀ q0 : Fin 8, ∃ t : Fin cfg0.N, win0_2.index t = ![q0.val, 0] :=
  (by decide +kernel : ∀ q0 : Fin 8, ∃ t : Fin grid0.N, win0_2.index t = ![q0.val, 0])

/-- What point `t` writes back is block `t` of the product of the two arrays as the region finds them. -/
theorem project_flushed_eq (c : Dev nD) (t : Fin cfg0.N) :
    (dat0 (F := Ideal) V c).flushed 2 t = ((cfg0.win 2).blk t).view.read (Elt Ideal) (projectG (V c main_v28) (V c main_arg16)) := by
  show (cfg0.win 2).cut (grid0.coords t) ((dat0 (F := Ideal) V c).after 2 t) = _
  rw [after0_2]
  unfold out0_2
  rw [View.canon_unit_zero project_hz]
  simp only [View.ld_unit_zero (S := S2000x128) project_hz, View.ld_unit_zero (S := S128x128) project_hz]
  obtain ⟨e0, e1, e2, e3, e4, e5⟩ := project_idx_facts t
  funext j
  obtain ⟨p, q, rfl⟩ : ∃ (p : Fin 2000) (q : Fin 128), j = ix2 p q := ⟨j 0, j 1, eq_ix2 j⟩
  refine (project_pay_apply (iblk0 V c 0 t) (iblk0 V c 1 t) p q).trans ?_
  rw [View.read_apply]
  refine project_block_sum (V c main_v28) (V c main_arg16) (iblk0 V c 0 t) (iblk0 V c 1 t) p q _ (fun d => ?_) (fun d => ?_)
  · show (V c main_v28 : S16000x128.Idx → Ideal .f32) (((cfg0.win 0).blk t).view.emb (ix2 p d)) = _
    refine congrArg (V c main_v28 : S16000x128.Idx → Ideal .f32) ?_
    funext a; apply Fin.ext
    match a with
    | ⟨0, _⟩ => show win0_0.index t (0 : Fin 2) * 2000 + 1 * p.val = win0_2.index t (0 : Fin 2) * 2000 + 1 * p.val; omega
    | ⟨1, _⟩ => show win0_0.index t (1 : Fin 2) * 128 + 1 * d.val = d.val; omega
  · show (V c main_arg16 : S128x128.Idx → Ideal .f32) (((cfg0.win 1).blk t).view.emb (ix2 d q)) = _
    refine congrArg (V c main_arg16 : S128x128.Idx → Ideal .f32) ?_
    funext a; apply Fin.ext
    match a with
    | ⟨0, _⟩ => show win0_1.index t (0 : Fin 2) * 128 + 1 * d.val = d.val; omega
    | ⟨1, _⟩ => show win0_1.index t (1 : Fin 2) * 128 + 1 * q.val = win0_2.index t (1 : Fin 2) * 128 + 1 * q.val; omega

/-- An index of the result array lies in point `t`'s block iff each coordinate lies in the block's
    range on its axis. -/
theorem project_mem_blk (t : Fin cfg0.N) (i : S16000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v29).slice (win0_2.rect t)).set ↔ _
  rw [View.set_slice_whole, Rect.mem_set_unit]
  exact Iff.rfl

/-- Every index of the result array lies in some point's block: row `r` lies in block `r / 2000`. -/
theorem project_cover (i : S16000x128.Idx) :
    ∃ t : Fin cfg0.N, (cfg0.win 2).flush t = true ∧ i ∈ ((cfg0.win 2).blk t).view.set := by
  have hi0 : (i 0).val < 16000 := (i 0).isLt
  have hi1 : (i 1).val < 128 := (i 1).isLt
  obtain ⟨t, ht⟩ := project_idx_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [project_mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- The result array after the region: the product of the feature array and the weight array as the
    region finds them, at every index. -/
theorem project_final (c : Dev nD) :
    (dat0 (F := Ideal) V c).arrAt 2 cfg0.N = projectG (V c main_v28) (V c main_arg16) :=
  (dat0 (F := Ideal) V c).arrAt_eq_of_cover 2 (projectG (V c main_v28) (V c main_arg16)) (fun t _ => project_flushed_eq V c t) project_cover

/-- The same, read at an index. -/
theorem project_final_apply (c : Dev nD) (i : S16000x128.Idx) :
    (dat0 (F := Ideal) V c).arrAt 2 cfg0.N i = projectG (V c main_v28) (V c main_arg16) i :=
  congrFun (project_final V c) i

end Cert.KernelIdeal.Hand

end
-- ==== Proof.AggregatePieces.lean ====
import proofs.«120712_j87625922773142_2_alg».proof.Proof.AggregateRegion
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

open Idealize.ShloMosaic.ValueIdx

/-! # What each case of the aggregation body leaves, as the payloads of the blocks -/

theorem hz2 : (![0, 0] : Fin 2 → Nat) = fun _ => 0 := funext fun a => by fin_cases a <;> rfl

/-- The 3200 rows of the feature array that the body loads at grid coordinates i: rows 3200 k … 3200 k + 3199 at
    reduction index k = i 1. -/
abbrev slice1 (i : grid1.Coords) (x1 : Vec F S16000x128 .bf16) : Vec F S3200x128 .bf16 :=
  View.ld x1 (Rect.unit (s := S16000x128) (k1_off1 i) S3200x128.size (k1_off1_inb i))

/-- Entry (q, j) of the loaded rows is entry (3200 k + q, j) of the whole array. -/
theorem slice1_apply (i : grid1.Coords) (x1 : Vec F S16000x128 .bf16) (q : Fin 3200) (j : Fin 128)
    (h : 3200 * (i 1).val + q.val < 16000) :
    slice1 i x1 (ix2 q j) = x1 (ix2 (⟨3200 * (i 1).val + q.val, h⟩ : Fin 16000) j) := by
  show x1 _ = x1 _
  congr 1
  funext a
  apply Fin.ext
  match a with
  | ⟨0, _⟩ => show k1_off1 i 0 + 1 * q.val = 3200 * (i 1).val + q.val; rw [k1_off1_eq]; show 3200 * (i 1).val + 1 * q.val = _; omega
  | ⟨1, _⟩ => show k1_off1 i 1 + 1 * j.val = j.val; rw [k1_off1_eq]; show 0 + 1 * j.val = _; omega

/-- Where the reduction index is 0 the accumulator's writes leave one step from the zero fill: the body stores
    zero, reads it back, and stores the step's value over it. -/
theorem canon_A (c : Dev nD) (i : grid1.Coords) (arg2 : Memref sig .tc .vmem S1000x3200 .f32) (harg2 : arg2.IsWhole) (arg3 : Memref sig .tc .vmem S16000x128 .bf16) (harg3 : arg3.IsWhole) (arg4 : Memref sig .tc .vmem S1x128 .f32) (harg4 : arg4.IsWhole) (arg5 : Memref sig .tc .vmem S1000x128 .f32) (harg5 : arg5.IsWhole) (arg6 : Memref sig .tc .vmem S1000x128 .f32) (harg6 : arg6.IsWhole) (hc0 : cond1_0 i) (hc1 : ¬cond1_1 i)
    (x0 : Vec F S1000x3200 .f32) (x1 : Vec F S16000x128 .bf16) (x2 : Vec F S1x128 .f32) :
    View.canon (kernelRun1_A c i arg2 harg2 arg3 harg3 arg4 harg4 arg5 harg5 arg6 harg6 hc0 hc1 x0 x1 x2).2.1
      = k1_pay2 (slice1 i x1) x0 (k1_pay1 (F := F)) := by
  unfold kernelRun1_A
  dsimp only
  sl_unfold_words
  rw [View.canon_cons_unit_zero (S := S1000x128) hz2, View.readCov_unit_zero (S := S1000x128) _ hz2]
  simp only [View.readAt_eq_ld, harg2.read_unread, harg3.read_unread, View.ld_unit_zero (S := S1000x3200) hz2]
  try rfl

/-- Where it is 1, 2 or 3 they leave one step from what the accumulator held. -/
theorem canon_B (c : Dev nD) (i : grid1.Coords) (arg2 : Memref sig .tc .vmem S1000x3200 .f32) (harg2 : arg2.IsWhole) (arg3 : Memref sig .tc .vmem S16000x128 .bf16) (harg3 : arg3.IsWhole) (arg4 : Memref sig .tc .vmem S1x128 .f32) (harg4 : arg4.IsWhole) (arg5 : Memref sig .tc .vmem S1000x128 .f32) (harg5 : arg5.IsWhole) (arg6 : Memref sig .tc .vmem S1000x128 .f32) (harg6 : arg6.IsWhole) (hc0 : ¬cond1_0 i) (hc1 : ¬cond1_1 i)
    (x0 : Vec F S1000x3200 .f32) (x1 : Vec F S16000x128 .bf16) (x2 : Vec F S1x128 .f32) (xs0 : Vec F S1000x128 .f32) :
    View.canon (kernelRun1_B c i arg2 harg2 arg3 harg3 arg4 harg4 arg5 harg5 arg6 harg6 hc0 hc1 x0 x1 x2 xs0).2.1
      = k1_pay2 (slice1 i x1) x0 xs0 := by
  unfold kernelRun1_B
  dsimp only
  rw [View.canon_unit_zero (S := S1000x128) hz2]
  simp only [View.readAt_eq_ld, harg2.read_unread, harg3.read_unread, harg6.read_unread,
    View.ld_unit_zero (S := S1000x3200) hz2, View.ld_unit_zero (S := S1000x128) hz2]
  try rfl

/-- Where it is 4 likewise, -/
theorem canon_C_acc (c : Dev nD) (i : grid1.Coords) (arg2 : Memref sig .tc .vmem S1000x3200 .f32) (harg2 : arg2.IsWhole) (arg3 : Memref sig .tc .vmem S16000x128 .bf16) (harg3 : arg3.IsWhole) (arg4 : Memref sig .tc .vmem S1x128 .f32) (harg4 : arg4.IsWhole) (arg5 : Memref sig .tc .vmem S1000x128 .f32) (harg5 : arg5.IsWhole) (arg6 : Memref sig .tc .vmem S1000x128 .f32) (harg6 : arg6.IsWhole) (hc0 : ¬cond1_0 i) (hc1 : cond1_1 i)
    (x0 : Vec F S1000x3200 .f32) (x1 : Vec F S16000x128 .bf16) (x2 : Vec F S1x128 .f32) (xs0 : Vec F S1000x128 .f32) :
    View.canon (kernelRun1_C c i arg2 harg2 arg3 harg3 arg4 harg4 arg5 harg5 arg6 harg6 hc0 hc1 x0 x1 x2 xs0).2.1
      = k1_pay2 (slice1 i x1) x0 xs0 := by
  unfold kernelRun1_C
  dsimp only
  sl_unfold_words
  rw [View.canon_unit_zero (S := S1000x128) hz2]
  simp only [View.readAt_eq_ld, harg2.read_unread, harg3.read_unread, harg6.read_unread,
    View.ld_unit_zero (S := S1000x3200) hz2, View.ld_unit_zero (S := S1000x128) hz2]
  try rfl

/-- and the output block's one write is that total, read back, plus the bias row. -/
theorem canon_C_out (c : Dev nD) (i : grid1.Coords) (arg2 : Memref sig .tc .vmem S1000x3200 .f32) (harg2 : arg2.IsWhole) (arg3 : Memref sig .tc .vmem S16000x128 .bf16) (harg3 : arg3.IsWhole) (arg4 : Memref sig .tc .vmem S1x128 .f32) (harg4 : arg4.IsWhole) (arg5 : Memref sig .tc .vmem S1000x128 .f32) (harg5 : arg5.IsWhole) (arg6 : Memref sig .tc .vmem S1000x128 .f32) (harg6 : arg6.IsWhole) (hc0 : ¬cond1_0 i) (hc1 : cond1_1 i)
    (x0 : Vec F S1000x3200 .f32) (x1 : Vec F S16000x128 .bf16) (x2 : Vec F S1x128 .f32) (xs0 : Vec F S1000x128 .f32) :
    View.canon (kernelRun1_C c i arg2 harg2 arg3 harg3 arg4 harg4 arg5 harg5 arg6 harg6 hc0 hc1 x0 x1 x2 xs0).1
      = k1_pay3 (k1_pay2 (slice1 i x1) x0 xs0) x2 := by
  unfold kernelRun1_C
  dsimp only
  sl_unfold_words
  rw [View.canon_unit_zero (S := S1000x128) hz2, View.readCov_unit_zero (S := S1000x128) _ hz2]
  simp only [View.readAt_eq_ld, harg2.read_unread, harg3.read_unread, harg4.read_unread, harg6.read_unread,
    View.ld_unit_zero (S := S1000x3200) hz2, View.ld_unit_zero (S := S1000x128) hz2, View.ld_unit_zero (S := S1x128) hz2]
  try rfl

/-! ## The same of what each case leaves in the accumulator and in the output's buffer -/

theorem sout1_A_0_eq (c : Dev nD) (i : grid1.Coords) (arg2 : Memref sig .tc .vmem S1000x3200 .f32) (harg2 : arg2.IsWhole) (arg3 : Memref sig .tc .vmem S16000x128 .bf16) (harg3 : arg3.IsWhole) (arg4 : Memref sig .tc .vmem S1x128 .f32) (harg4 : arg4.IsWhole) (arg5 : Memref sig .tc .vmem S1000x128 .f32) (harg5 : arg5.IsWhole) (arg6 : Memref sig .tc .vmem S1000x128 .f32) (harg6 : arg6.IsWhole) (hc0 : cond1_0 i) (hc1 : ¬cond1_1 i)
    (x0 : Vec F S1000x3200 .f32) (x1 : Vec F S16000x128 .bf16) (x2 : Vec F S1x128 .f32) :
    sout1_A_0 c i arg2 harg2 arg3 harg3 arg4 harg4 arg5 harg5 arg6 harg6 hc0 hc1 x0 x1 x2 = k1_pay2 (slice1 i x1) x0 (k1_pay1 (F := F)) := by
  unfold sout1_A_0
  rw [View.read_writes_eq_canon _ _ _ (scover1_A_0 c i arg2 harg2 arg3 harg3 arg4 harg4 arg5 harg5 arg6 harg6 hc0 hc1 x0 x1 x2)]
  exact canon_A c i arg2 harg2 arg3 harg3 arg4 harg4 arg5 harg5 arg6 harg6 hc0 hc1 x0 x1 x2

theorem sout1_B_0_eq (c : Dev nD) (i : grid1.Coords) (arg2 : Memref sig .tc .vmem S1000x3200 .f32) (harg2 : arg2.IsWhole) (arg3 : Memref sig .tc .vmem S16000x128 .bf16) (harg3 : arg3.IsWhole) (arg4 : Memref sig .tc .vmem S1x128 .f32) (harg4 : arg4.IsWhole) (arg5 : Memref sig .tc .vmem S1000x128 .f32) (harg5 : arg5.IsWhole) (arg6 : Memref sig .tc .vmem S1000x128 .f32) (harg6 : arg6.IsWhole) (hc0 : ¬cond1_0 i) (hc1 : ¬cond1_1 i)
    (x0 : Vec F S1000x3200 .f32) (x1 : Vec F S16000x128 .bf16) (x2 : Vec F S1x128 .f32) (xs0 : Vec F S1000x128 .f32) :
    sout1_B_0 c i arg2 harg2 arg3 harg3 arg4 harg4 arg5 harg5 arg6 harg6 hc0 hc1 x0 x1 x2 xs0 = k1_pay2 (slice1 i x1) x0 xs0 := by
  unfold sout1_B_0
  rw [View.read_writes_eq_canon _ _ _ (scover1_B_0 c i arg2 harg2 arg3 harg3 arg4 harg4 arg5 harg5 arg6 harg6 hc0 hc1 x0 x1 x2 xs0)]
  exact canon_B c i arg2 harg2 arg3 harg3 arg4 harg4 arg5 harg5 arg6 harg6 hc0 hc1 x0 x1 x2 xs0

theorem sout1_C_0_eq (c : Dev nD) (i : grid1.Coords) (arg2 : Memref sig .tc .vmem S1000x3200 .f32) (harg2 : arg2.IsWhole) (arg3 : Memref sig .tc .vmem S16000x128 .bf16) (harg3 : arg3.IsWhole) (arg4 : Memref sig .tc .vmem S1x128 .f32) (harg4 : arg4.IsWhole) (arg5 : Memref sig .tc .vmem S1000x128 .f32) (harg5 : arg5.IsWhole) (arg6 : Memref sig .tc .vmem S1000x128 .f32) (harg6 : arg6.IsWhole) (hc0 : ¬cond1_0 i) (hc1 : cond1_1 i)
    (x0 : Vec F S1000x3200 .f32) (x1 : Vec F S16000x128 .bf16) (x2 : Vec F S1x128 .f32) (xs0 : Vec F S1000x128 .f32) :
    sout1_C_0 c i arg2 harg2 arg3 harg3 arg4 harg4 arg5 harg5 arg6 harg6 hc0 hc1 x0 x1 x2 xs0 = k1_pay2 (slice1 i x1) x0 xs0 := by
  unfold sout1_C_0
  rw [View.read_writes_eq_canon _ _ _ (scover1_C_0 c i arg2 harg2 arg3 harg3 arg4 harg4 arg5 harg5 arg6 harg6 hc0 hc1 x0 x1 x2 xs0)]
  exact canon_C_acc c i arg2 harg2 arg3 harg3 arg4 harg4 arg5 harg5 arg6 harg6 hc0 hc1 x0 x1 x2 xs0

theorem out1_C_3_eq (c : Dev nD) (i : grid1.Coords) (arg2 : Memref sig .tc .vmem S1000x3200 .f32) (harg2 : arg2.IsWhole) (arg3 : Memref sig .tc .vmem S16000x128 .bf16) (harg3 : arg3.IsWhole) (arg4 : Memref sig .tc .vmem S1x128 .f32) (harg4 : arg4.IsWhole) (arg5 : Memref sig .tc .vmem S1000x128 .f32) (harg5 : arg5.IsWhole) (arg6 : Memref sig .tc .vmem S1000x128 .f32) (harg6 : arg6.IsWhole) (hc0 : ¬cond1_0 i) (hc1 : cond1_1 i)
    (x0 : Vec F S1000x3200 .f32) (x1 : Vec F S16000x128 .bf16) (x2 : Vec F S1x128 .f32) (xs0 : Vec F S1000x128 .f32) :
    out1_C_3 c i arg2 harg2 arg3 harg3 arg4 harg4 arg5 harg5 arg6 harg6 hc0 hc1 x0 x1 x2 xs0 = k1_pay3 (k1_pay2 (slice1 i x1) x0 xs0) x2 := by
  unfold out1_C_3
  rw [View.read_writes_eq_canon _ _ _ (cover1_C_3 c i arg2 harg2 arg3 harg3 arg4 harg4 arg5 harg5 arg6 harg6 hc0 hc1 x0 x1 x2 xs0)]
  exact canon_C_out c i arg2 harg2 arg3 harg3 arg4 harg4 arg5 harg5 arg6 harg6 hc0 hc1 x0 x1 x2 xs0

end Cert.KernelIdeal.Hand

end
-- ==== Proof.AggregateCover.lean ====
import proofs.«120712_j87625922773142_2_alg».proof.Proof.AggregateRegion
import Idealize.ShloMosaic.Lib.ValueIdx
import Idealize.ShloMosaic.Lib.Pipeline.Value

/-!
# The second region's result from its written-back blocks

The second grid region runs over sixteen row blocks of 1000 rows, five steps each; the result's
block `i` is written back only at the last step of row block `i` (the point `5 i + 4`) and the window
is idle at every other point. The sixteen written-back blocks tile the 16000 × 128 result, row `r`
lying in block `r / 1000`. So once every written-back block is the matching block of one function
of the region's three arrays (the adjacency product plus the bias row), the result array ends
holding that function.
-/

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- What the result array ends holding: row `i₀` of the adjacency array times column `i₁` of the
    projected features, plus entry `i₁` of the bias row. -/
abbrev aggregateG (a : S16000x16000.Idx → Ideal .f32) (t : S16000x128.Idx → Ideal .bf16) (b : S1x128.Idx → Ideal .f32) :
    S16000x128.Idx → Ideal .f32 :=
  fun i => (∑ k : Fin 16000, a (ix2 (⟨(i 0).val, (i 0).isLt⟩ : Fin 16000) k) * t (ix2 k (⟨(i 1).val, (i 1).isLt⟩ : Fin 128)))
    + b (ix2 (0 : Fin 1) (⟨(i 1).val, (i 1).isLt⟩ : Fin 128))

/-- The result window's index map over the grid: at point `t` it is on row block `t / 5`, column
    block zero. -/
theorem aggregate_idx_facts : ∀ t : Fin cfg1.N, win1_3.index t (0 : Fin 2) = t.val / 5 ∧ win1_3.index t (1 : Fin 2) = 0 :=
  (by decide +kernel : ∀ t : Fin grid1.N, _)

/-- Every one of the sixteen row blocks is written back by some point: the last step of its row. -/
theorem aggregate_idx_onto : ∀ q0 : Fin 16, ∃ t : Fin cfg1.N, t.val % 5 = 4 ∧ win1_3.index t = ![q0.val, 0] :=
  (by decide +kernel : ∀ q0 : Fin 16, ∃ t : Fin grid1.N, t.val % 5 = 4 ∧ win1_3.index t = ![q0.val, 0])

/-- An index of the result array lies in point `t`'s block iff each coordinate lies in the block's
    range on its axis. -/
theorem aggregate_mem_blk (t : Fin cfg1.N) (i : S16000x128.Idx) :
    i ∈ ((cfg1.win 3).blk t).view.set ↔ ∀ a : Fin 2, win1_3.index t a * S1000x128.size a ≤ (i a).val ∧ (i a).val < win1_3.index t a * S1000x128.size a + S1000x128.size a := by
  show i ∈ ((View.whole main_v31).slice (win1_3.rect t)).set ↔ _
  rw [View.set_slice_whole, Rect.mem_set_unit]
  exact Iff.rfl

/-- Every index of the result array lies in the block of a point that writes back: row `r` lies in
    row block `r / 1000`, written back at that row block's last step. -/
theorem aggregate_cover (i : S16000x128.Idx) :
    ∃ t : Fin cfg1.N, (cfg1.win 3).flush t = true ∧ i ∈ ((cfg1.win 3).blk t).view.set := by
  have hi0 : (i 0).val < 16000 := (i 0).isLt
  have hi1 : (i 1).val < 128 := (i 1).isLt
  obtain ⟨t, h4, ht⟩ := aggregate_idx_onto ⟨(i 0).val / 1000, by omega⟩
  have q0 : win1_3.index t (0 : Fin 2) = (i 0).val / 1000 := congrFun ht 0
  have q1 : win1_3.index t (1 : Fin 2) = 0 := congrFun ht 1
  refine ⟨t, (flush1_3 t).mpr h4, ?_⟩
  rw [aggregate_mem_blk]
  intro a
  match a with
  | ⟨0, _⟩ => show win1_3.index t (0 : Fin 2) * 1000 ≤ (i 0).val ∧ (i 0).val < win1_3.index t (0 : Fin 2) * 1000 + 1000; omega
  | ⟨1, _⟩ => show win1_3.index t (1 : Fin 2) * 128 ≤ (i 1).val ∧ (i 1).val < win1_3.index t (1 : Fin 2) * 128 + 128; omega

/-- A whole-array function read through point `t`'s block of the result window, at local row `p`
    and column `q`: the function at row `1000 (t / 5) + p`, column `q`. -/
theorem aggregate_blk_read_apply (G : S16000x128.Idx → Ideal .f32) (t : Fin cfg1.N) (p : Fin 1000) (q : Fin 128)
    (k : S16000x128.Idx) (hk0 : (k 0).val = 1000 * (t.val / 5) + p.val) (hk1 : (k 1).val = q.val) :
    ((cfg1.win 3).blk t).view.read (Elt Ideal) G (ix2 p q) = G k := by
  obtain ⟨e0, e1⟩ := aggregate_idx_facts t
  rw [View.read_apply]
  refine congrArg G ?_
  funext a; apply Fin.ext
  match a with
  | ⟨0, _⟩ => show win1_3.index t (0 : Fin 2) * 1000 + 1 * p.val = (k 0).val; omega
  | ⟨1, _⟩ => show win1_3.index t (1 : Fin 2) * 128 + 1 * q.val = (k 1).val; omega

/-- The result array after the region, given that every written-back block is the matching block of
    `aggregateG` of the three arrays as the region finds them. -/
theorem aggregate_final_of (c : Dev nD)
    (hlast : ∀ t : Fin cfg1.N, t.val % 5 = 4 → (outsAt1 (F := Ideal) V c t.val t.isLt).1
      = ((cfg1.win 3).blk t).view.read (Elt Ideal) (aggregateG (V c main_arg4) (V c main_v29) (V c main_v30))) :
    (dat1 (F := Ideal) V c).arrAt 3 cfg1.N = aggregateG (V c main_arg4) (V c main_v29) (V c main_v30) :=
  (dat1 (F := Ideal) V c).arrAt_eq_of_cover 3 (aggregateG (V c main_arg4) (V c main_v29) (V c main_v30))
    (fun t hf => by
      show (cfg1.win 3).cut (grid1.coords t) ((dat1 (F := Ideal) V c).after 3 t) = _
      rw [after1_3]
      exact hlast t ((flush1_3 t).mp hf))
    aggregate_cover

end Cert.KernelIdeal.Hand

end
-- ==== Proof.LibBlockSum.lean ====
/-
  Regrouping a finite sum into consecutive blocks, and a running total as a finite sum.
  Everything here holds in any additive commutative monoid; the extended reals are one
  (their addition is commutative and associative with no finiteness side condition).
-/
import Idealize.ShloMosaic.PureOps.Ideal

open scoped BigOperators

namespace Cert.LibBlockSum

variable {M : Type*} [AddCommMonoid M]

/-- Position `k` of block `i`, for `n` blocks of `m` positions each, is a position below `n * m`. -/
theorem blockIdx_lt {n m i k : ℕ} (hi : i < n) (hk : k < m) : i * m + k < n * m := by
  calc i * m + k < i * m + m := by omega
    _ = (i + 1) * m := by ring
    _ ≤ n * m := Nat.mul_le_mul_right m hi

/-- A sum over `n * m` positions is the sum over the `n` blocks of the sum over the `m` positions
    of each block; position `k` of block `i` is `i * m + k`. -/
theorem sum_blocks_fin (n m : ℕ) (f : Fin (n * m) → M) :
    ∑ j : Fin (n * m), f j
      = ∑ i : Fin n, ∑ k : Fin m, f ⟨i.val * m + k.val, blockIdx_lt i.isLt k.isLt⟩ := by
  rw [← finProdFinEquiv.sum_comp, Fintype.sum_prod_type]
  refine Finset.sum_congr rfl fun i _ => Finset.sum_congr rfl fun k _ => ?_
  congr 1
  ext
  simp only [finProdFinEquiv_apply_val]
  ring

/-- The same regrouping with the block number running over the naturals below `n`. The block number
    is written `i % n`, which is `i` itself there, so that the position is in range for every `i`. -/
theorem sum_blocks_range (n m : ℕ) (hn : 0 < n) (f : Fin (n * m) → M) :
    ∑ j : Fin (n * m), f j
      = ∑ i ∈ Finset.range n, ∑ k : Fin m,
          f ⟨(i % n) * m + k.val, blockIdx_lt (Nat.mod_lt i hn) k.isLt⟩ := by
  rw [sum_blocks_fin n m f,
    ← Fin.sum_univ_eq_sum_range
      (fun i => ∑ k : Fin m, f ⟨(i % n) * m + k.val, blockIdx_lt (Nat.mod_lt i hn) k.isLt⟩) n]
  refine Finset.sum_congr rfl fun i _ => Finset.sum_congr rfl fun k _ => ?_
  congr 1
  ext
  simp only [Nat.mod_eq_of_lt i.isLt]

/-- 8192 positions as 32 blocks of 256, the block number a member of `Fin 32`. -/
theorem sum_blocks_fin32 (f : Fin 8192 → M) :
    ∑ j : Fin 8192, f j
      = ∑ i : Fin 32, ∑ k : Fin 256, f ⟨i.val * 256 + k.val, by omega⟩ :=
  sum_blocks_fin 32 256 f

/-- 8192 positions as 32 blocks of 256, the block number a natural below 32. -/
theorem sum_blocks (f : Fin 8192 → M) :
    ∑ j : Fin 8192, f j
      = ∑ i ∈ Finset.range 32, ∑ k : Fin 256, f ⟨(i % 32) * 256 + k.val, by omega⟩ :=
  sum_blocks_range 32 256 (by norm_num) f

/-- A running total that starts at the first term and adds the next term at every step is, after
    `n` steps, the sum of the first `n + 1` terms. -/
theorem fold_eq_sum (c acc : ℕ → M) (h0 : acc 0 = c 0)
    (hs : ∀ n, acc (n + 1) = acc n + c (n + 1)) (n : ℕ) :
    acc n = ∑ i ∈ Finset.range (n + 1), c i := by
  induction n with
  | zero => simp [h0]
  | succ n ih => rw [hs, ih, Finset.sum_range_succ _ (n + 1)]

end Cert.LibBlockSum
-- ==== Proof.Payloads.lean ====
/-
  The three values the aggregation kernel stores, read at an entry over the extended reals.

  The kernel keeps a [1000, 128] running total. It is set to zero at the first column block of a row of the grid; at
  every column block it grows by the product of a [1000, 3200] block of the adjacency with the matching 3200 rows of
  the [16000, 128] features; at the last column block the bias row is added and the block is written out. Over the
  extended reals the narrowing of the adjacency block is the identity, so entry (r, j) of the product is the plain sum
  of 3200 products. The 16000 positions of the contraction are the five blocks of 3200 one after the other, and the
  running total after the five column blocks is therefore the sum over all 16000.
-/
import proofs.«120712_j87625922773142_2_alg».proof.Proof.Gen.KernelIdeal.Skeleton
import proofs.«120712_j87625922773142_2_alg».proof.Proof.LibDenseBlock
import proofs.«120712_j87625922773142_2_alg».proof.Proof.LibBlockSum
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.ValueIdx
open scoped BigOperators

/-! ## The stored values at an entry -/

/-- The value the first column block stores into the running total is zero everywhere. -/
theorem pay1_apply (r : Fin 1000) (j : Fin 128) : Gen.k1_pay1 (F := Ideal) (ix2 r j) = 0 := by
  unfold Gen.k1_pay1
  simp only [shapeCast_self]
  exact Ideal.ofBits_zero_f32

/-- The value every column block stores into the running total: the total so far plus, at entry (r, j), the sum over
    the block's 3200 positions of adjacency (r, k) times features (k, j). -/
theorem pay2_apply (v6 : Vec Ideal S3200x128 .bf16) (v8 : Vec Ideal S1000x3200 .f32) (v10 : Vec Ideal S1000x128 .f32)
    (r : Fin 1000) (j : Fin 128) :
    Gen.k1_pay2 v6 v8 v10 (ix2 r j) = v10 (ix2 r j) + ∑ k : Fin 3200, v8 (ix2 r k) * v6 (ix2 k j) := by
  unfold Gen.k1_pay2
  simp only [shapeCast_self]
  show v10 (ix2 r j)
      + FloatOps.matmul (DenseBlock.mmDims 1000 3200 128 Gen.dot_S1000x3200_S3200x128_S1000x128_1_0_0_1_n_n_wf) none
          (v8 : FVec Ideal ⟨2, ![1000, 3200]⟩ .f32) (v6 : FVec Ideal ⟨2, ![3200, 128]⟩ .bf16)
          (constant (F := Ideal) ⟨2, ![1000, 128]⟩ .f32 0x00000000#32) (ix2 r j) = _
  rw [DenseBlock.matmul_zero_apply]

/-- The value the last column block writes out: the running total plus the bias row, entry by entry. -/
theorem pay3_apply (v19 : Vec Ideal S1000x128 .f32) (v20 : Vec Ideal S1x128 .f32) (r : Fin 1000) (j : Fin 128) :
    Gen.k1_pay3 v19 v20 (ix2 r j) = v19 (ix2 r j) + v20 (ix2 (0 : Fin 1) j) := by
  unfold Gen.k1_pay3
  simp only [shapeCast_self]
  show v19 (ix2 r j) + broadcastTo (⟨2, ![1000, 128]⟩ : Shape) (v20 : (⟨2, ![1, 128]⟩ : Shape).Idx → EReal)
      Gen.broadcasts_S1x128_S1000x128 (ix2 r j) = _
  rw [broadcastTo_1b_ab_apply]

/-! ## The contraction in five blocks -/

/-- Position `k` of column block `b` is a position of the whole contraction. -/
theorem blockPos_lt (b : Fin 5) (k : Fin 3200) : b.val * 3200 + k.val < 16000 := by
  have hb := b.isLt
  have hk := k.isLt
  omega

/-- A sum over the 16000 positions is the sum over the five column blocks of the sum over each block's 3200
    positions; position `k` of block `b` is `3200 b + k`. -/
theorem sum_five_blocks (f : Fin 16000 → EReal) :
    ∑ k : Fin 16000, f k = ∑ b : Fin 5, ∑ k : Fin 3200, f ⟨b.val * 3200 + k.val, blockPos_lt b k⟩ :=
  Cert.LibBlockSum.sum_blocks_fin 5 3200 f

/-- The part of the contraction the first `n` column blocks cover. The block number is written `b % 5`, which is
    `b` itself below five, so that the position is in range for every natural. -/
def partialSum (f : Fin 16000 → EReal) (n : ℕ) : EReal :=
  ∑ b ∈ Finset.range n, ∑ k : Fin 3200,
    f ⟨(b % 5) * 3200 + k.val, Cert.LibBlockSum.blockIdx_lt (Nat.mod_lt b (by norm_num)) k.isLt⟩

theorem partialSum_zero (f : Fin 16000 → EReal) : partialSum f 0 = 0 := by
  unfold partialSum
  rw [Finset.sum_range_zero]

theorem partialSum_succ (f : Fin 16000 → EReal) (n : ℕ) :
    partialSum f (n + 1) = partialSum f n + ∑ k : Fin 3200,
      f ⟨(n % 5) * 3200 + k.val, Cert.LibBlockSum.blockIdx_lt (Nat.mod_lt n (by norm_num)) k.isLt⟩ := by
  unfold partialSum
  rw [Finset.sum_range_succ]

/-- After all five column blocks the running total is the whole contraction. -/
theorem partialSum_five (f : Fin 16000 → EReal) : partialSum f 5 = ∑ k : Fin 16000, f k :=
  (Cert.LibBlockSum.sum_blocks_range 5 3200 (by norm_num) f).symm

/-- The running total over one row of the grid: zero, then one block more at every column block; after block
    `n` (counted from zero) it is the part of the contraction the first `n + 1` blocks cover. -/
theorem running_total (f : Fin 16000 → EReal) (acc : ℕ → EReal)
    (h0 : acc 0 = 0 + ∑ k : Fin 3200,
      f ⟨(0 % 5) * 3200 + k.val, Cert.LibBlockSum.blockIdx_lt (Nat.mod_lt 0 (by norm_num)) k.isLt⟩)
    (hs : ∀ n, acc (n + 1) = acc n + ∑ k : Fin 3200,
      f ⟨((n + 1) % 5) * 3200 + k.val, Cert.LibBlockSum.blockIdx_lt (Nat.mod_lt (n + 1) (by norm_num)) k.isLt⟩)
    (n : ℕ) : acc n = partialSum f (n + 1) := by
  induction n with
  | zero => rw [h0, partialSum_succ, partialSum_zero]
  | succ n ih => rw [hs, ih, partialSum_succ f (n + 1)]

end Cert.KernelIdeal.Hand

end
-- ==== Proof.AggregateValue.lean ====
/-
  What the aggregation region leaves in its result array, over the extended reals.

  The grid is 16 row blocks by 5 column blocks; point t is row block t / 5, column block t % 5. At every point the
  body adds, to a [1000, 128] running total, the product of the [1000, 3200] block of the adjacency at (t / 5, t % 5)
  with rows 3200 (t % 5) … of the features; the total is set to zero first where t % 5 = 0, and where t % 5 = 4 the
  total plus the bias row is stored into the output block, which is then written back as rows 1000 (t / 5) … of the
  result. By induction on the point, after point t entry (r, j) of the total is the sum of row 1000 (t / 5) + r's
  products over the first t % 5 + 1 column blocks; after the fifth it is the whole contraction over 16000 positions.
-/
import proofs.«120712_j87625922773142_2_alg».proof.Proof.AggregatePieces
import proofs.«120712_j87625922773142_2_alg».proof.Proof.AggregateCover
import proofs.«120712_j87625922773142_2_alg».proof.Proof.Payloads
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

/-! ## The windows' blocks, read off the arrays -/

section blocks
variable {F : FTy → Type} [FloatOps F]

variable (V : (c : Dev nD) → (b : Ref sig .tc) → Buf (Elt F) ((c : Thread nD τ).loc b))

/-- Point `t` of the grid is row block `t / 5`, column block `t % 5`: the block indices of the four windows. -/
theorem idx_facts1 : ∀ t : Fin cfg1.N,
    win1_0.index t (0 : Fin 2) = t.val / 5 ∧ win1_0.index t (1 : Fin 2) = t.val % 5
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val / 5 ∧ win1_3.index t (1 : Fin 2) = 0
    ∧ (grid1.coords t 1).val = t.val % 5 :=
  (by decide +kernel : ∀ t : Fin grid1.N, _)

/-- The adjacency block at point `t`, entry (r, q): row `1000 (t / 5) + r`, column `3200 (t % 5) + q` of the array. -/
theorem iblk1_0_apply (c : Dev nD) (t : Fin cfg1.N) (r : Fin 1000) (q : Fin 3200)
    (h0 : 1000 * (t.val / 5) + r.val < 16000) (h1 : 3200 * (t.val % 5) + q.val < 16000) :
    (iblk1 V c 0 t : Vec F S1000x3200 .f32) (ix2 r q)
      = V c main_arg4 (ix2 (⟨1000 * (t.val / 5) + r.val, h0⟩ : Fin 16000) (⟨3200 * (t.val % 5) + q.val, h1⟩ : Fin 16000)) := by
  obtain ⟨e0, e1, -⟩ := idx_facts1 t
  unfold iblk1
  rw [View.read_apply]
  show V c main_arg4 _ = V c main_arg4 _
  congr 1
  funext a
  apply Fin.ext
  match a with
  | ⟨0, _⟩ => show win1_0.index t (0 : Fin 2) * 1000 + 1 * r.val = 1000 * (t.val / 5) + r.val; rw [e0]; omega
  | ⟨1, _⟩ => show win1_0.index t (1 : Fin 2) * 3200 + 1 * q.val = 3200 * (t.val % 5) + q.val; rw [e1]; omega

/-- The features window holds the whole array at every point. -/
theorem iblk1_1_eq (c : Dev nD) (t : Fin cfg1.N) :
    (iblk1 V c 1 t : Vec F S16000x128 .bf16) = V c main_v29 := by
  obtain ⟨-, -, e0, e1, -⟩ := idx_facts1 t
  funext j
  unfold iblk1
  rw [View.read_apply]
  show V c main_v29 _ = V c main_v29 _
  congr 1
  funext a
  apply Fin.ext
  match a with
  | ⟨0, _⟩ => show win1_1.index t (0 : Fin 2) * 16000 + 1 * (j 0).val = (j 0).val; rw [e0]; omega
  | ⟨1, _⟩ => show win1_1.index t (1 : Fin 2) * 128 + 1 * (j 1).val = (j 1).val; rw [e1]; omega

/-- The bias window holds the whole row at every point. -/
theorem iblk1_2_eq (c : Dev nD) (t : Fin cfg1.N) :
    (iblk1 V c 2 t : Vec F S1x128 .f32) = V c main_v30 := by
  obtain ⟨-, -, -, -, e0, e1, -⟩ := idx_facts1 t
  funext j
  unfold iblk1
  rw [View.read_apply]
  show V c main_v30 _ = V c main_v30 _
  congr 1
  funext a
  apply Fin.ext
  match a with
  | ⟨0, _⟩ => show win1_2.index t (0 : Fin 2) * 1 + 1 * (j 0).val = (j 0).val; rw [e0]; omega
  | ⟨1, _⟩ => show win1_2.index t (1 : Fin 2) * 128 + 1 * (j 1).val = (j 1).val; rw [e1]; omega

end blocks

/-! ## The running total as a partial contraction -/

section arithmetic

/-- Row `r` of row block `i` is a row of the adjacency. -/
theorem rowPos_lt (i : Fin 16) (r : Fin 1000) : 1000 * i.val + r.val < 16000 := by
  have hi := i.isLt
  have hr := r.isLt
  omega

/-- The 16000 products whose sum is entry `(1000 i + r, j)` of adjacency times features. -/
def rowTerms (A : Vec Ideal S16000x16000 .f32) (T : Vec Ideal S16000x128 .bf16) (i : Fin 16) (r : Fin 1000)
    (j : Fin 128) : Fin 16000 → EReal :=
  fun q => A (ix2 (⟨1000 * i.val + r.val, rowPos_lt i r⟩ : Fin 16000) q) * T (ix2 q j)

/-- One column block more: the part of the contraction the first `k + 1` column blocks cover is the part the
    first `k` cover plus block `k`'s 3200 terms. -/
theorem partialSum_step (f : Fin 16000 → EReal) (k : ℕ) (hk : k < 5) (g : Fin 3200 → EReal)
    (hg : ∀ q : Fin 3200, g q = f ⟨3200 * k + q.val, by have := q.isLt; omega⟩) :
    partialSum f (k + 1) = partialSum f k + ∑ q : Fin 3200, g q := by
  rw [partialSum_succ]
  congr 1
  refine Finset.sum_congr rfl fun q _ => ?_
  rw [hg q]
  congr 1
  apply Fin.ext
  show k % 5 * 3200 + q.val = 3200 * k + q.val
  rw [Nat.mod_eq_of_lt hk]
  omega

/-- The running total, point by point. If at the first column block of every row block it is that block's 3200
    terms added to zero, and at every other point the block's terms added to what the point before left, then
    after point `n` — row block `n / 5`, column block `n % 5` — it is the part of the row's contraction that
    the first `n % 5 + 1` column blocks cover. -/
theorem running_total_grid (A : Vec Ideal S16000x16000 .f32) (T : Vec Ideal S16000x128 .bf16)
    (acc : (n : ℕ) → n < 80 → Fin 1000 → Fin 128 → EReal)
    (hfirst : ∀ (n : ℕ) (hn : n < 80), n % 5 = 0 → ∀ (r : Fin 1000) (j : Fin 128),
      acc n hn r j = 0 + ∑ q : Fin 3200,
        rowTerms A T ⟨n / 5, by omega⟩ r j ⟨3200 * (n % 5) + q.val, by have := q.isLt; omega⟩)
    (hnext : ∀ (n : ℕ) (hn : n + 1 < 80), ¬(n + 1) % 5 = 0 → ∀ (r : Fin 1000) (j : Fin 128),
      acc (n + 1) hn r j = acc n (by omega) r j + ∑ q : Fin 3200,
        rowTerms A T ⟨(n + 1) / 5, by omega⟩ r j ⟨3200 * ((n + 1) % 5) + q.val, by have := q.isLt; omega⟩) :
    ∀ (n : ℕ) (hn : n < 80) (r : Fin 1000) (j : Fin 128),
      acc n hn r j = partialSum (rowTerms A T ⟨n / 5, by omega⟩ r j) (n % 5 + 1) := by
  intro n
  induction n with
  | zero =>
    intro hn r j
    rw [hfirst 0 hn rfl r j]
    rw [partialSum_step (rowTerms A T ⟨0 / 5, by omega⟩ r j) (0 % 5) (by omega) _ (fun q => rfl)]
    congr 1
  | succ n ih =>
    intro hn r j
    by_cases h0 : (n + 1) % 5 = 0
    · rw [hfirst (n + 1) hn h0 r j]
      rw [partialSum_step (rowTerms A T ⟨(n + 1) / 5, by omega⟩ r j) ((n + 1) % 5) (by omega) _ (fun q => rfl)]
      congr 1
      rw [h0, partialSum_zero]
    · rw [hnext n hn h0 r j, ih (by omega) r j]
      rw [partialSum_step (rowTerms A T ⟨(n + 1) / 5, by omega⟩ r j) ((n + 1) % 5) (by omega) _ (fun q => rfl)]
      have e1 : (⟨n / 5, by omega⟩ : Fin 16) = ⟨(n + 1) / 5, by omega⟩ := Fin.ext (by show n / 5 = (n + 1) / 5; omega)
      have e2 : n % 5 + 1 = (n + 1) % 5 := by omega
      congr 1
      rw [e1, e2]

end arithmetic

/-! ## The region's points -/

section value

variable (V : (c : Dev nD) → (b : Ref sig .tc) → Buf (Elt Ideal) ((c : Thread nD τ).loc b))

/-- The 3200 terms one column block adds at entry (r, j): the adjacency block's row `r` times column `j` of the
    features' rows that the body loads at grid coordinates `i`. -/
def blockTerms (x0 : Vec Ideal S1000x3200 .f32) (x1 : Vec Ideal S16000x128 .bf16) (i : grid1.Coords) (r : Fin 1000)
    (j : Fin 128) : EReal :=
  ∑ q : Fin 3200, x0 (ix2 r q) * slice1 i x1 (ix2 q j)

/-- A total plus the bias row's entry `j`. -/
def plusBias (s : EReal) (B : Vec Ideal S1x128 .f32) (j : Fin 128) : EReal := s + B (ix2 (0 : Fin 1) j)

/-- The terms column block `t % 5` adds at entry (r, j) at point `t`. -/
def blockSum (c : Dev nD) (t : Fin cfg1.N) (r : Fin 1000) (j : Fin 128) : EReal :=
  blockTerms (iblk1 V c 0 t) (V c main_v29) (grid1.coords t) r j

/-- They are the terms of row `1000 (t / 5) + r` at positions `3200 (t % 5) + q`. -/
theorem blockSum_eq (c : Dev nD) (t : Fin cfg1.N) (ht : t.val < 80) (r : Fin 1000) (j : Fin 128) :
    blockSum V c t r j = ∑ q : Fin 3200,
      rowTerms (V c main_arg4) (V c main_v29) ⟨t.val / 5, by omega⟩ r j
        ⟨3200 * (t.val % 5) + q.val, by have := q.isLt; omega⟩ := by
  obtain ⟨-, -, -, -, -, -, -, -, e8⟩ := idx_facts1 t
  unfold blockSum blockTerms
  refine Finset.sum_congr rfl fun q _ => ?_
  have hq := q.isLt
  have hr := r.isLt
  rw [iblk1_0_apply V c t r q (by omega) (by omega),
    slice1_apply (grid1.coords t) (V c main_v29) q j (by rw [e8]; omega)]
  unfold rowTerms
  have eb : (⟨3200 * (grid1.coords t 1).val + q.val, by rw [e8]; omega⟩ : Fin 16000)
      = ⟨3200 * (t.val % 5) + q.val, by omega⟩ := Fin.ext (by show 3200 * (grid1.coords t 1).val + q.val = _; rw [e8])
  rw [eb]

/-- Where the column block is the first, the running total ends as zero plus the block's terms. -/
theorem acc_A (c : Dev nD) (t : Fin cfg1.N) (h0 : t.val % 5 = 0) (h1 : ¬t.val % 5 = 4) (r : Fin 1000) (j : Fin 128) :
    (outsAt1 V c t.val t.isLt).2 (ix2 r j) = 0 + blockSum V c t r j := by
  rw [outsAt1_A V c t h0 h1]
  dsimp only
  rw [iblk1_1_eq V c t]
  refine (congrFun (sout1_A_0_eq c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (V c main_v29) (iblk1 V c 2 t)) (ix2 r j)).trans ?_
  refine (pay2_apply (slice1 (grid1.coords t) (V c main_v29)) (iblk1 V c 0 t) (Gen.k1_pay1 (F := Ideal)) r j).trans ?_
  rw [pay1_apply]
  rfl

/-- Where it is a middle one, as what the point before left plus the block's terms. -/
theorem acc_B (c : Dev nD) (t : Fin cfg1.N) (h0 : ¬t.val % 5 = 0) (h1 : ¬t.val % 5 = 4) (r : Fin 1000) (j : Fin 128) :
    (outsAt1 V c t.val t.isLt).2 (ix2 r j)
      = (outsAt1 V c (t.val - 1) (Nat.lt_of_le_of_lt (Nat.sub_le _ _) t.isLt)).2 (ix2 r j) + blockSum V c t r j := by
  rw [outsAt1_B V c t h0 h1]
  dsimp only
  rw [iblk1_1_eq V c t]
  refine (congrFun (sout1_B_0_eq c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (V c main_v29) (iblk1 V c 2 t) (outsAt1 V c (t.val - 1) (Nat.lt_of_le_of_lt (Nat.sub_le _ _) t.isLt)).2) (ix2 r j)).trans ?_
  exact pay2_apply (slice1 (grid1.coords t) (V c main_v29)) (iblk1 V c 0 t) (outsAt1 V c (t.val - 1) (Nat.lt_of_le_of_lt (Nat.sub_le _ _) t.isLt)).2 r j

/-- Where it is the last one, likewise; -/
theorem acc_C (c : Dev nD) (t : Fin cfg1.N) (h0 : ¬t.val % 5 = 0) (h1 : t.val % 5 = 4) (r : Fin 1000) (j : Fin 128) :
    (outsAt1 V c t.val t.isLt).2 (ix2 r j)
      = (outsAt1 V c (t.val - 1) (Nat.lt_of_le_of_lt (Nat.sub_le _ _) t.isLt)).2 (ix2 r j) + blockSum V c t r j := by
  rw [outsAt1_C V c t h0 h1]
  dsimp only
  rw [iblk1_1_eq V c t]
  refine (congrFun (sout1_C_0_eq c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (V c main_v29) (iblk1 V c 2 t) (outsAt1 V c (t.val - 1) (Nat.lt_of_le_of_lt (Nat.sub_le _ _) t.isLt)).2) (ix2 r j)).trans ?_
  exact pay2_apply (slice1 (grid1.coords t) (V c main_v29)) (iblk1 V c 0 t) (outsAt1 V c (t.val - 1) (Nat.lt_of_le_of_lt (Nat.sub_le _ _) t.isLt)).2 r j

/-- and there the output's buffer ends as the running total plus the bias row. -/
theorem out_C (c : Dev nD) (t : Fin cfg1.N) (h0 : ¬t.val % 5 = 0) (h1 : t.val % 5 = 4) (r : Fin 1000) (j : Fin 128) :
    (outsAt1 V c t.val t.isLt).1 (ix2 r j)
      = plusBias ((outsAt1 V c t.val t.isLt).2 (ix2 r j)) (V c main_v30) j := by
  rw [outsAt1_C V c t h0 h1]
  dsimp only
  rw [iblk1_1_eq V c t, iblk1_2_eq V c t]
  rw [out1_C_3_eq c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (V c main_v29) (V c main_v30) (outsAt1 V c (t.val - 1) (Nat.lt_of_le_of_lt (Nat.sub_le _ _) t.isLt)).2,
    sout1_C_0_eq c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (V c main_v29) (V c main_v30) (outsAt1 V c (t.val - 1) (Nat.lt_of_le_of_lt (Nat.sub_le _ _) t.isLt)).2]
  exact pay3_apply (Gen.k1_pay2 (slice1 (grid1.coords t) (V c main_v29)) (iblk1 V c 0 t) (outsAt1 V c (t.val - 1) (Nat.lt_of_le_of_lt (Nat.sub_le _ _) t.isLt)).2) (V c main_v30) r j

/-- The running total after point `n`, entry (r, j). -/
def accAt (c : Dev nD) (n : ℕ) (hn : n < 80) (r : Fin 1000) (j : Fin 128) : EReal :=
  (outsAt1 V c n (lt_of_lt_of_eq hn N_1.symm)).2 (ix2 r j)

theorem acc_first (c : Dev nD) (n : ℕ) (hn : n < 80) (h0 : n % 5 = 0) (r : Fin 1000) (j : Fin 128) :
    accAt V c n hn r j = 0 + ∑ q : Fin 3200,
      rowTerms (V c main_arg4) (V c main_v29) ⟨n / 5, by omega⟩ r j ⟨3200 * (n % 5) + q.val, by have := q.isLt; omega⟩ :=
  (acc_A V c ⟨n, lt_of_lt_of_eq hn N_1.symm⟩ h0 (show ¬n % 5 = 4 by omega) r j).trans
    (congrArg (fun s => (0 : EReal) + s) (blockSum_eq V c ⟨n, lt_of_lt_of_eq hn N_1.symm⟩ hn r j))

theorem acc_next (c : Dev nD) (n : ℕ) (hn : n + 1 < 80) (h0 : ¬(n + 1) % 5 = 0) (r : Fin 1000) (j : Fin 128) :
    accAt V c (n + 1) hn r j = accAt V c n (by omega) r j + ∑ q : Fin 3200,
      rowTerms (V c main_arg4) (V c main_v29) ⟨(n + 1) / 5, by omega⟩ r j
        ⟨3200 * ((n + 1) % 5) + q.val, by have := q.isLt; omega⟩ := by
  have hstep : (outsAt1 V c (n + 1) (lt_of_lt_of_eq hn N_1.symm)).2 (ix2 r j)
      = (outsAt1 V c n (lt_of_lt_of_eq (show n < 80 by omega) N_1.symm)).2 (ix2 r j)
        + blockSum V c ⟨n + 1, lt_of_lt_of_eq hn N_1.symm⟩ r j := by
    by_cases h1 : (n + 1) % 5 = 4
    · exact acc_C V c ⟨n + 1, lt_of_lt_of_eq hn N_1.symm⟩ h0 h1 r j
    · exact acc_B V c ⟨n + 1, lt_of_lt_of_eq hn N_1.symm⟩ h0 h1 r j
  exact hstep.trans (congrArg (fun s => accAt V c n (by omega) r j + s)
    (blockSum_eq V c ⟨n + 1, lt_of_lt_of_eq hn N_1.symm⟩ hn r j))

/-- THE INVARIANT. After point `n` — row block `n / 5`, column block `n % 5` — entry (r, j) of the running total
    is the part of row `1000 (n / 5) + r`'s contraction that the first `n % 5 + 1` column blocks cover. -/
theorem acc_eq (c : Dev nD) (n : ℕ) (hn : n < 80) (r : Fin 1000) (j : Fin 128) :
    accAt V c n hn r j
      = partialSum (rowTerms (V c main_arg4) (V c main_v29) ⟨n / 5, by omega⟩ r j) (n % 5 + 1) :=
  running_total_grid (V c main_arg4) (V c main_v29) (accAt V c) (acc_first V c) (acc_next V c) n hn r j

/-- So at the last column block of row block `t / 5` the output's buffer holds, at (r, j), entry
    `(1000 (t / 5) + r, j)` of the aggregation. -/
theorem out_last (c : Dev nD) (t : Fin cfg1.N) (h1 : t.val % 5 = 4) (ht : t.val < 80) (r : Fin 1000) (j : Fin 128) :
    (outsAt1 V c t.val t.isLt).1 (ix2 r j)
      = plusBias (partialSum (rowTerms (V c main_arg4) (V c main_v29) ⟨t.val / 5, by omega⟩ r j) 5)
          (V c main_v30) j := by
  rw [out_C V c t (by omega) h1 r j]
  congr 1
  refine (acc_eq V c t.val ht r j).trans ?_
  rw [h1]

/-- Entry `(1000 i + r, j)` of the aggregation — adjacency times features plus the bias row — is the whole
    contraction of that row's terms plus the bias. -/
theorem aggregateG_row (A : Vec Ideal S16000x16000 .f32) (T : Vec Ideal S16000x128 .bf16) (B : Vec Ideal S1x128 .f32)
    (i : Fin 16) (r : Fin 1000) (j : Fin 128) (y : S16000x128.Idx) (h0 : (y 0).val = 1000 * i.val + r.val)
    (h1 : (y 1).val = j.val) :
    aggregateG A T B y = plusBias (partialSum (rowTerms A T i r j) 5) B j := by
  show (∑ k : Fin 16000, A (ix2 (⟨(y 0).val, (y 0).isLt⟩ : Fin 16000) k) * T (ix2 k (⟨(y 1).val, (y 1).isLt⟩ : Fin 128)))
      + B (ix2 (0 : Fin 1) (⟨(y 1).val, (y 1).isLt⟩ : Fin 128)) = _
  unfold plusBias
  rw [partialSum_five]
  have e0 : (⟨(y 0).val, (y 0).isLt⟩ : Fin 16000) = ⟨1000 * i.val + r.val, rowPos_lt i r⟩ := Fin.ext h0
  have e1 : (⟨(y 1).val, (y 1).isLt⟩ : Fin 128) = j := Fin.ext h1
  rw [e0, e1]
  rfl

/-- At the last column block of a row block the output's buffer holds that row block of the aggregation. -/
theorem out_last_block (c : Dev nD) (t : Fin cfg1.N) (h1 : t.val % 5 = 4) :
    (outsAt1 (F := Ideal) V c t.val t.isLt).1
      = ((cfg1.win 3).blk t).view.read (Elt Ideal) (aggregateG (V c main_arg4) (V c main_v29) (V c main_v30)) := by
  have ht : t.val < 80 := lt_of_lt_of_eq t.isLt N_1
  funext y
  obtain ⟨p, q, rfl⟩ : ∃ (p : Fin 1000) (q : Fin 128), y = ix2 p q := ⟨y 0, y 1, eq_ix2 y⟩
  refine Eq.trans ?_ (aggregate_blk_read_apply (aggregateG (V c main_arg4) (V c main_v29) (V c main_v30)) t p q
    (ix2 (⟨1000 * (t.val / 5) + p.val, by have := p.isLt; omega⟩ : Fin 16000) q) rfl rfl).symm
  rw [out_last V c t h1 ht p q]
  exact (aggregateG_row (V c main_arg4) (V c main_v29) (V c main_v30) ⟨t.val / 5, by omega⟩ p q _ rfl rfl).symm

/-- THE RESULT of the aggregation region: its result array ends holding adjacency times features plus the bias row. -/
theorem aggregate_final (c : Dev nD) :
    (dat1 (F := Ideal) V c).arrAt 3 cfg1.N = aggregateG (V c main_arg4) (V c main_v29) (V c main_v30) :=
  aggregate_final_of V c (out_last_block V c)

end value

end Cert.KernelIdeal.Hand

end
-- ==== Proof.Spec.lean ====
/-
  The graph convolution both programs compute, as one function of the argument arrays.

  With node features `x : [16000, 128]`, a weight matrix `w : [128, 128]`, an adjacency matrix `a : [16000, 16000]` and a
  bias vector `b : [128]`, entry `(n, q)` of the result is

      Σ k, a (n, k) * (Σ d, x (k, d) * w (d, q))  +  b q

  over the extended reals.  The inner sum is the projected feature row of node `k`; the outer sum aggregates the projected
  rows of the neighbours of node `n`.  Nothing here needs the entries to be finite: the two programs form the same products
  and add them in the same grouping up to the order of one finite sum, which addition on the extended reals allows.
-/
import Idealize.ShloMosaic.Lib.ValueIdx
import Idealize.ShloMosaic.PureOps.Ideal

noncomputable section

namespace Cert.Spec

open Idealize.ShloMosaic Idealize.ShloMosaic.ValueIdx

/-- The shapes, spelt as literals. -/
abbrev Nodes : Shape := ⟨2, ![16000, 128]⟩
abbrev Weights : Shape := ⟨2, ![128, 128]⟩
abbrev Adj : Shape := ⟨2, ![16000, 16000]⟩
abbrev Bias : Shape := ⟨1, ![128]⟩

/-- The projected features: row `k` of `x` times the weight matrix. -/
def project (x : Nodes.Idx → EReal) (w : Weights.Idx → EReal) : Nodes.Idx → EReal :=
  fun i => ∑ d : Fin 128, x (ix2 (⟨(i 0).val, (i 0).isLt⟩ : Fin 16000) d) * w (ix2 d (⟨(i 1).val, (i 1).isLt⟩ : Fin 128))

/-- The aggregation of the rows `t` along the adjacency matrix, plus the bias. -/
def aggregate (a : Adj.Idx → EReal) (t : Nodes.Idx → EReal) (b : Bias.Idx → EReal) : Nodes.Idx → EReal :=
  fun i => (∑ k : Fin 16000, a (ix2 (⟨(i 0).val, (i 0).isLt⟩ : Fin 16000) k) * t (ix2 k (⟨(i 1).val, (i 1).isLt⟩ : Fin 128)))
    + b (ix1 (⟨(i 1).val, (i 1).isLt⟩ : Fin 128))

/-- The graph convolution: aggregate the projected features, add the bias. -/
def gcn (x : Nodes.Idx → EReal) (w : Weights.Idx → EReal) (a : Adj.Idx → EReal) (b : Bias.Idx → EReal) : Nodes.Idx → EReal :=
  aggregate a (project x w) b

end Cert.Spec

end
-- ==== Proof.KernelValue.lean ====
/-
  The kernel's result array is the graph convolution of its argument arrays.

  The aggregation region leaves, at entry `(n, q)`, the sum over the 16000 nodes `k` of the adjacency entry `(n, k)`
  times entry `(k, q)` of the array the projection region left, plus entry `q` of the bias row.  The projection region
  left, at `(k, q)`, the sum over the 128 feature columns `d` of the joined node features at `(k, d)` times the weight
  `(d, q)`.  The adjacency matrix, the weights and the bias vector reach the regions as launched (no host operation writes
  them, and the bias row is the bias vector seen as one row); the joined node features are what the gathers and the
  concatenation compute from the launch arrays, kept as one unopened function.
-/
import proofs.«120712_j87625922773142_2_alg».proof.Proof.KernelRun
import proofs.«120712_j87625922773142_2_alg».proof.Proof.ProjectValue
import proofs.«120712_j87625922773142_2_alg».proof.Proof.AggregateValue
import proofs.«120712_j87625922773142_2_alg».proof.Proof.Spec
import Idealize.ShloMosaic.Lib.ValueLayout
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-- The joined node features the projection region is entered with: the contents of the concatenation's result after
    the gathers and the concatenation have run from the launch memory. -/
abbrev features (c : Dev nD) : S16000x128.Idx → EReal := B1 (F := Ideal) m c main_v28

/-- The weights reach the projection region as launched. -/
theorem entry_weights (c : Dev nD) : B1 (F := Ideal) m c main_arg16 = m ((c : Thread nD τ).loc main_arg16) :=
  W1_keep m c main_arg16 (by decide)

/-- The adjacency matrix reaches the aggregation region as launched. -/
theorem entry_adj (c : Dev nD) : B3 (F := Ideal) m c main_arg4 = m ((c : Thread nD τ).loc main_arg4) :=
  (W3_keep m c main_arg4 (by decide)).trans <| (W2_keep m c main_arg4 (by decide)).trans <| (W1_keep m c main_arg4 (by decide)).trans rfl

/-- The aggregation region finds, in the projection's result array, what the projection region's write-backs left. -/
theorem entry_projected (c : Dev nD) : B3 (F := Ideal) m c main_v29 = (dat0 (F := Ideal) (B1 m) c).arrAt 2 cfg0.N :=
  (W3_keep m c main_v29 (by decide)).trans (W2_arr m c 2)

/-- The bias row the aggregation region is entered with is the launched bias vector seen as one row. -/
theorem entry_bias (c : Dev nD) (j : Fin 128) :
    (B3 (F := Ideal) m c main_v30 : S1x128.Idx → EReal) (ix2 (0 : Fin 1) j) = (m ((c : Thread nD τ).loc main_arg17) : S128.Idx → EReal) (ix1 j) := by
  have e : (B3 (F := Ideal) m c main_v30 : S1x128.Idx → EReal)
      = shapeCast S1x128 (W2 (F := Ideal) m c (Proc.devRef .tc main_arg17) : S128.Idx → EReal) shapeCasts_S128_S1x128 := by
    show StableHlo.after (hostOps1 (F := Ideal)) (W2 (F := Ideal) m c) (Proc.devRef .tc main_v30) = _
    after_results
    rfl
  rw [e, shapeCast_a_1a_apply]
  exact congrFun ((W2_keep m c main_arg17 (by decide)).trans ((W1_keep m c main_arg17 (by decide)).trans rfl)) _

/-- The result array the kernel ends with is the specification's function of the joined node features and the launched
    weights, adjacency matrix and bias vector. -/
theorem result_value (c : Dev nD) :
    (dat1 (F := Ideal) (B3 m) c).arrAt 3 cfg1.N
      = Cert.Spec.gcn (features m c) (m ((c : Thread nD τ).loc main_arg16)) (m ((c : Thread nD τ).loc main_arg4)) (m ((c : Thread nD τ).loc main_arg17)) := by
  rw [aggregate_final (B3 m) c, entry_adj, entry_projected, project_final (B1 m) c, entry_weights]
  funext i
  have hb := entry_bias m c ⟨(i 1).val, (i 1).isLt⟩
  exact congrArg₂ (fun (x y : EReal) => x + y) rfl hb

end Cert.KernelIdeal.Hand

end
-- ==== Proof.RefValue.lean ====
/-
  The reference's result is the graph convolution of its argument arrays.

  The reference gathers the four embedding tables, joins the gathered rows into the node features, multiplies by the
  weight matrix, multiplies the adjacency matrix by the product and adds the bias vector broadcast along the rows.  Read at
  an entry `(n, q)` these are the inner sum over the 128 feature columns, the outer sum over the 16000 nodes and the
  bias entry `q`: the specification's function of the node features.  The node features themselves (the gathers and
  their concatenation) are kept as one unopened function of the arguments.
-/
import proofs.«120712_j87625922773142_2_alg».proof.Proof.Gen.ReferenceIdeal.Read
import proofs.«120712_j87625922773142_2_alg».proof.Proof.Spec

noncomputable section

namespace Cert.ReferenceIdeal.RefValue

open Cert.ReferenceIdeal Cert.ReferenceIdeal.Read Idealize.ShloMosaic Idealize.ShloMosaic.ValueIdx

/-- The reference's result array, index by index, is `Spec.gcn` of the joined node features, the weights, the adjacency
    matrix and the bias. -/
theorem result_eq (x0 x1 x2 x3 : (⟨S16000, .i32⟩ : BufTy).Contents (Elt Ideal)) (x4 : (⟨S16000x16000, .f32⟩ : BufTy).Contents (Elt Ideal))
    (x8 : (⟨S16000x32, .f32⟩ : BufTy).Contents (Elt Ideal)) (x9 : (⟨S20x32, .f32⟩ : BufTy).Contents (Elt Ideal))
    (x10 : (⟨S2200x32, .f32⟩ : BufTy).Contents (Elt Ideal)) (x11 : (⟨S6x32, .f32⟩ : BufTy).Contents (Elt Ideal))
    (x16 : (⟨S128x128, .f32⟩ : BufTy).Contents (Elt Ideal)) (x17 : (⟨S128, .f32⟩ : BufTy).Contents (Elt Ideal)) :
    val_main_v149 (F := Ideal) x0 x1 x2 x3 x4 x8 x9 x10 x11 x16 x17
      = Cert.Spec.gcn (val_main_v28 (F := Ideal) x0 x1 x2 x3 x8 x9 x10 x11) x16 x4 x17 := by
  funext i
  have e1 : ∀ k : Fin 16000, lidx_main_v146 i k = ix2 (⟨(i 0).val, (i 0).isLt⟩ : Fin 16000) k := fun k =>
    funext fun a => Fin.ext (by match a with | ⟨0, _⟩ => rfl | ⟨1, _⟩ => rfl)
  have e2 : ∀ (k : Fin 16000) (d : Fin 128), lidx_main_v145 (ridx_main_v146 i k) d = ix2 k d := fun k d =>
    funext fun a => Fin.ext (by match a with | ⟨0, _⟩ => rfl | ⟨1, _⟩ => rfl)
  have e3 : ∀ (k : Fin 16000) (d : Fin 128), ridx_main_v145 (ridx_main_v146 i k) d = ix2 d (⟨(i 1).val, (i 1).isLt⟩ : Fin 128) := fun k d =>
    funext fun a => Fin.ext (by match a with | ⟨0, _⟩ => rfl | ⟨1, _⟩ => rfl)
  have e4 : idx_main_v147 (idx_main_v148 i) = ix1 (⟨(i 1).val, (i 1).isLt⟩ : Fin 128) :=
    funext fun a => Fin.ext (by match a with | ⟨0, _⟩ => rfl)
  rw [val_main_v149_apply, val_main_v146_apply, val_main_v148_apply, val_main_v147_apply, e4]
  simp only [val_main_v145_apply, e1, e2, e3]
  rfl

end Cert.ReferenceIdeal.RefValue

end
-- ==== Proof.lean ====
/-
  The certificate of the graph-convolution kernel against its reference.

  Both programs gather four embedding tables by the node's four integer features, join the gathered rows into the node
  features `x : [16000, 128]`, and return `adj · (x · W) + b`.  The kernel computes `x · W` in a first region, block of
  2000 rows by block, and `adj · (x · W) + b` in a second region over a 16 × 5 grid of adjacency blocks, accumulating the
  five column blocks of a row of blocks in a carried accumulator and adding the bias at the fifth; the reference computes
  the two matrix products whole.  Over the extended reals the two are the same function of the argument arrays
  (`Cert.Spec.gcn`): the kernel's changes of float format are the identity there, and its blocked sum is the reference's
  sum regrouped, which needs nothing of the entries.  The other operations of the reference do not reach its result.

  The three frames: each program runs to the end from any memory, faults nowhere, and leaves its argument arrays as
  launched.  For the kernel (read at the word level and over the extended reals by one proof) this is the run of its four
  items — host operations, projection region, one host reshape, aggregation region —; for the reference it is its run
  with the result dropped.  The idealization rewrote no operation, so `preserves` holds trivially.
-/
import proofs.«120712_j87625922773142_2_alg».proof.Defs
import proofs.«120712_j87625922773142_2_alg».proof.Proof.Gen.Kernel
import proofs.«120712_j87625922773142_2_alg».proof.Proof.Gen.KernelIdeal
import proofs.«120712_j87625922773142_2_alg».proof.Proof.Gen.ReferenceIdeal
import proofs.«120712_j87625922773142_2_alg».proof.Proof.Gen.Pre_finite_inputs
import proofs.«120712_j87625922773142_2_alg».proof.Proof.Gen.ReferenceIdeal.Read
import proofs.«120712_j87625922773142_2_alg».proof.Proof.WordKernelRun
import proofs.«120712_j87625922773142_2_alg».proof.Proof.KernelValue
import proofs.«120712_j87625922773142_2_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-- The node features the kernel's projection region is entered with are the reference's joined features of the same
    launch arrays: the two programs apply the same gathers and the same concatenation. -/
theorem features_eq (m : (ℓ : Loc Cert.KernelIdeal.nD Cert.KernelIdeal.τ Cert.KernelIdeal.sig) → Buf (Elt Ideal) ℓ) (c : Dev Cert.KernelIdeal.nD) :
    Cert.KernelIdeal.Hand.features m c
      = Cert.ReferenceIdeal.Read.val_main_v28 (F := Ideal)
          (m ((c : Thread Cert.KernelIdeal.nD Cert.KernelIdeal.τ).loc Cert.KernelIdeal.main_arg0)) (m ((c : Thread Cert.KernelIdeal.nD Cert.KernelIdeal.τ).loc Cert.KernelIdeal.main_arg1))
          (m ((c : Thread Cert.KernelIdeal.nD Cert.KernelIdeal.τ).loc Cert.KernelIdeal.main_arg2)) (m ((c : Thread Cert.KernelIdeal.nD Cert.KernelIdeal.τ).loc Cert.KernelIdeal.main_arg3))
          (m ((c : Thread Cert.KernelIdeal.nD Cert.KernelIdeal.τ).loc Cert.KernelIdeal.main_arg8)) (m ((c : Thread Cert.KernelIdeal.nD Cert.KernelIdeal.τ).loc Cert.KernelIdeal.main_arg9))
          (m ((c : Thread Cert.KernelIdeal.nD Cert.KernelIdeal.τ).loc Cert.KernelIdeal.main_arg10)) (m ((c : Thread Cert.KernelIdeal.nD Cert.KernelIdeal.τ).loc Cert.KernelIdeal.main_arg11)) := by
  show StableHlo.after (Cert.KernelIdeal.Gen.hostOps0 (F := Ideal)) (fun b => m (c, b)) (Proc.devRef .tc Cert.KernelIdeal.main_v28) = _
  after_results
  rfl

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

/-- Over the extended reals the kernel's result array and the reference's, from memories agreeing on the arguments, are
    both `Cert.Spec.gcn` of the joined node features, the weights, the adjacency matrix and the bias. -/
theorem algebraic : Cert.algebraic_KernelIdeal_ReferenceIdeal := by
  intro m ρ m' ρ' _ hagree
  refine ⟨fun c => Cert.Spec.gcn (Cert.KernelIdeal.Hand.features m c)
      (m ((c : Thread Cert.KernelIdeal.nD Cert.KernelIdeal.τ).loc Cert.KernelIdeal.main_arg16))
      (m ((c : Thread Cert.KernelIdeal.nD Cert.KernelIdeal.τ).loc Cert.KernelIdeal.main_arg4))
      (m ((c : Thread Cert.KernelIdeal.nD Cert.KernelIdeal.τ).loc Cert.KernelIdeal.main_arg17)), ?_, ?_⟩
  · exact (θ_run Cert.KernelIdeal.defs _ _).mono
      (fun r h c => ⟨(h c).1.trans (Cert.KernelIdeal.Hand.result_value m c), (h c).2⟩)
      (Cert.KernelIdeal.Hand.run_result m ρ)
  · refine (θ_run Cert.ReferenceIdeal.defs _ _).mono (fun r h c => ⟨?_, (h c).2⟩)
      (Cert.ReferenceIdeal.Value.run (F := Ideal) m' ρ')
    obtain ⟨a0, a1, a2, a3, a4, a5, a6, a7, a8, a9, a10, a11, a12, a13, a14, a15, a16, a17, -⟩ := hagree c
    rw [(h c).1, Cert.ReferenceIdeal.Read.val_main_v149_eq, Cert.ReferenceIdeal.RefValue.result_eq,
      a0, a1, a2, a3, a4, a8, a9, a10, a11, a16, a17, ← features_eq m c]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
